-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg10 : FVec F S256x128 .f32) (main_arg11 : FVec F S128 .f32) (main_arg12 : FVec F S128x2 .f32) (main_arg13 : FVec F S2 .f32) (main_v33 : IVec S_ 1) : IVec S_ 1 :=
  let main_v34 : FVec F S256x128 .f32 := Host.absf main_arg10
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x2 .f32 := Host.absf main_arg12
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg13
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg7 : FVec F S128 .f32) (main_arg8 : FVec F S128x256 .f32) (main_arg9 : FVec F S256 .f32) (main_arg10 : FVec F S256x128 .f32) (main_arg11 : FVec F S128 .f32) (main_arg12 : FVec F S128x2 .f32) (main_arg13 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg8
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S100000x128 .f32) (main_arg1 : IVec S1600000 32) (main_arg2 : IVec S1600000 32) (main_arg3 : IVec S100000 32) (main_arg4 : FVec F S128x128 .f32) (main_arg5 : FVec F S128 .f32) (main_arg6 : FVec F S128x128 .f32) (main_arg7 : FVec F S128 .f32) (main_arg8 : FVec F S128x256 .f32) (main_arg9 : FVec F S256 .f32) (main_arg10 : FVec F S256x128 .f32) (main_arg11 : FVec F S128 .f32) (main_arg12 : FVec F S128x2 .f32) (main_arg13 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_v13 main_v16
-- ==== Kernel.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x2 : Shape := ⟨2, ![128, 2]⟩
abbrev S2 : Shape := ⟨1, ![2]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S512x128 : Shape := ⟨2, ![512, 128]⟩
abbrev S1x256 : Shape := ⟨2, ![1, 256]⟩
abbrev S1x2 : Shape := ⟨2, ![1, 2]⟩
abbrev S512x2 : Shape := ⟨2, ![512, 2]⟩
abbrev S512x256 : Shape := ⟨2, ![512, 256]⟩

abbrev nBuf : Space → Nat
  | .hbm => 72
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S128x2, .f32⟩
  | .hbm, ⟨13, _⟩ => ⟨S2, .f32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S1700000x1, .i32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x128, .f32⟩
  | .hbm, ⟨40, _⟩ => ⟨S_, .f32⟩
  | .hbm, ⟨41, _⟩ => ⟨S100000x128, .f32⟩
  | .hbm, ⟨42, _⟩ => ⟨S1700000x1, .i32⟩
  | .hbm, ⟨43, _⟩ => ⟨S100000x128, .f32⟩
  | .hbm, ⟨44, _⟩ => ⟨S100000x1, .f32⟩
  | .hbm, ⟨45, _⟩ => ⟨S100000x1, .f32⟩
  | .hbm, ⟨46, _⟩ => ⟨S1x128, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S100000x1, .f32⟩
  | .hbm, ⟨62, _⟩ => ⟨S1x128, .f32⟩
  | .hbm, ⟨63, _⟩ => ⟨S100000x128, .f32⟩
  | .hbm, ⟨64, _⟩ => ⟨S_, .f32⟩
  | .hbm, ⟨65, _⟩ => ⟨S512x128, .f32⟩
  | .hbm, ⟨66, _⟩ => ⟨S100000x1, .i32⟩
  | .hbm, ⟨67, _⟩ => ⟨S512x128, .f32⟩
  | .hbm, ⟨68, _⟩ => ⟨S1x256, .f32⟩
  | .hbm, ⟨69, _⟩ => ⟨S1x128, .f32⟩
  | .hbm, ⟨70, _⟩ => ⟨S1x2, .f32⟩
  | .hbm, ⟨71, _⟩ => ⟨S512x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S512x128, .f32⟩
  | .local _ .vmem, ⟨25, _⟩ => ⟨S128x256, .f32⟩
  | .local _ .vmem, ⟨26, _⟩ => ⟨S1x256, .f32⟩
  | .local _ .vmem, ⟨27, _⟩ => ⟨S256x128, .f32⟩
  | .local _ .vmem, ⟨28, _⟩ => ⟨S1x128, .f32⟩
  | .local _ .vmem, ⟨29, _⟩ => ⟨S128x2, .f32⟩
  | .local _ .vmem, ⟨30, _⟩ => ⟨S1x2, .f32⟩
  | .local _ .vmem, ⟨31, _⟩ => ⟨S512x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512x2 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S100000_S100000x1_0 : S100000.BroadcastsInDim S100000x1 (![0] : Fin 1 → Fin S100000x1.rank)
  shapeCasts_S256_S1x256 : S256.ShapeCasts S1x256
  shapeCasts_S2_S1x2 : S2.ShapeCasts S1x2
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x128_S256x128_0_0 : ∀ a, (![0, 0] : Fin 2 → Nat) a + S256x128.size a ≤ S256x128.size a
  h_S256x128 : 0 < S256x128.numel
  broadcasts_S1x128_S512x128 : S1x128.Broadcasts S512x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  dot_S512x128_S128x256_S512x256_1_0_0_1_n_n_wf : DotDims.WF S512x128 S128x256 S512x256 [1] [0] [0] [1] [] []
  dot_S512x256_S256x128_S512x128_1_0_0_1_n_n_wf : DotDims.WF S512x256 S256x128 S512x128 [1] [0] [0] [1] [] []
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x2.size a ≤ S128x2.size a
  hwx3_5 : ∀ i : grid3.Coords, EltTy.bits .f32 = 32 ∨ (Rect.block (s := S128x2) S128x2.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x2.size a ≤ S1x2.size a
  hwx3_6 : ∀ i : grid3.Coords, EltTy.bits .f32 = 32 ∨ (Rect.block (s := S1x2) S1x2.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512x2.size a ≤ S512x2.size a
  hwx3_7 : ∀ i : grid3.Coords, EltTy.bits .f32 = 32 ∨ (Rect.block (s := S512x2) S512x2.size (cc3_transform_7 i) (hinb3_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v43) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S128x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v46) S1x2.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v47) S512x2.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x2 : Shape := ⟨2, ![128, 2]⟩
abbrev S2 : Shape := ⟨1, ![2]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512x256 : Shape := ⟨2, ![512, 256]⟩
abbrev S1x256 : Shape := ⟨2, ![1, 256]⟩
abbrev S512x2 : Shape := ⟨2, ![512, 2]⟩
abbrev S1x2 : Shape := ⟨2, ![1, 2]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S128x2, .f32⟩
  | .hbm, ⟨13, _⟩ => ⟨S2, .f32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S1700000x1, .i32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S512x128, .f32⟩
  | .hbm, ⟨96, _⟩ => ⟨S100000x1, .i32⟩
  | .hbm, ⟨97, _⟩ => ⟨S512x128, .f32⟩
  | .hbm, ⟨98, _⟩ => ⟨S512x256, .f32⟩
  | .hbm, ⟨99, _⟩ => ⟨S1x256, .f32⟩
  | .hbm, ⟨100, _⟩ => ⟨S512x256, .f32⟩
  | .hbm, ⟨101, _⟩ => ⟨S512x256, .f32⟩
  | .hbm, ⟨102, _⟩ => ⟨S_, .f32⟩
  | .hbm, ⟨103, _⟩ => ⟨S512x256, .f32⟩
  | .hbm, ⟨104, _⟩ => ⟨S512x256, .f32⟩
  | .hbm, ⟨105, _⟩ => ⟨S512x128, .f32⟩
  | .hbm, ⟨106, _⟩ => ⟨S1x128, .f32⟩
  | .hbm, ⟨107, _⟩ => ⟨S512x128, .f32⟩
  | .hbm, ⟨108, _⟩ => ⟨S512x128, .f32⟩
  | .hbm, ⟨109, _⟩ => ⟨S_, .f32⟩
  | .hbm, ⟨110, _⟩ => ⟨S512x128, .f32⟩
  | .hbm, ⟨111, _⟩ => ⟨S512x128, .f32⟩
  | .hbm, ⟨112, _⟩ => ⟨S512x2, .f32⟩
  | .hbm, ⟨113, _⟩ => ⟨S1x2, .f32⟩
  | .hbm, ⟨114, _⟩ => ⟨S512x2, .f32⟩
  | .hbm, ⟨115, _⟩ => ⟨S512x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call0_cst : Ref sig .tc := ⟨.hbm, 68, rfl⟩
abbrev main_call0_v0 : Ref sig .tc := ⟨.hbm, 69, rfl⟩
abbrev main_v44 : Ref sig .tc := ⟨.hbm, 70, rfl⟩
abbrev main_v45 : Ref sig .tc := ⟨.hbm, 71, rfl⟩
abbrev main_c_8 : Ref sig .tc := ⟨.hbm, 72, rfl⟩
abbrev main_v46 : Ref sig .tc := ⟨.hbm, 73, rfl⟩
abbrev main_v47 : Ref sig .tc := ⟨.hbm, 74, rfl⟩
abbrev main_c_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_call1_cst : Ref sig .tc := ⟨.hbm, 91, rfl⟩
abbrev main_call1_v0 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_call2_cst : Ref sig .tc := ⟨.hbm, 102, rfl⟩
abbrev main_call2_v0 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_call3_cst : Ref sig .tc := ⟨.hbm, 109, rfl⟩
abbrev main_call3_v0 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S1x128_S512x128_0_1 : S1x128.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  dot_S512x128_S128x256_S512x256_1_0_0_1_n_n_wf : DotDims.WF S512x128 S128x256 S512x256 [1] [0] [0] [1] [] []
  dot_S512x256_S256x128_S512x128_1_0_0_1_n_n_wf : DotDims.WF S512x256 S256x128 S512x128 [1] [0] [0] [1] [] []
  dot_S512x128_S128x2_S512x2_1_0_0_1_n_n_wf : DotDims.WF S512x128 S128x2 S512x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.LibVecIndex.lean ====
/-
  Two reusable general lemmas about indexing a VECTOR (a rank-1 operand) by an integer column, each read at an index.

  The accumulating scatter. What `segment_sum(u, idx, N)` (or `x.at[idx].add(u)`) of a vector of updates `u : [E]` at an
  integer array `idx : [E]` lowers to: a scatter with an `add` body, no update window axes, inserted_window_dims `[0]`,
  scatter_dims_to_operand_dims `[0]` and index_vector_dim 1 over the indices as a column `[E, 1]`. Update entry `e`
  lands on operand entry `idx[e, 0]`: the index is read as a SIGNED integer and NOT clamped, so an update whose index is
  negative or at least `N` lands nowhere and is dropped. On the extended reals the result at `n` is therefore the
  operand's entry plus the sum of the updates `u e` over the `e` whose index is `n`.

  The gather. What `x[idx]` of a vector `x : [N]` at an integer array `idx : [R]` lowers to: a gather with no offset
  axes, collapsed_slice_dims `[0]`, start_index_map `[0]`, index_vector_dim 1 and slice sizes `[1]` over the indices
  as a column `[R, 1]`. Result element `r` is `x` at `idx[r, 0]`, read as a signed integer and clamped into
  `[0, N − 1]`, as the operation clamps every start index so that the slice fits.

  Both are stated at any extents and any index width; the gather at any element type.
-/
import Idealize.ShloMosaic.Lib.ValueIdx
import Idealize.ShloMosaic.PureOps.Ideal

noncomputable section

open scoped BigOperators

namespace Idealize.ShloMosaic.ScatterVec

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The vector scatter's dimension numbers for an operand `[N]`, scatter indices `[E, 1]` and updates `[E]`; their
    conditions `wf` are decided on a program's literal shapes. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- On the operand's one axis the window of update `e` starts at the index `idx[e, 0]`, read signed. -/
theorem start_zero (idx : IVec ⟨2, ![E, 1]⟩ w) (e : Fin E) :
    (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted one: the window coordinate is `0` there. -/
theorem window_zero (e : Fin E) : (vecDims N E wf).window (ix1 e) 0 = 0 := by
  unfold ScatterDims.window
  rw [dif_neg (show (0 : Fin 1) ∉ (vecDims N E wf).sKept from
    (by decide : (0 : Fin 1) ∉ (List.finRange 1).filter (· ∉ [(0 : Fin 1)])))]

/-- Update `e` lands on `n` exactly when its index, read signed, is `n`. -/
theorem resultIdx?_eq_some_iff (idx : IVec ⟨2, ![E, 1]⟩ w) (e : Fin E) (n : Fin N) :
    (vecDims N E wf).resultIdx? (ix1 e) idx = some (ix1 n)
      ↔ (idx (ix2 e (0 : Fin 1))).toInt = (n.val : Int) := by
  have hn := n.isLt
  unfold ScatterDims.resultIdx?
  by_cases h : ∀ a, 0 ≤ (vecDims N E wf).start (ix1 e) idx a + (vecDims N E wf).window (ix1 e) a
      ∧ (vecDims N E wf).start (ix1 e) idx a + (vecDims N E wf).window (ix1 e) a
        < ((⟨1, ![N]⟩ : Shape).size a : Int)
  · rw [dif_pos h, Option.some.injEq]
    have h0 := h 0
    rw [start_zero, window_zero] at h0
    constructor
    · intro heq
      have e0 := congrArg Fin.val (congrFun heq 0)
      change ((vecDims N E wf).start (ix1 e) idx 0 + ((vecDims N E wf).window (ix1 e) 0 : Nat)).toNat = n.val at e0
      rw [start_zero, window_zero] at e0
      omega
    · intro ht
      funext a
      refine Fin.ext ?_
      match a with
      | ⟨0, _⟩ =>
        show ((vecDims N E wf).start (ix1 e) idx 0 + ((vecDims N E wf).window (ix1 e) 0 : Nat)).toNat = n.val
        rw [start_zero, window_zero]; omega
  · rw [dif_neg h]
    refine ⟨fun hh => absurd hh (by simp), ?_⟩
    intro ht
    refine absurd (fun a => ?_) h
    match a with
    | ⟨0, _⟩ =>
      show 0 ≤ (vecDims N E wf).start (ix1 e) idx 0 + ((vecDims N E wf).window (ix1 e) 0 : Nat)
        ∧ (vecDims N E wf).start (ix1 e) idx 0 + ((vecDims N E wf).window (ix1 e) 0 : Nat) < (N : Int)
      rw [start_zero, window_zero]; omega

/-- THE VECTOR SCATTER-ADD READ AT `n`, on the extended reals: the operand's entry plus the sum of the updates whose
    index (read signed) is `n`. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if (idx (ix2 e (0 : Fin 1))).toInt = (n.val : Int) then upd (ix1 e) else 0 := by
  unfold Ideal.hostScatterAdd
  refine congrArg (x (ix1 n) + ·) ?_
  rw [Finset.sum_filter, sum_idx1]
  refine Finset.sum_congr rfl fun e _ => ?_
  simp only [resultIdx?_eq_some_iff]

/-- The same for the host operation as a program spells it, at any record of these dimension numbers that is the
    vector record (`hd`, by `rfl` on a program's literal record). -/
theorem host_scatterAdd_vec_apply {φ : FTy} (d : ScatterDims ⟨1, ![N]⟩ ⟨2, ![E, 1]⟩ ⟨1, ![E]⟩)
    (hd : d = vecDims N E wf) (x : FVec Ideal ⟨1, ![N]⟩ φ) (idx : IVec ⟨2, ![E, 1]⟩ w)
    (upd : FVec Ideal ⟨1, ![E]⟩ φ) (n : Fin N) :
    Host.scatterAdd d x idx upd (ix1 n)
      = x (ix1 n) + ∑ e : Fin E, if (idx (ix2 e (0 : Fin 1))).toInt = (n.val : Int) then upd (ix1 e) else 0 := by
  subst hd
  exact scatterAdd_vec_apply wf x idx upd n

end Idealize.ShloMosaic.ScatterVec

namespace Idealize.ShloMosaic.GatherVec

open Idealize.ShloMosaic Idealize.ShloMosaic.ValueIdx

variable {α : Type}

/-- The vector gather's dimension numbers for an operand `[N]`, start indices `[R, 1]` and result `[R]`; their
    conditions `wf` are decided on a program's literal shapes. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `r`: the operand at the index `idx[r, 0]`, read signed and clamped into
    `[0, N − 1]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r (0 : Fin 1))).toInt.toNat (N - 1), by omega⟩) := by
  unfold Host.gather
  congr 1
  funext a
  obtain rfl : a = 0 := Subsingleton.elim _ _
  refine Fin.ext ?_
  show (vecDims N R wf).start (ix1 r) idx 0 + (vecDims N R wf).batchCoord (ix1 r) 0
      + (vecDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Idealize.ShloMosaic.GatherVec

end
-- ==== Proof.LibGatherRows.lean ====
/-
  A reusable general lemma: `stablehlo.gather` of WHOLE ROWS of a rank-2 operand, read at an index.

  What `x[idx]` of a table `x : [N, C]` at an integer array `idx : [R]` lowers to: a gather with offset_dims `[1]`,
  collapsed_slice_dims `[0]`, start_index_map `[0]`, index_vector_dim 1 and slice sizes `[1, C]` over the indices as a
  column `[R, 1]`. Result element `(r, c)` is `x` at row `idx[r, 0]` — read as a signed integer and clamped into
  `[0, N − 1]`, as the operation clamps every start index so that the slice fits — and column `c`: on the collapsed
  axis the operand index is the clamped start alone, on the other axis (which the start index map does not name) it is
  the result's own offset coordinate. Stated at any extents `N`, `R`, `C` and any index width.
-/
import Idealize.ShloMosaic.Lib.ValueIdx

noncomputable section

namespace Idealize.ShloMosaic.GatherRows

open Idealize.ShloMosaic Idealize.ShloMosaic.ValueIdx

variable {α : Type}

/-- The row gather's dimension numbers for an operand `[N, C]`, start indices `[R, 1]` and result `[R, C]`; their
    conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N R C wf).start (ix2 r c) idx 0 + (rowDims N R C wf).batchCoord (ix2 r c) 0
        + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
        + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ [(0 : Fin 2)]))]
    simp only [Nat.add_zero, Nat.zero_add]
    rfl

end Idealize.ShloMosaic.GatherRows

end
-- ==== Proof.LibGatherAt.lean ====
/-
  A reusable general lemma, in two ranks: a gather read at a position whose index VALUE is known.

  A gather reads, at position r, the operand's row numbered by the index array's entry at r — read signed and clamped
  into range. When that entry is known to be the word v, the row is the clamp of v. Stating the lemma with the
  equation as a hypothesis lets a proof name the row by the word it comes from, without rewriting inside the clamp.
-/
import Idealize.ShloMosaic.Lib.ValueIdx
import proofs.«178891_j7834020348011_2_alg».proof.Proof.LibVecIndex
import proofs.«178891_j7834020348011_2_alg».proof.Proof.LibGatherRows

noncomputable section

namespace Idealize.ShloMosaic.GatherAt

open Idealize.ShloMosaic Idealize.ShloMosaic.ValueIdx

variable {α : Type}

/-- The row an index word names in an axis of extent N: read signed, clamped into [0, N − 1]. -/
def clampRow {w : Nat} (N : Nat) (hN : 0 < N) (v : BitVec w) : Fin N := ⟨min v.toInt.toNat (N - 1), by omega⟩

/-- A vector gathered at position r, the index there being the word v: the vector's entry at the clamp of v. -/
theorem gather_vec_at {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) (v : BitVec w)
    (hv : idx (ix2 r (0 : Fin 1)) = v) :
    Host.gather (GatherVec.vecDims N R wf) x idx (ix1 r) = x (ix1 (clampRow N hN v)) := by
  subst hv
  exact GatherVec.gather_vec_apply hN wf x idx r

/-- Whole rows gathered at position r, the index there being the word v: the matrix's row at the clamp of v. -/
theorem gather_rows_at {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) (v : BitVec w)
    (hv : idx (ix2 r (0 : Fin 1)) = v) :
    Host.gather (GatherRows.rowDims N R C wf) x idx (ix2 r c) = x (ix2 (clampRow N hN v) c) := by
  subst hv
  exact GatherRows.gather_rows_apply hN wf x idx r c

end Idealize.ShloMosaic.GatherAt

end
-- ==== Proof.LibScaledSegments.lean ====
/-
  A reusable general lemma: a symmetric normalisation of a segment sum, applied per summand or per segment, on the extended
  reals.

  A graph convolution normalised by node degrees weights the contribution of an edge e that ends at node n by
  s(e) · 1 · d(n), where s(e) is the factor of the edge's source and d(n) the factor of its destination. The destination's
  factor is the same for every edge of the segment, so it may instead multiply the finished segment sum:
      (∑_{e ends at n} a(e) · s(e)) · d(n) = ∑_{e ends at n} a(e) · (s(e) · 1 · d(n)).
  On the extended reals a factor moves across a finite sum only when it is nonnegative and finite (multiplying +∞ + −∞ = −∞
  by a negative number turns it into +∞, while the summands' products add to −∞); the summands a(e) · s(e) themselves may
  be anything. The factor of a node is such a number whatever its degree: it is the reciprocal square root of the degree
  where the degree is positive — a positive real, or 0 at degree +∞ — and 0 elsewhere.
-/
import Idealize.ShloMosaic.PureOps.Ideal

noncomputable section

open scoped BigOperators

namespace Cert.ScaledSegments

open Idealize.ShloMosaic

/-- A nonnegative finite factor moves into a finite sum of extended reals. -/
theorem sum_mul_of_nonneg_of_ne_top {ι : Type} (s : Finset ι) (f : ι → EReal) {x : EReal} (hx : 0 ≤ x) (hx' : x ≠ ⊤) :
    (∑ i ∈ s, f i) * x = ∑ i ∈ s, f i * x := by
  classical
  induction s using Finset.induction_on with
  | empty => simp
  | insert a s ha ih =>
    rw [Finset.sum_insert ha, Finset.sum_insert ha, EReal.right_distrib_of_nonneg_of_ne_top hx hx', ih]

/-- The degree's factor — the reciprocal square root where the degree is positive, zero elsewhere — is a nonnegative
    real at every extended real degree: a positive real degree gives a positive real, the degree +∞ gives 0. -/
theorem select_rsqrt_eq_coe (d : EReal) :
    ∃ r : ℝ, 0 ≤ r ∧ Scalar.select (Ideal.cmp .ogt d 0) (Ideal.rsqrt d) (0 : EReal) = (r : EReal) := by
  induction d using EReal.rec with
  | bot => exact ⟨0, le_rfl, by simp [Ideal.cmp, Scalar.select]⟩
  | top => exact ⟨0, le_rfl, by simp [Ideal.cmp, Scalar.select]⟩
  | coe x =>
    by_cases hx : 0 < x
    · refine ⟨(Real.sqrt x)⁻¹, inv_nonneg.mpr (Real.sqrt_nonneg x), ?_⟩
      have h1 : Ideal.cmp .ogt (x : EReal) 0 = 1 := by
        simp [Ideal.cmp, hx]
      rw [h1, Ideal.rsqrt_coe, if_neg (not_lt.mpr hx.le), if_neg hx.ne']
      simp [Scalar.select]
    · refine ⟨0, le_rfl, ?_⟩
      have h0 : Ideal.cmp .ogt (x : EReal) 0 = 0 := by
        simp [Ideal.cmp, hx]
      rw [h0]
      simp [Scalar.select]

/-- So it is nonnegative and not +∞. -/
theorem select_rsqrt_nonneg_ne_top (d : EReal) :
    0 ≤ Scalar.select (Ideal.cmp .ogt d 0) (Ideal.rsqrt d) (0 : EReal)
      ∧ Scalar.select (Ideal.cmp .ogt d 0) (Ideal.rsqrt d) (0 : EReal) ≠ ⊤ := by
  obtain ⟨r, hr, e⟩ := select_rsqrt_eq_coe d
  rw [e]
  exact ⟨by exact_mod_cast hr, EReal.coe_ne_top r⟩

/-- THE LAW: the destination's factor, applied to the finished segment sum, equals it applied inside every summand
    (as `s · 1 · d`), the sum starting from zero on both sides. `tgt e` says that summand e belongs to the segment. -/
theorem segment_scale {ι : Type} [Fintype ι] (tgt : ι → Prop) [DecidablePred tgt] (a s nrm : ι → EReal) {d : EReal}
    (hd : 0 ≤ d) (hd' : d ≠ ⊤) (hn : ∀ e, tgt e → nrm e = s e * 1 * d) :
    (0 + ∑ e, if tgt e then a e * s e else 0) * d = 0 + ∑ e, if tgt e then a e * nrm e else 0 := by
  rw [zero_add, zero_add, sum_mul_of_nonneg_of_ne_top _ _ hd hd']
  refine Finset.sum_congr rfl fun e _ => ?_
  by_cases h : tgt e
  · rw [if_pos h, if_pos h, hn e h, mul_one, mul_assoc]
  · rw [if_neg h, if_neg h, zero_mul]

end Cert.ScaledSegments

end
-- ==== Proof.LibDense.lean ====
/-
  A dense layer on the extended reals, for any extents, and the one fact a blocked computation of it needs.

  A layer takes a matrix `h` of `n` rows and `K` columns, a `K` × `M` matrix `wt` and a bias row `b` (stored as a
  1 × `M` matrix) and returns the `n` × `M` matrix whose entry (p, q) is the dot product of row p of `h` with column q of
  `wt`, plus `b` at q. The rectifier keeps the larger of an entry and zero. Nothing here depends on a program: a block of
  rows and the whole array are the same definition at two values of `n`, and the fact that joins them is that an entry
  of a layer depends on one row of `h`, one column of `wt` and one entry of `b` (`lin_congr`) — so a block of rows of the
  layer of an array is the layer of the same block of rows of the array.
-/
import Idealize.ShloMosaic.Lib.ValueIdx
import Idealize.ShloMosaic.PureOps.Ideal

noncomputable section

open scoped BigOperators

namespace Cert.Dense

open Idealize.ShloMosaic Idealize.ShloMosaic.ValueIdx

/-- One dense layer `h · wt + b`: entry (p, q) is `∑ k, h (p, k) · wt (k, q) + b (0, q)`, for an `n` × `K` matrix `h`, a
    `K` × `M` matrix `wt` and a bias row `b` stored as a 1 × `M` matrix. -/
def lin {n K M : Nat} (h : (⟨2, ![n, K]⟩ : Shape).Idx → EReal) (wt : (⟨2, ![K, M]⟩ : Shape).Idx → EReal)
    (b : (⟨2, ![1, M]⟩ : Shape).Idx → EReal) : (⟨2, ![n, M]⟩ : Shape).Idx → EReal :=
  fun i => (∑ k : Fin K, h (ix2 (i 0) k) * wt (ix2 k (i 1))) + b (ix2 (0 : Fin 1) (i 1))

/-- The rectifier of a matrix, entry by entry: the larger of the entry and zero. -/
def relu {n M : Nat} (x : (⟨2, ![n, M]⟩ : Shape).Idx → EReal) : (⟨2, ![n, M]⟩ : Shape).Idx → EReal :=
  fun i => max (x i) 0

/-- The layer at explicit coordinates. -/
theorem lin_apply {n K M : Nat} (h : (⟨2, ![n, K]⟩ : Shape).Idx → EReal) (wt : (⟨2, ![K, M]⟩ : Shape).Idx → EReal)
    (b : (⟨2, ![1, M]⟩ : Shape).Idx → EReal) (p : Fin n) (q : Fin M) :
    lin h wt b (ix2 p q) = (∑ k : Fin K, h (ix2 p k) * wt (ix2 k q)) + b (ix2 (0 : Fin 1) q) := rfl

/-- The rectifier at an index. -/
theorem relu_apply {n M : Nat} (x : (⟨2, ![n, M]⟩ : Shape).Idx → EReal) (i : (⟨2, ![n, M]⟩ : Shape).Idx) :
    relu x i = max (x i) 0 := rfl

/-- An entry of a layer depends on one row of `h`, one column of `wt` and one entry of `b`: two layers, of matrices
    with any numbers of rows, agree at entries `i'` and `i` as soon as row `i' 0` of one input is row `i 0` of the other,
    column `i' 1` of one weight matrix is column `i 1` of the other, and the bias entries agree. (A block of rows of
    the output is the layer of the same block of rows of the input.) -/
theorem lin_congr {n n' K M : Nat} (h : (⟨2, ![n, K]⟩ : Shape).Idx → EReal) (wt : (⟨2, ![K, M]⟩ : Shape).Idx → EReal)
    (b : (⟨2, ![1, M]⟩ : Shape).Idx → EReal) (h' : (⟨2, ![n', K]⟩ : Shape).Idx → EReal)
    (wt' : (⟨2, ![K, M]⟩ : Shape).Idx → EReal) (b' : (⟨2, ![1, M]⟩ : Shape).Idx → EReal)
    (i : (⟨2, ![n, M]⟩ : Shape).Idx) (i' : (⟨2, ![n', M]⟩ : Shape).Idx)
    (hrow : ∀ k : Fin K, h' (ix2 (i' 0) k) = h (ix2 (i 0) k))
    (hcol : ∀ k : Fin K, wt' (ix2 k (i' 1)) = wt (ix2 k (i 1)))
    (hb : b' (ix2 (0 : Fin 1) (i' 1)) = b (ix2 (0 : Fin 1) (i 1))) :
    lin h' wt' b' i' = lin h wt b i := by
  unfold lin
  rw [hb]
  exact congrArg (· + b (ix2 (0 : Fin 1) (i 1))) (Finset.sum_congr rfl fun k _ => by rw [hrow k, hcol k])

end Cert.Dense

end
-- ==== Proof.GraphLayers.lean ====
/-
  A degree-normalised graph convolution on the extended reals, in two arrangements, and the law that joins them.

  Nodes are numbered below N, edges below E; edge e runs from the node its source word S e names to the node its
  destination word D e names. A destination word is read as a signed integer and counts only when it is a node's number;
  a source word that is negative first has N added, and is then clamped into range (`rowOf`). The in-degree of node n is
  the number of edges whose destination is n, the out-degree of n the number whose source word is n; the normaliser of an
  edge is rsqrt(out-degree of its source) · rsqrt(in-degree of its destination).

  One arrangement multiplies every row j of the projected features by rsqrt(out-degree j) before the edges carry the rows
  to their destinations, and multiplies the finished sum at node n by rsqrt(in-degree n) (`layerK`). The other multiplies
  each carried row by the edge's whole normaliser (`layerR`). The first factor only needs associativity. The second moves
  across a finite sum of extended reals because it is a nonnegative real: every node is the destination of at least one
  edge, so its in-degree is a real number ≥ 1 and the reciprocal square root of that is a positive real.
-/
import Idealize.ShloMosaic.Lib.ValueIdx
import Idealize.ShloMosaic.PureOps.Ideal
import proofs.«178891_j7834020348011_2_alg».proof.Proof.LibGatherAt
import proofs.«178891_j7834020348011_2_alg».proof.Proof.LibScaledSegments
import proofs.«178891_j7834020348011_2_alg».proof.Proof.LibDense

noncomputable section

open scoped BigOperators

namespace Cert.GraphLayers

open Idealize.ShloMosaic Idealize.ShloMosaic.ValueIdx

/-- An a × b matrix of extended reals. -/
abbrev Mat (a b : ℕ) : Type := (⟨2, ![a, b]⟩ : Shape).Idx → EReal

/-! ## The dense pieces, for any number of rows -/

/-- The product h·w: entry (p, q) is ∑ₖ h (p, k) · w (k, q). -/
def dot {n K M : ℕ} (h : Mat n K) (w : Mat K M) : Mat n M :=
  fun i => ∑ k : Fin K, h (ix2 (i 0) k) * w (ix2 k (i 1))

/-- The product h·w with row p multiplied by the column entry o p. -/
def scaleMat {n K M : ℕ} (h : Mat n K) (w : Mat K M) (o : Mat n 1) : Mat n M :=
  fun i => (∑ k : Fin K, h (ix2 (i 0) k) * w (ix2 k (i 1))) * o (ix2 (i 0) (0 : Fin 1))

/-- Row p of a multiplied by the column entry r p, plus the bias row, rectified. -/
def act {n M : ℕ} (a : Mat n M) (r : Mat n 1) (b : Mat 1 M) : Mat n M :=
  fun i => max (a i * r (ix2 (i 0) (0 : Fin 1)) + b (ix2 (0 : Fin 1) (i 1))) 0

theorem scaleMat_apply {n K M : ℕ} (h : Mat n K) (w : Mat K M) (o : Mat n 1) (p : Fin n) (q : Fin M) :
    scaleMat h w o (ix2 p q) = (∑ k : Fin K, h (ix2 p k) * w (ix2 k q)) * o (ix2 p (0 : Fin 1)) := rfl

theorem act_apply {n M : ℕ} (a : Mat n M) (r : Mat n 1) (b : Mat 1 M) (p : Fin n) (q : Fin M) :
    act a r b (ix2 p q) = max (a (ix2 p q) * r (ix2 p (0 : Fin 1)) + b (ix2 (0 : Fin 1) q)) 0 := rfl

theorem dot_apply {n K M : ℕ} (h : Mat n K) (w : Mat K M) (p : Fin n) (q : Fin M) :
    dot h w (ix2 p q) = ∑ k : Fin K, h (ix2 p k) * w (ix2 k q) := rfl

/-- An entry of the scaled product depends on one row of h, one column of w and one entry of o: a block of rows of the
    scaled product of an array is the scaled product of that block of rows. -/
theorem scaleMat_congr {n n' K M : ℕ} (h : Mat n K) (w : Mat K M) (o : Mat n 1) (h' : Mat n' K) (w' : Mat K M) (o' : Mat n' 1)
    (p : Fin n) (p' : Fin n') (q : Fin M)
    (hrow : ∀ k : Fin K, h' (ix2 p' k) = h (ix2 p k)) (hcol : ∀ k : Fin K, w' (ix2 k q) = w (ix2 k q))
    (ho : o' (ix2 p' (0 : Fin 1)) = o (ix2 p (0 : Fin 1))) :
    scaleMat h' w' o' (ix2 p' q) = scaleMat h w o (ix2 p q) := by
  rw [scaleMat_apply, scaleMat_apply, ho]
  exact congrArg (· * o (ix2 p (0 : Fin 1))) (Finset.sum_congr rfl fun k _ => by rw [hrow k, hcol k])

/-- The same for the rectified scaled row plus bias. -/
theorem act_congr {n n' M : ℕ} (a : Mat n M) (r : Mat n 1) (b : Mat 1 M) (a' : Mat n' M) (r' : Mat n' 1) (b' : Mat 1 M)
    (p : Fin n) (p' : Fin n') (q : Fin M) (ha : a' (ix2 p' q) = a (ix2 p q))
    (hr : r' (ix2 p' (0 : Fin 1)) = r (ix2 p (0 : Fin 1))) (hb : b' (ix2 (0 : Fin 1) q) = b (ix2 (0 : Fin 1) q)) :
    act a' r' b' (ix2 p' q) = act a r b (ix2 p q) := by
  rw [act_apply, act_apply, ha, hr, hb]

/-! ## Edges -/

variable {N E : ℕ}

/-- The node a source word names: a negative word has the word of N added, and the result, read signed, is clamped into
    [0, N − 1]. -/
def rowOf (hN : 0 < N) (nw v : BitVec 32) : Fin N :=
  GatherAt.clampRow N hN (if v.slt 0#32 then v + nw else v)

/-- The number of index words equal to n, as an extended real. -/
def deg (I : Fin E → BitVec 32) (n : Fin N) : EReal :=
  0 + ∑ e : Fin E, if (I e).toInt = (n.val : Int) then (1 : EReal) else 0

/-- The rows of y carried along the edges and summed at their destinations. -/
def hop (hN : 0 < N) (nw : BitVec 32) (S D : Fin E → BitVec 32) {C : ℕ} (y : Mat N C) : Mat N C :=
  fun i => 0 + ∑ e : Fin E, if (D e).toInt = ((i 0).val : Int) then y (ix2 (rowOf hN nw (S e)) (i 1)) else 0

/-- The same, every carried row multiplied by its edge's weight. -/
def hopW (hN : 0 < N) (nw : BitVec 32) (S D : Fin E → BitVec 32) {C : ℕ} (y : Mat N C) (nrm : Fin E → EReal) : Mat N C :=
  fun i => 0 + ∑ e : Fin E, if (D e).toInt = ((i 0).val : Int) then y (ix2 (rowOf hN nw (S e)) (i 1)) * nrm e else 0

theorem hop_apply (hN : 0 < N) (nw : BitVec 32) (S D : Fin E → BitVec 32) {C : ℕ} (y : Mat N C) (n : Fin N) (c : Fin C) :
    hop hN nw S D y (ix2 n c)
      = 0 + ∑ e : Fin E, if (D e).toInt = (n.val : Int) then y (ix2 (rowOf hN nw (S e)) c) else 0 := rfl

theorem hopW_apply (hN : 0 < N) (nw : BitVec 32) (S D : Fin E → BitVec 32) {C : ℕ} (y : Mat N C) (nrm : Fin E → EReal)
    (n : Fin N) (c : Fin C) :
    hopW hN nw S D y nrm (ix2 n c)
      = 0 + ∑ e : Fin E, if (D e).toInt = (n.val : Int) then y (ix2 (rowOf hN nw (S e)) c) * nrm e else 0 := rfl

/-- A word that is a node's number names that node: it is not negative, and the clamp leaves it. -/
theorem rowOf_of_toInt (hN : 0 < N) (nw v : BitVec 32) (n : Fin N) (h : v.toInt = (n.val : Int)) : rowOf hN nw v = n := by
  have hs : v.slt 0#32 = false := by
    rw [BitVec.slt_eq_decide, BitVec.toInt_zero]
    exact decide_eq_false (by omega)
  unfold rowOf
  rw [hs]
  unfold GatherAt.clampRow
  refine Fin.ext ?_
  have hn := n.isLt
  show min (v.toInt.toNat) (N - 1) = n.val
  rw [h]
  simp only [Int.toNat_natCast]
  omega

/-- The coercion from the reals commutes with a finite sum. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A node that some index word names has a degree that is a real number ≥ 1. -/
theorem deg_eq_coe (I : Fin E → BitVec 32) (n : Fin N) (e0 : Fin E) (h0 : (I e0).toInt = (n.val : Int)) :
    ∃ x : ℝ, 1 ≤ x ∧ deg I n = (x : EReal) := by
  refine ⟨∑ e : Fin E, if (I e).toInt = (n.val : Int) then (1 : ℝ) else 0, ?_, ?_⟩
  · have hle := Finset.single_le_sum (f := fun e : Fin E => if (I e).toInt = (n.val : Int) then (1 : ℝ) else 0)
      (fun e _ => by split <;> norm_num) (Finset.mem_univ e0)
    rwa [if_pos h0] at hle
  · unfold deg
    rw [zero_add, coe_sum]
    refine Finset.sum_congr rfl fun e _ => ?_
    split
    · exact EReal.coe_one.symm
    · exact EReal.coe_zero.symm

/-- The reciprocal square root of a real ≥ 1 is a nonnegative real. -/
theorem rsqrt_nonneg_ne_top {d : EReal} (hd : ∃ x : ℝ, 1 ≤ x ∧ d = (x : EReal)) :
    0 ≤ Ideal.rsqrt d ∧ Ideal.rsqrt d ≠ ⊤ := by
  obtain ⟨x, hx, rfl⟩ := hd
  have hpos : 0 < x := lt_of_lt_of_le one_pos hx
  rw [Ideal.rsqrt_coe, if_neg (not_lt.mpr hpos.le), if_neg hpos.ne']
  exact ⟨by exact_mod_cast inv_nonneg.mpr (Real.sqrt_nonneg x), EReal.coe_ne_top _⟩

/-- THE LAW. Rows scaled at their sources, carried and summed, the sum scaled at its destination by a nonnegative real,
    is the rows carried with the product of the two factors as the edge's weight. -/
theorem hop_scale (hN : 0 < N) (nw : BitVec 32) (S D : Fin E → BitVec 32) {C : ℕ} (y : Mat N C) (o r : Mat N 1)
    (hr : ∀ n : Fin N, 0 ≤ r (ix2 n (0 : Fin 1)) ∧ r (ix2 n (0 : Fin 1)) ≠ ⊤) (n : Fin N) (c : Fin C) :
    hop hN nw S D (fun j => y j * o (ix2 (j 0) (0 : Fin 1))) (ix2 n c) * r (ix2 n (0 : Fin 1))
      = hopW hN nw S D y
          (fun e => o (ix2 (rowOf hN nw (S e)) (0 : Fin 1)) * r (ix2 (rowOf hN nw (D e)) (0 : Fin 1))) (ix2 n c) := by
  rw [hop_apply, hopW_apply, zero_add, zero_add, ScaledSegments.sum_mul_of_nonneg_of_ne_top _ _ (hr n).1 (hr n).2]
  refine Finset.sum_congr rfl fun e _ => ?_
  by_cases h : (D e).toInt = (n.val : Int)
  · rw [if_pos h, if_pos h, rowOf_of_toInt hN nw (D e) n h, mul_assoc]
    rfl
  · rw [if_neg h, if_neg h, zero_mul]

/-! ## A layer in the two arrangements -/

/-- Scale at the sources, carry, scale at the destination, add the bias, rectify. -/
def layerK (hN : 0 < N) (nw : BitVec 32) (S D : Fin E → BitVec 32) {K M : ℕ} (h : Mat N K) (w : Mat K M) (o r : Mat N 1)
    (b : Mat 1 M) : Mat N M :=
  act (hop hN nw S D (scaleMat h w o)) r b

/-- Carry with the edge weights, add the bias, rectify. -/
def layerR (hN : 0 < N) (nw : BitVec 32) (S D : Fin E → BitVec 32) {K M : ℕ} (h : Mat N K) (w : Mat K M) (nrm : Fin E → EReal)
    (b : Mat 1 M) : Mat N M :=
  fun i => max (hopW hN nw S D (dot h w) nrm i + b (ix2 (0 : Fin 1) (i 1))) 0

/-- The two arrangements of a layer agree when the edge weights are the products of the two node factors and the
    destination factors are nonnegative reals. -/
theorem layerK_eq_layerR (hN : 0 < N) (nw : BitVec 32) (S D : Fin E → BitVec 32) {K M : ℕ} (h : Mat N K) (w : Mat K M)
    (o r : Mat N 1) (b : Mat 1 M) (nrm : Fin E → EReal)
    (hr : ∀ n : Fin N, 0 ≤ r (ix2 n (0 : Fin 1)) ∧ r (ix2 n (0 : Fin 1)) ≠ ⊤)
    (hnrm : ∀ e, nrm e = o (ix2 (rowOf hN nw (S e)) (0 : Fin 1)) * r (ix2 (rowOf hN nw (D e)) (0 : Fin 1))) :
    layerK hN nw S D h w o r b = layerR hN nw S D h w nrm b := by
  funext i
  obtain ⟨n, c, rfl⟩ : ∃ (n : Fin N) (c : Fin M), i = ix2 n c := ⟨i 0, i 1, eq_ix2 i⟩
  have hn : nrm = fun e => o (ix2 (rowOf hN nw (S e)) (0 : Fin 1)) * r (ix2 (rowOf hN nw (D e)) (0 : Fin 1)) := funext hnrm
  unfold layerK layerR
  rw [act_apply, hn]
  have hs : scaleMat h w o = fun j => dot h w j * o (ix2 (j 0) (0 : Fin 1)) := rfl
  rw [hs, hop_scale hN nw S D (dot h w) o r hr n c]
  rfl

/-! ## The readout and the head -/

/-- The rows of h summed per graph: row g is the sum of the rows of the nodes whose graph word is g. -/
def readout {P C : ℕ} (G : Fin N → BitVec 32) (h : Mat N C) : Mat P C :=
  fun i => 0 + ∑ n : Fin N, if (G n).toInt = ((i 0).val : Int) then h (ix2 n (i 1)) else 0

/-- Three dense layers, the first two rectified. -/
def head {P A B C Dn : ℕ} (hg : Mat P A) (w1 : Mat A B) (b1 : Mat 1 B) (w2 : Mat B C) (b2 : Mat 1 C) (w3 : Mat C Dn) (b3 : Mat 1 Dn) :
    Mat P Dn :=
  Dense.lin (Dense.relu (Dense.lin (Dense.relu (Dense.lin hg w1 b1)) w2 b2)) w3 b3

/-! ## The whole network in the two arrangements -/

/-- The column of node factors: the reciprocal square root of each node's degree. -/
def rsqrtDeg (I : Fin E → BitVec 32) : Mat N 1 := fun i => Ideal.rsqrt (deg I (i 0))

theorem rsqrtDeg_apply (I : Fin E → BitVec 32) (n : Fin N) : rsqrtDeg I (ix2 n (0 : Fin 1)) = Ideal.rsqrt (deg I n) := rfl

/-- An edge's weight: the factor of its source's out-degree times the factor of its destination's in-degree, each node
    named as a gather names it. -/
def edgeNorm (hN : 0 < N) (nw : BitVec 32) (S D : Fin E → BitVec 32) : Fin E → EReal :=
  fun e => Ideal.rsqrt (deg S (rowOf hN nw (S e))) * Ideal.rsqrt (deg D (rowOf hN nw (D e)))

/-- Two layers with node-wise factors, the per-graph readout, the head. -/
def netK (hN : 0 < N) (nw : BitVec 32) (S D : Fin E → BitVec 32) {P K M M' A B Dn : ℕ} (G : Fin N → BitVec 32)
    (x : Mat N K) (W1 : Mat K M) (b1 : Mat 1 M) (W2 : Mat M M') (b2 : Mat 1 M')
    (fW1 : Mat M' A) (fb1 : Mat 1 A) (fW2 : Mat A B) (fb2 : Mat 1 B) (fW3 : Mat B Dn) (fb3 : Mat 1 Dn) : Mat P Dn :=
  head (readout G (layerK hN nw S D (layerK hN nw S D x W1 (rsqrtDeg S) (rsqrtDeg D) b1) W2 (rsqrtDeg S) (rsqrtDeg D) b2))
    fW1 fb1 fW2 fb2 fW3 fb3

/-- Two layers with edge weights, the per-graph readout, the head. -/
def netR (hN : 0 < N) (nw : BitVec 32) (S D : Fin E → BitVec 32) {P K M M' A B Dn : ℕ} (G : Fin N → BitVec 32)
    (x : Mat N K) (W1 : Mat K M) (b1 : Mat 1 M) (W2 : Mat M M') (b2 : Mat 1 M')
    (fW1 : Mat M' A) (fb1 : Mat 1 A) (fW2 : Mat A B) (fb2 : Mat 1 B) (fW3 : Mat B Dn) (fb3 : Mat 1 Dn) : Mat P Dn :=
  head (readout G (layerR hN nw S D (layerR hN nw S D x W1 (edgeNorm hN nw S D) b1) W2 (edgeNorm hN nw S D) b2))
    fW1 fb1 fW2 fb2 fW3 fb3

/-- When every node is the destination of some edge the two networks are one function. -/
theorem netK_eq_netR (hN : 0 < N) (nw : BitVec 32) (S D : Fin E → BitVec 32) {P K M M' A B Dn : ℕ} (G : Fin N → BitVec 32)
    (x : Mat N K) (W1 : Mat K M) (b1 : Mat 1 M) (W2 : Mat M M') (b2 : Mat 1 M')
    (fW1 : Mat M' A) (fb1 : Mat 1 A) (fW2 : Mat A B) (fb2 : Mat 1 B) (fW3 : Mat B Dn) (fb3 : Mat 1 Dn)
    (hloop : ∀ n : Fin N, ∃ e : Fin E, (D e).toInt = (n.val : Int)) :
    (netK hN nw S D G x W1 b1 W2 b2 fW1 fb1 fW2 fb2 fW3 fb3 : Mat P Dn)
      = netR hN nw S D G x W1 b1 W2 b2 fW1 fb1 fW2 fb2 fW3 fb3 := by
  have hr : ∀ n : Fin N, 0 ≤ rsqrtDeg D (ix2 n (0 : Fin 1)) ∧ rsqrtDeg D (ix2 n (0 : Fin 1)) ≠ ⊤ := fun n => by
    obtain ⟨e0, h0⟩ := hloop n
    rw [rsqrtDeg_apply]
    exact rsqrt_nonneg_ne_top (deg_eq_coe D n e0 h0)
  have hnrm : ∀ e, edgeNorm hN nw S D e
      = rsqrtDeg S (ix2 (rowOf hN nw (S e)) (0 : Fin 1)) * rsqrtDeg D (ix2 (rowOf hN nw (D e)) (0 : Fin 1)) := fun _ => rfl
  unfold netK netR
  rw [layerK_eq_layerR hN nw S D x W1 (rsqrtDeg S) (rsqrtDeg D) b1 (edgeNorm hN nw S D) hr hnrm,
    layerK_eq_layerR hN nw S D _ W2 (rsqrtDeg S) (rsqrtDeg D) b2 (edgeNorm hN nw S D) hr hnrm]

end Cert.GraphLayers

end
-- ==== Proof.LibScatterRows.lean ====
/-
  A reusable general lemma: the host's accumulating scatter of WHOLE ROWS into a rank-2 operand, read at an index,
  on the extended reals.

  What `segment_sum(u, idx, N)` (or `x.at[idx].add(u)`) of update rows `u : [E, C]` at an integer array `idx : [E]`
  lowers to: a scatter with an `add` body, update_window_dims `[1]`, inserted_window_dims `[0]`,
  scatter_dims_to_operand_dims `[0]` and index_vector_dim 1 over the indices as a column `[E, 1]`. Update entry
  `(e, c)` lands on operand entry `(idx[e, 0], c)`: the row is the index read as a SIGNED integer and NOT clamped, so
  an update whose row is negative or at least `N` lands nowhere and is dropped; the column is the update's own. On the
  extended reals the result at `(n, c)` is therefore the operand's entry plus the sum, over the update rows `e` whose
  index is `n`, of `u (e, c)`. Stated at any extents `N`, `E`, `C` and any index width.
-/
import Idealize.ShloMosaic.Lib.ValueIdx
import Idealize.ShloMosaic.PureOps.Ideal

noncomputable section

open scoped BigOperators

namespace Idealize.ShloMosaic.ScatterRows

open Idealize.ShloMosaic Idealize.ShloMosaic.ValueIdx

/-- The row scatter's dimension numbers for an operand `[N, C]`, scatter indices `[E, 1]` and updates `[E, C]`; their
    conditions `wf` are decided on a program's literal shapes. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `(e, c)` starts at the index `idx[e, 0]`, read signed. -/
theorem start_row (idx : IVec ⟨2, ![E, 1]⟩ w) (e : Fin E) (c : Fin C) :
    (rowDims N E C wf).start (ix2 e c) idx 0 = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e c) ⟨List.idxOf (0 : Fin 2) (rowDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The column axis is not named by the index map: the window starts at `0` there. -/
theorem start_col (idx : IVec ⟨2, ![E, 1]⟩ w) (e : Fin E) (c : Fin C) :
    (rowDims N E C wf).start (ix2 e c) idx 1 = 0 := by
  unfold ScatterDims.start
  rw [dif_neg (show (1 : Fin 2) ∉ (rowDims N E C wf).scatterDimsToOperandDims from (by decide : (1 : Fin 2) ∉ [(0 : Fin 2)]))]

/-- The row axis is an inserted one: the window coordinate is `0` there. -/
theorem window_row (e : Fin E) (c : Fin C) : (rowDims N E C wf).window (ix2 e c) 0 = 0 := by
  unfold ScatterDims.window
  rw [dif_neg (show (0 : Fin 2) ∉ (rowDims N E C wf).sKept from
    (by decide : (0 : Fin 2) ∉ (List.finRange 2).filter (· ∉ [(0 : Fin 2)])))]

/-- On the column axis the window coordinate is the update's own column. -/
theorem window_col (e : Fin E) (c : Fin C) : (rowDims N E C wf).window (ix2 e c) 1 = c.val := by
  unfold ScatterDims.window
  rw [dif_pos (show (1 : Fin 2) ∈ (rowDims N E C wf).sKept from
    (by decide : (1 : Fin 2) ∈ (List.finRange 2).filter (· ∉ [(0 : Fin 2)])))]
  rfl

/-- Update `(e, c')` lands on `(n, c)` exactly when its index, read signed, is `n` and its column is `c`. -/
theorem resultIdx?_eq_some_iff (idx : IVec ⟨2, ![E, 1]⟩ w) (e : Fin E) (c' c : Fin C) (n : Fin N) :
    (rowDims N E C wf).resultIdx? (ix2 e c') idx = some (ix2 n c)
      ↔ ((idx (ix2 e (0 : Fin 1))).toInt = (n.val : Int) ∧ c' = c) := by
  have hn := n.isLt
  have hc' := c'.isLt
  unfold ScatterDims.resultIdx?
  by_cases h : ∀ a, 0 ≤ (rowDims N E C wf).start (ix2 e c') idx a + (rowDims N E C wf).window (ix2 e c') a
      ∧ (rowDims N E C wf).start (ix2 e c') idx a + (rowDims N E C wf).window (ix2 e c') a
        < ((⟨2, ![N, C]⟩ : Shape).size a : Int)
  · rw [dif_pos h, Option.some.injEq]
    have h0 := h 0
    rw [start_row, window_row] at h0
    constructor
    · intro heq
      have e0 := congrArg Fin.val (congrFun heq 0)
      have e1 := congrArg Fin.val (congrFun heq 1)
      change ((rowDims N E C wf).start (ix2 e c') idx 0 + ((rowDims N E C wf).window (ix2 e c') 0 : Nat)).toNat = n.val at e0
      change ((rowDims N E C wf).start (ix2 e c') idx 1 + ((rowDims N E C wf).window (ix2 e c') 1 : Nat)).toNat = c.val at e1
      rw [start_row, window_row] at e0
      rw [start_col, window_col] at e1
      refine ⟨by omega, Fin.ext (by omega)⟩
    · rintro ⟨ht, rfl⟩
      funext a
      refine Fin.ext ?_
      match a with
      | ⟨0, _⟩ =>
        show ((rowDims N E C wf).start (ix2 e c') idx 0 + ((rowDims N E C wf).window (ix2 e c') 0 : Nat)).toNat = n.val
        rw [start_row, window_row]; omega
      | ⟨1, _⟩ =>
        show ((rowDims N E C wf).start (ix2 e c') idx 1 + ((rowDims N E C wf).window (ix2 e c') 1 : Nat)).toNat = c'.val
        rw [start_col, window_col]; omega
  · rw [dif_neg h]
    refine ⟨fun hh => absurd hh (by simp), ?_⟩
    rintro ⟨ht, rfl⟩
    refine absurd (fun a => ?_) h
    match a with
    | ⟨0, _⟩ =>
      show 0 ≤ (rowDims N E C wf).start (ix2 e c') idx 0 + ((rowDims N E C wf).window (ix2 e c') 0 : Nat)
        ∧ (rowDims N E C wf).start (ix2 e c') idx 0 + ((rowDims N E C wf).window (ix2 e c') 0 : Nat) < (N : Int)
      rw [start_row, window_row]; omega
    | ⟨1, _⟩ =>
      show 0 ≤ (rowDims N E C wf).start (ix2 e c') idx 1 + ((rowDims N E C wf).window (ix2 e c') 1 : Nat)
        ∧ (rowDims N E C wf).start (ix2 e c') idx 1 + ((rowDims N E C wf).window (ix2 e c') 1 : Nat) < (C : Int)
      rw [start_col, window_col]; omega

/-- THE ROW SCATTER-ADD READ AT `(n, c)`, on the extended reals: the operand's entry plus the sum, over the update rows
    whose index (read signed) is `n`, of the update's entry in column `c`. -/
theorem scatterAdd_rows_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  refine congrArg (x (ix2 n c) + ·) ?_
  rw [Finset.sum_filter, sum_idx2]
  refine Finset.sum_congr rfl fun e _ => ?_
  simp only [resultIdx?_eq_some_iff]
  by_cases ht : (idx (ix2 e (0 : Fin 1))).toInt = (n.val : Int)
  · simp only [ht, true_and, if_true]
    rw [Finset.sum_ite_eq' Finset.univ c (fun c' => upd (ix2 e c'))]
    simp
  · simp only [ht, false_and, if_false, Finset.sum_const_zero]

/-- The same for the host operation as a program spells it, at any record of these dimension numbers that is the row
    record (`hd`, by `rfl` on a program's literal record). -/
theorem host_scatterAdd_rows_apply {φ : FTy} (d : ScatterDims ⟨2, ![N, C]⟩ ⟨2, ![E, 1]⟩ ⟨2, ![E, C]⟩)
    (hd : d = rowDims N E C wf) (x : FVec Ideal ⟨2, ![N, C]⟩ φ) (idx : IVec ⟨2, ![E, 1]⟩ w)
    (upd : FVec Ideal ⟨2, ![E, C]⟩ φ) (n : Fin N) (c : Fin C) :
    Host.scatterAdd d x idx upd (ix2 n c)
      = x (ix2 n c) + ∑ e : Fin E, if (idx (ix2 e (0 : Fin 1))).toInt = (n.val : Int) then upd (ix2 e c) else 0 := by
  subst hd
  exact scatterAdd_rows_apply wf x idx upd n c

end Idealize.ShloMosaic.ScatterRows

end
-- ==== Proof.LibJoinIota.lean ====
/-
  Reusable general lemmas: a vector joined from two, a vector of positions, and an index wrapped into range, each
  read at an index.

  * Two vectors of lengths A and B laid end to end along their one axis give a vector of length A + B: entry e is
    the first vector's entry e when e < A, and the second vector's entry e − A otherwise.
  * The vector of positions 0, 1, …, N − 1 as w-bit integers: entry i is the word of i, and, read signed at 32
    bits, the number i itself as long as N ≤ 2³¹.
  * Indexing with a possibly negative integer v into an axis of extent n first replaces v by v + n when v is
    negative (as a signed word) and keeps it otherwise; stated lane by lane for arrays of any shape, the comparand
    0 and the addend n being scalars spread over the shape. A lane that is non-negative is kept.
  * A vector spread as a one-column matrix, and a one-column matrix spread over C columns, read at (e, c).
-/
import Idealize.ShloMosaic.Lib.ValueIdx
import Idealize.ShloMosaic.Lib.IdealHost
import Idealize.ShloMosaic.Lib.Pipeline.Value

noncomputable section

namespace Idealize.ShloMosaic.JoinIota

open Idealize.ShloMosaic Idealize.ShloMosaic.ValueIdx

variable {α : Type}

/-! ## Two vectors laid end to end -/

/-- TWO VECTORS JOINED, READ IN THE FIRST: entry e of the join of a (length A) and b (length B), for e < A, is
    entry e of a. The result's length is any C the join's side condition accepts (it forces C = A + B). -/
theorem concatenate_vec_apply_left {A B C : Nat}
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) (he : e.val < A) :
    concatenate ⟨1, ![C]⟩ 0 [⟨⟨1, ![A]⟩, a⟩, ⟨⟨1, ![B]⟩, b⟩] h (ix1 e) = a (ix1 ⟨e.val, he⟩) := by
  refine concatenate_pair_apply_left (0 : Fin 1) a b h (ix1 e) rfl (ix1 ⟨e.val, he⟩) ?_
  intro d
  match d with
  | ⟨0, _⟩ => rfl

/-- TWO VECTORS JOINED, READ IN THE SECOND: entry e of the join of a (length A) and b (length B), for A ≤ e, is
    entry e − A of b. -/
theorem concatenate_vec_apply_right {A B C : Nat}
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) (he : A ≤ e.val)
    (hB : e.val - A < B) :
    concatenate ⟨1, ![C]⟩ 0 [⟨⟨1, ![A]⟩, a⟩, ⟨⟨1, ![B]⟩, b⟩] h (ix1 e) = b (ix1 ⟨e.val - A, hB⟩) := by
  refine concatenate_pair_apply_right (0 : Fin 1) a b h (ix1 e) rfl rfl (ix1 ⟨e.val - A, hB⟩) ?_ ?_
  · intro d hd
    match d with
    | ⟨0, _⟩ => exact absurd rfl hd
  · show e.val - A + A = e.val
    omega

/-- The join's side condition gives the lengths' equation C = A + B. -/
theorem concatenates_vec_length {A B C : Nat}
    (h : Shape.Concatenates [(⟨1, ![A]⟩ : Shape), ⟨1, ![B]⟩] ⟨1, ![C]⟩ 0) : C = A + B := by
  have e := h.2.2
  simp only [List.map, List.sum_cons, List.sum_nil] at e
  have e' : A + (B + 0) = C := e
  omega

/-! ## The vector of positions -/

/-- THE POSITIONS READ AT i: entry i of the w-bit vector 0, 1, …, N − 1 is the word of i. -/
theorem iota_vec_apply {N w : Nat} (i : Fin N) :
    iotaInDim ⟨1, ![N]⟩ w 0 (ix1 i) = BitVec.ofNat w i.val := rfl

/-- … and, at 32 bits and N ≤ 2³¹, read signed it is the number i. -/
theorem iota_vec_toInt {N : Nat} (hN : N ≤ 2 ^ 31) (i : Fin N) :
    (iotaInDim ⟨1, ![N]⟩ 32 0 (ix1 i)).toInt = (i.val : Int) := by
  rw [iota_vec_apply, BitVec.toInt_ofNat']
  have hi := i.isLt
  apply Int.bmod_eq_of_le_mul_two <;> omega

/-! ## An index wrapped into range -/

/-- THE WRAP READ AT j: where lane j of v is negative (signed) it becomes v j + n, elsewhere it stays; 0 and n are
    scalars spread over the shape. -/
theorem wrap_index_apply {S : Shape} {w : Nat} (n : BitVec w)
    (h0 : (⟨0, ![]⟩ : Shape).BroadcastsInDim S ![]) (v : IVec S w) (j : S.Idx) :
    select (cmpi .slt v (broadcastInDim S ![] h0 (constantI ⟨0, ![]⟩ w 0#w)))
        (addi v (broadcastInDim S ![] h0 (constantI ⟨0, ![]⟩ w n))) v j
      = if (v j).slt 0#w then v j + n else v j := by
  show Scalar.select (IntOp.cmpi .slt (v j) (broadcastInDim S ![] h0 (constantI ⟨0, ![]⟩ w 0#w) j))
      (IntOp.addi (v j) (broadcastInDim S ![] h0 (constantI ⟨0, ![]⟩ w n) j)) (v j) = _
  rw [broadcastInDim_scalar_apply, broadcastInDim_scalar_apply]
  show Scalar.select (BitVec.ofBool ((v j).slt 0#w)) (v j + n) (v j) = _
  unfold Scalar.select
  cases hs : (v j).slt 0#w
  · simp
  · simp

/-- A NON-NEGATIVE LANE IS KEPT: where lane j of v is at least 0 read signed, the wrap leaves it. -/
theorem wrap_index_of_nonneg {S : Shape} {w : Nat} (n : BitVec w)
    (h0 : (⟨0, ![]⟩ : Shape).BroadcastsInDim S ![]) (v : IVec S w) (j : S.Idx) (hj : 0 ≤ (v j).toInt) :
    select (cmpi .slt v (broadcastInDim S ![] h0 (constantI ⟨0, ![]⟩ w 0#w)))
        (addi v (broadcastInDim S ![] h0 (constantI ⟨0, ![]⟩ w n))) v j = v j := by
  rw [wrap_index_apply]
  have hs : (v j).slt 0#w = false := by
    rw [BitVec.slt_eq_decide, BitVec.toInt_zero]
    exact decide_eq_false (by omega)
  rw [hs]
  rfl

/-! ## A vector as a column, a column over the columns -/

/-- A VECTOR SPREAD AS A COLUMN, READ AT (e, 0): entry e of the vector. -/
theorem broadcast_vec_column_apply {R : Nat} (h : (⟨1, ![R]⟩ : Shape).BroadcastsInDim ⟨2, ![R, 1]⟩ ![0])
    (v : (⟨1, ![R]⟩ : Shape).Idx → α) (e : Fin R) :
    broadcastInDim ⟨2, ![R, 1]⟩ ![0] h v (ix2 e (0 : Fin 1)) = v (ix1 e) := by
  refine broadcastInDim_apply _ h v _ (ix1 e) ?_
  intro d
  match d with
  | ⟨0, _⟩ =>
    show e.val = if R = 1 then 0 else e.val
    split
    · next h1 => have := e.isLt; omega
    · rfl

/-- A COLUMN SPREAD OVER C COLUMNS, READ AT (e, c): the column's entry e. -/
theorem broadcast_column_apply {R C : Nat} (h : (⟨2, ![R, 1]⟩ : Shape).BroadcastsInDim ⟨2, ![R, C]⟩ ![0, 1])
    (v : (⟨2, ![R, 1]⟩ : Shape).Idx → α) (e : Fin R) (c : Fin C) :
    broadcastInDim ⟨2, ![R, C]⟩ ![0, 1] h v (ix2 e c) = v (ix2 e (0 : Fin 1)) := by
  refine broadcastInDim_apply _ h v _ (ix2 e (0 : Fin 1)) ?_
  intro d
  match d with
  | ⟨0, _⟩ =>
    show e.val = if R = 1 then 0 else e.val
    split
    · next h1 => have := e.isLt; omega
    · rfl
  | ⟨1, _⟩ => rfl

end Idealize.ShloMosaic.JoinIota

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.EdgeOps.lean ====
/-
  The host's edge operations read as the functions of a graph convolution, for any extents.

  Gathering rows of a node matrix by the wrapped source words and adding the gathered rows into a zero matrix at the
  destination words is "carry the rows along the edges and sum them at their destinations" (`hop`); with every gathered
  row first multiplied by its edge's weight it is `hopW`. Adding ones into a zero vector at a list of index words counts
  how often each node is named (`deg`). The reciprocal square roots of the counts, recast as a column, are the node
  factors; gathered per edge at the wrapped source and destination words and multiplied they are the edge weights. Adding
  the node rows into a zero matrix at the graph words is the per-graph readout. Finally, a list of index words that ends
  with the positions 0, 1, …, B − 1 names every one of the B nodes at least once.
-/
import Idealize.ShloMosaic.Lib.ValueIdx
import Idealize.ShloMosaic.Lib.Pipeline.Value
import Idealize.ShloMosaic.PureOps.Ideal
import proofs.«178891_j7834020348011_2_alg».proof.Proof.GraphLayers
import proofs.«178891_j7834020348011_2_alg».proof.Proof.LibScatterRows
import proofs.«178891_j7834020348011_2_alg».proof.Proof.LibGatherRows
import proofs.«178891_j7834020348011_2_alg».proof.Proof.LibVecIndex
import proofs.«178891_j7834020348011_2_alg».proof.Proof.LibGatherAt
import proofs.«178891_j7834020348011_2_alg».proof.Proof.LibJoinIota
import proofs.«178891_j7834020348011_2_alg».proof.Proof.LibColumns

noncomputable section

open scoped BigOperators

namespace Cert.EdgeOps

open Idealize.ShloMosaic Idealize.ShloMosaic.ValueIdx Cert.GraphLayers

/-- The word 0x3F800000 denotes the real number 1 (the one place where the pattern is unfolded). -/
theorem ofBits_one : Ideal.ofBits .f32 0x3F800000#32 = (1 : EReal) := by
  simp [Ideal.ofBits, Ideal.ieee, -EReal.coe_mul]; norm_num

variable {N E C : ℕ}

/-- The wrapped index words spread as a column, read at (e, 0): word e, plus the word of the extent when negative. -/
theorem wrap_column_apply (nw : BitVec 32) (h0 : (⟨0, ![]⟩ : Shape).BroadcastsInDim ⟨1, ![E]⟩ ![])
    (hb : (⟨1, ![E]⟩ : Shape).BroadcastsInDim ⟨2, ![E, 1]⟩ ![0]) (v : IVec ⟨1, ![E]⟩ 32) (e : Fin E) :
    broadcastInDim ⟨2, ![E, 1]⟩ ![0] hb
        (select (cmpi .slt v (broadcastInDim ⟨1, ![E]⟩ ![] h0 (constantI ⟨0, ![]⟩ 32 0#32)))
          (addi v (broadcastInDim ⟨1, ![E]⟩ ![] h0 (constantI ⟨0, ![]⟩ 32 nw))) v) (ix2 e (0 : Fin 1))
      = if (v (ix1 e)).slt 0#32 then v (ix1 e) + nw else v (ix1 e) := by
  rw [JoinIota.broadcast_vec_column_apply hb _ e, JoinIota.wrap_index_apply nw h0 v (ix1 e)]

/-- Rows gathered at the wrapped source words and added into zeros at the destination words: the rows carried along
    the edges and summed at their destinations. -/
theorem scatter_gather_eq_hop (hN : 0 < N) (nw : BitVec 32)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (ds : ScatterDims ⟨2, ![N, C]⟩ ⟨2, ![E, 1]⟩ ⟨2, ![E, C]⟩) (hds : ds = ScatterRows.rowDims N E C wfs)
    (dg : GatherDims ⟨2, ![N, C]⟩ ⟨2, ![E, 1]⟩ ⟨2, ![E, C]⟩) (hdg : dg = GatherRows.rowDims N E C wfg)
    (zero : FVec Ideal ⟨2, ![N, C]⟩ .f32) (hz : ∀ i, zero i = (0 : EReal))
    (Scol Dcol : IVec ⟨2, ![E, 1]⟩ 32) (S D : Fin E → BitVec 32)
    (hS : ∀ e, Scol (ix2 e (0 : Fin 1)) = if (S e).slt 0#32 then S e + nw else S e)
    (hD : ∀ e, Dcol (ix2 e (0 : Fin 1)) = D e)
    (y : FVec Ideal ⟨2, ![N, C]⟩ .f32) :
    Host.scatterAdd ds zero Dcol (Host.gather dg y Scol) = hop hN nw S D y := by
  subst hdg
  funext i
  obtain ⟨n, c, rfl⟩ : ∃ (n : Fin N) (c : Fin C), i = ix2 n c := ⟨i 0, i 1, eq_ix2 i⟩
  rw [ScatterRows.host_scatterAdd_rows_apply wfs ds hds, hop_apply, hz]
  refine congrArg (0 + ·) (Finset.sum_congr rfl fun e _ => ?_)
  rw [hD e, GatherAt.gather_rows_at hN wfg y Scol e c _ (hS e)]
  rfl

/-- The same with every gathered row multiplied by its edge's weight, the weights a vector spread over the columns. -/
theorem scatter_gather_mul_eq_hopW (hN : 0 < N) (nw : BitVec 32)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (ds : ScatterDims ⟨2, ![N, C]⟩ ⟨2, ![E, 1]⟩ ⟨2, ![E, C]⟩) (hds : ds = ScatterRows.rowDims N E C wfs)
    (dg : GatherDims ⟨2, ![N, C]⟩ ⟨2, ![E, 1]⟩ ⟨2, ![E, C]⟩) (hdg : dg = GatherRows.rowDims N E C wfg)
    (zero : FVec Ideal ⟨2, ![N, C]⟩ .f32) (hz : ∀ i, zero i = (0 : EReal))
    (Scol Dcol : IVec ⟨2, ![E, 1]⟩ 32) (S D : Fin E → BitVec 32)
    (hS : ∀ e, Scol (ix2 e (0 : Fin 1)) = if (S e).slt 0#32 then S e + nw else S e)
    (hD : ∀ e, Dcol (ix2 e (0 : Fin 1)) = D e)
    (hb1 : (⟨1, ![E]⟩ : Shape).BroadcastsInDim ⟨2, ![E, 1]⟩ ![0])
    (hb2 : (⟨2, ![E, 1]⟩ : Shape).BroadcastsInDim ⟨2, ![E, C]⟩ ![0, 1])
    (y : FVec Ideal ⟨2, ![N, C]⟩ .f32) (nrm : FVec Ideal ⟨1, ![E]⟩ .f32) :
    Host.scatterAdd ds zero Dcol
        (mulf (Host.gather dg y Scol) (broadcastInDim ⟨2, ![E, C]⟩ ![0, 1] hb2 (broadcastInDim ⟨2, ![E, 1]⟩ ![0] hb1 nrm)))
      = hopW hN nw S D y (fun e => nrm (ix1 e)) := by
  subst hdg
  funext i
  obtain ⟨n, c, rfl⟩ : ∃ (n : Fin N) (c : Fin C), i = ix2 n c := ⟨i 0, i 1, eq_ix2 i⟩
  rw [ScatterRows.host_scatterAdd_rows_apply wfs ds hds, hopW_apply, hz]
  refine congrArg (0 + ·) (Finset.sum_congr rfl fun e _ => ?_)
  rw [hD e, mulf_apply, GatherAt.gather_rows_at hN wfg y Scol e c _ (hS e),
    JoinIota.broadcast_column_apply hb2 _ e c, JoinIota.broadcast_vec_column_apply hb1 nrm e]
  rfl

/-- Ones added into zeros at a list of index words: entry n is the number of words equal to n. -/
theorem scatter_ones_eq_deg (wf : ScatterDims.WF ⟨1, ![N]⟩ ⟨2, ![E, 1]⟩ ⟨1, ![E]⟩ [] [0] [0] 1)
    (d : ScatterDims ⟨1, ![N]⟩ ⟨2, ![E, 1]⟩ ⟨1, ![E]⟩) (hd : d = ScatterVec.vecDims N E wf)
    (zero : FVec Ideal ⟨1, ![N]⟩ .f32) (hz : ∀ i, zero i = (0 : EReal))
    (ones : FVec Ideal ⟨1, ![E]⟩ .f32) (h1 : ∀ i, ones i = (1 : EReal))
    (Icol : IVec ⟨2, ![E, 1]⟩ 32) (I : Fin E → BitVec 32) (hI : ∀ e, Icol (ix2 e (0 : Fin 1)) = I e) (n : Fin N) :
    Host.scatterAdd d zero Icol ones (ix1 n) = deg I n := by
  rw [ScatterVec.host_scatterAdd_vec_apply wf d hd, hz]
  unfold deg
  refine congrArg (0 + ·) (Finset.sum_congr rfl fun e _ => ?_)
  rw [hI e, h1]

/-- The reciprocal square roots of the counts, recast as a column, are the column of node factors. -/
theorem rsqrt_column_eq (v : FVec Ideal ⟨1, ![N]⟩ .f32) (I : Fin E → BitVec 32) (hv : ∀ n : Fin N, v (ix1 n) = deg I n)
    (h : (⟨1, ![N]⟩ : Shape).ShapeCasts ⟨2, ![N, 1]⟩) :
    shapeCast ⟨2, ![N, 1]⟩ (Host.rsqrt v) h = rsqrtDeg I := by
  funext i
  obtain ⟨n, z, rfl⟩ : ∃ (n : Fin N) (z : Fin 1), i = ix2 n z := ⟨i 0, i 1, eq_ix2 i⟩
  rw [LibColumns.shapeCast_a_a1_apply _ h n z]
  show Ideal.rsqrt (v (ix1 n)) = Ideal.rsqrt (deg I n)
  rw [hv]

/-- The two factors gathered per edge at the wrapped source and destination words and multiplied: the edge weights. -/
theorem edge_weights_eq (hN : 0 < N) (nw : BitVec 32)
    (wfg : GatherDims.WF ⟨1, ![N]⟩ ⟨2, ![E, 1]⟩ ⟨1, ![E]⟩ [] [0] [] [0] [] 1 ![1])
    (dg : GatherDims ⟨1, ![N]⟩ ⟨2, ![E, 1]⟩ ⟨1, ![E]⟩) (hdg : dg = GatherVec.vecDims N E wfg)
    (od idg : FVec Ideal ⟨1, ![N]⟩ .f32) (SWcol DWcol : IVec ⟨2, ![E, 1]⟩ 32) (S D : Fin E → BitVec 32)
    (hod : ∀ n : Fin N, od (ix1 n) = deg S n) (hid : ∀ n : Fin N, idg (ix1 n) = deg D n)
    (hS : ∀ e, SWcol (ix2 e (0 : Fin 1)) = if (S e).slt 0#32 then S e + nw else S e)
    (hD : ∀ e, DWcol (ix2 e (0 : Fin 1)) = if (D e).slt 0#32 then D e + nw else D e) (e : Fin E) :
    mulf (Host.rsqrt (Host.gather dg od SWcol)) (Host.rsqrt (Host.gather dg idg DWcol)) (ix1 e) = edgeNorm hN nw S D e := by
  subst hdg
  rw [mulf_apply]
  show Ideal.rsqrt (Host.gather (GatherVec.vecDims N E wfg) od SWcol (ix1 e))
      * Ideal.rsqrt (Host.gather (GatherVec.vecDims N E wfg) idg DWcol (ix1 e)) = _
  rw [GatherAt.gather_vec_at hN wfg od SWcol e _ (hS e), GatherAt.gather_vec_at hN wfg idg DWcol e _ (hD e), hod, hid]
  rfl

/-- The node rows added into zeros at the graph words: the per-graph readout. -/
theorem scatter_eq_readout {P : ℕ} (wfs : ScatterDims.WF ⟨2, ![P, C]⟩ ⟨2, ![N, 1]⟩ ⟨2, ![N, C]⟩ [1] [0] [0] 1)
    (ds : ScatterDims ⟨2, ![P, C]⟩ ⟨2, ![N, 1]⟩ ⟨2, ![N, C]⟩) (hds : ds = ScatterRows.rowDims P N C wfs)
    (zero : FVec Ideal ⟨2, ![P, C]⟩ .f32) (hz : ∀ i, zero i = (0 : EReal))
    (Gcol : IVec ⟨2, ![N, 1]⟩ 32) (G : Fin N → BitVec 32) (hG : ∀ n, Gcol (ix2 n (0 : Fin 1)) = G n)
    (h : FVec Ideal ⟨2, ![N, C]⟩ .f32) :
    Host.scatterAdd ds zero Gcol h = readout G h := by
  funext i
  obtain ⟨g, c, rfl⟩ : ∃ (g : Fin P) (c : Fin C), i = ix2 g c := ⟨i 0, i 1, eq_ix2 i⟩
  rw [ScatterRows.host_scatterAdd_rows_apply wfs ds hds, hz]
  show _ = 0 + ∑ n : Fin N, if (G n).toInt = (g.val : Int) then h (ix2 n c) else 0
  refine congrArg (0 + ·) (Finset.sum_congr rfl fun n _ => ?_)
  rw [hG n]

/-- A list of A index words followed by the positions 0, 1, …, B − 1, as a function of the place. -/
def joinedWords {A B L : ℕ} (a : IVec ⟨1, ![A]⟩ 32) (h : Shape.Concatenates [(⟨1, ![A]⟩ : Shape), ⟨1, ![B]⟩] ⟨1, ![L]⟩ 0) :
    Fin L → BitVec 32 :=
  fun e => concatenate ⟨1, ![L]⟩ 0 [⟨⟨1, ![A]⟩, a⟩, ⟨⟨1, ![B]⟩, iotaInDim ⟨1, ![B]⟩ 32 0⟩] h (ix1 e)

/-- Such a list names every n < B: at place A + n. -/
theorem joined_names_all {A B L : ℕ} (a : IVec ⟨1, ![A]⟩ 32)
    (h : Shape.Concatenates [(⟨1, ![A]⟩ : Shape), ⟨1, ![B]⟩] ⟨1, ![L]⟩ 0) (hB : B ≤ 2 ^ 31) (n : Fin B) :
    ∃ e : Fin L, (joinedWords a h e).toInt = (n.val : Int) := by
  unfold joinedWords
  have hL := JoinIota.concatenates_vec_length h
  have hn := n.isLt
  refine ⟨⟨A + n.val, by omega⟩, ?_⟩
  rw [JoinIota.concatenate_vec_apply_right a _ h ⟨A + n.val, by omega⟩ (by show A ≤ A + n.val; omega)
    (by show A + n.val - A < B; omega)]
  have he : (⟨A + n.val - A, by omega⟩ : Fin B) = n := Fin.ext (by show A + n.val - A = n.val; omega)
  rw [he, JoinIota.iota_vec_toInt hB n]

end Cert.EdgeOps

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibHostDense.lean ====
/-
  A dense layer and the rectifier as the host spells them, read as the layer of `LibDense` — general in the extents.

  On the host a layer is a `dot_general` that contracts the left operand's columns against the right's rows, plus the
  bias vector spread first to a 1 × `M` row and then over the `n` rows; the rectifier is the entrywise maximum with a
  scalar zero spread over the whole array. Over the extended reals the first is `lin h w (row b)` — entry (p, q) is
  `∑ k, h (p, k) · w (k, q) + b q` — and the second is `relu`.
-/
import proofs.«178891_j7834020348011_2_alg».proof.Proof.LibDense
import proofs.«178891_j7834020348011_2_alg».proof.Proof.LibPlainDot
import Idealize.ShloMosaic.Lib.Pipeline.Value

noncomputable section

open scoped BigOperators

namespace Cert.HostDense

open Idealize.ShloMosaic Idealize.ShloMosaic.ValueIdx Cert.Dense

/-- A bias vector of `M` entries as a 1 × `M` row. -/
def row {M : Nat} (b : (⟨1, ![M]⟩ : Shape).Idx → EReal) : (⟨2, ![1, M]⟩ : Shape).Idx → EReal := fun i => b (ix1 (i 1))

/-- The host's `dot_general` plus the bias vector spread over the rows is the layer: entry (p, q) is
    `∑ k, h (p, k) · w (k, q) + b q`. The four coordinate facts and the contraction's one axis are what a program's
    literal dimension numbers decide. -/
theorem dot_bias_eq {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (h : FVec Ideal (⟨2, ![n, K]⟩ : Shape) φ₁) (w : FVec Ideal (⟨2, ![K, M]⟩ : Shape) φ₂)
    (b : FVec Ideal (⟨1, ![M]⟩ : Shape) .f32)
    (hb1 : (⟨1, ![M]⟩ : Shape).BroadcastsInDim (⟨2, ![1, M]⟩ : Shape) (![1] : Fin 1 → Fin 2))
    (hb2 : (⟨2, ![1, M]⟩ : Shape).BroadcastsInDim (⟨2, ![n, M]⟩ : Shape) (![0, 1] : Fin 2 → Fin 2)) :
    (addf (Host.dotGeneral D prec h w)
        (broadcastInDim (⟨2, ![n, M]⟩ : Shape) ![0, 1] hb2 (broadcastInDim (⟨2, ![1, M]⟩ : Shape) ![1] hb1 b)) :
        FVec Ideal (⟨2, ![n, M]⟩ : Shape) .f32)
      = lin h w (row b) := by
  funext i
  obtain ⟨p, q, rfl⟩ : ∃ (p : Fin n) (q : Fin M), i = ix2 p q := ⟨i 0, i 1, eq_ix2 i⟩
  rw [lin_apply, addf_apply]
  have hdot : Host.dotGeneral D prec h w (ix2 p q) = ∑ k : Fin K, (h (ix2 p k) : EReal) * (w (ix2 k q) : EReal) := by
    simp only [Host.dotGeneral]
    exact PlainDot.dotGeneral_apply D hr hs l0 l1 r0 r1 prec _ h w p q
  have hbias : broadcastInDim (⟨2, ![n, M]⟩ : Shape) ![0, 1] hb2 (broadcastInDim (⟨2, ![1, M]⟩ : Shape) ![1] hb1 b) (ix2 p q)
      = b (ix1 q) := by
    rw [broadcastInDim_apply ![0, 1] hb2 _ (ix2 p q) (ix2 (0 : Fin 1) q) (fun a => by
      match a with
      | ⟨0, _⟩ => show 0 = if (1 : Nat) = 1 then 0 else p.val; rw [if_pos rfl]
      | ⟨1, _⟩ =>
        show q.val = if M = 1 then 0 else q.val
        split
        · have := q.isLt; omega
        · rfl)]
    exact broadcastInDim_apply ![1] hb1 b (ix2 (0 : Fin 1) q) (ix1 q) (fun a => by
      match a with
      | ⟨0, _⟩ =>
        show q.val = if M = 1 then 0 else q.val
        split
        · have := q.isLt; omega
        · rfl)
  rw [hdot, hbias]
  rfl

/-- The entrywise maximum with a scalar zero spread over the array is the rectifier. -/
theorem max_zero_eq {n M : Nat} (y : FVec Ideal (⟨2, ![n, M]⟩ : Shape) .f32)
    (hb0 : (⟨0, ![]⟩ : Shape).BroadcastsInDim (⟨2, ![n, M]⟩ : Shape) (![] : Fin 0 → Fin 2)) :
    (maximumf y (broadcastInDim (⟨2, ![n, M]⟩ : Shape) ![] hb0 (constant (F := Ideal) (⟨0, ![]⟩ : Shape) .f32 0x00000000#32)) :
        FVec Ideal (⟨2, ![n, M]⟩ : Shape) .f32)
      = relu y := by
  funext i
  rw [relu_apply, maximumf_apply]
  refine congrArg (max (y i)) ?_
  refine (broadcastInDim_apply (s := (⟨0, ![]⟩ : Shape)) (t := (⟨2, ![n, M]⟩ : Shape)) (![] : Fin 0 → Fin 2) hb0 _ i ix0
    (fun a => Fin.elim0 a)).trans ?_
  show Ideal.ofBits .f32 0x00000000#32 = 0
  exact Ideal.ofBits_zero_f32

end Cert.HostDense

end
-- ==== Proof.RegionArrays.lean ====
/-
  The three row-blocked regions of the program, each read as ONE function of the whole arrays the region finds.

  Each region runs over 20 grid points. Point t holds rows 5000·t … 5000·t + 4999 of every 100000-row array it touches
  (blocks of 5000 × 128 or 5000 × 1 entries), and the small operands — a 128 × 128 matrix, a 1 × 128 row — whole at
  every point. Entry (p, c) of the block a point stores depends only on row p of the row-blocked operands and on the
  small operands: it is row p of the features times column c of the matrix, multiplied by entry p of a column, or
  entry (p, c) of the features multiplied by entry p of a column, plus entry c of a row, rectified. So the block a point
  stores is that block of rows of the same function of the WHOLE arrays, and the 20 blocks of rows cover the array.
-/
import proofs.«178891_j7834020348011_2_alg».proof.Proof.Gen.KernelIdeal.Frame
import proofs.«178891_j7834020348011_2_alg».proof.Proof.GraphLayers
import proofs.«178891_j7834020348011_2_alg».proof.Proof.LibPlainDot
import proofs.«178891_j7834020348011_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Regions

open Cert.KernelIdeal Cert.KernelIdeal.Gen Cert.GraphLayers Idealize.ShloMosaic Idealize.ShloMosaic.ValueIdx
open Idealize.ShloMosaic.TcCoe

/-! ## The matrix product's dimension numbers: operand coordinates at an output entry and a contraction position -/

/-- The first operand's row is the output entry's row. -/
theorem dot_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The first operand's column is the contraction position. -/
theorem dot_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The second operand's row is the contraction position. -/
theorem dot_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The second operand's column is the output entry's column. -/
theorem dot_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product into the zero accumulator, at entry (p, c): row p of l against column c of r. -/
theorem blockDot_apply {φ₁ φ₂ : FTy} (l : FVec Ideal S5000x128 φ₁) (r : FVec Ideal S128x128 φ₂) (p : Fin 5000) (c : Fin 128) :
    matmul dot_S5000x128_S128x128_S5000x128_1_0_0_1_n_n none l r (constant S5000x128 .f32 0x00000000#32) (ix2 p c)
      = ∑ k : Fin 128, (l (ix2 p k) : EReal) * (r (ix2 k c) : EReal) :=
  Cert.PlainDot.matmul_zero_apply dot_S5000x128_S128x128_S5000x128_1_0_0_1_n_n rfl rfl dot_lhs_row dot_lhs_col dot_rhs_row dot_rhs_col
    none l r p c

/-! ## What each body stores, as a function of the blocks it loads -/

/-- Region 0's stored block at entry (p, c): row p of the features against column c of the matrix, times entry p of the column. -/
theorem pay0_apply (x0 : Vec Ideal S5000x128 .f32) (x1 : Vec Ideal S128x128 .f32) (x2 : Vec Ideal S5000x1 .f32)
    (p : Fin 5000) (c : Fin 128) :
    k0_pay1 (F := Ideal) x0 x1 x2 (ix2 p c) = scaleMat x0 x1 x2 (ix2 p c) := by
  unfold k0_pay1
  rw [scaleMat_apply, mulf_apply]
  refine congrArg₂ (· * ·) ?_ ?_
  · exact blockDot_apply _ _ p c
  · rw [shapeCast_self]
    exact Cert.LibColumns.broadcastTo_a1_ab_apply x2 _ p c

theorem pay0_eq (x0 : Vec Ideal S5000x128 .f32) (x1 : Vec Ideal S128x128 .f32) (x2 : Vec Ideal S5000x1 .f32) :
    k0_pay1 (F := Ideal) x0 x1 x2 = scaleMat x0 x1 x2 := by
  funext i
  obtain ⟨p, c, rfl⟩ : ∃ (p : Fin 5000) (c : Fin 128), i = ix2 p c := ⟨i 0, i 1, eq_ix2 i⟩
  exact pay0_apply x0 x1 x2 p c

/-- Region 2's stored block at entry (p, c): entry (p, c) of the features times entry p of the column, plus entry c of the
    row, rectified. -/
theorem pay2_apply (x0 : Vec Ideal S5000x128 .f32) (x1 : Vec Ideal S5000x1 .f32) (x2 : Vec Ideal S1x128 .f32)
    (p : Fin 5000) (c : Fin 128) :
    k2_pay1 (F := Ideal) x0 x1 x2 (ix2 p c) = act x0 x1 x2 (ix2 p c) := by
  unfold k2_pay1
  rw [act_apply, maximumf_apply, addf_apply, mulf_apply, broadcast_apply, shapeCast_self, shapeCast_self, shapeCast_self,
    Cert.LibColumns.broadcastTo_a1_ab_apply x1 _ p c, broadcastTo_1b_ab_apply x2 _ p c]
  exact congrArg (max (x0 (ix2 p c) * x1 (ix2 p (0 : Fin 1)) + x2 (ix2 (0 : Fin 1) c))) Ideal.ofBits_zero_f32

theorem pay2_eq (x0 : Vec Ideal S5000x128 .f32) (x1 : Vec Ideal S5000x1 .f32) (x2 : Vec Ideal S1x128 .f32) :
    k2_pay1 (F := Ideal) x0 x1 x2 = act x0 x1 x2 := by
  funext i
  obtain ⟨p, c, rfl⟩ : ∃ (p : Fin 5000) (c : Fin 128), i = ix2 p c := ⟨i 0, i 1, eq_ix2 i⟩
  exact pay2_apply x0 x1 x2 p c

/-- Region 1's stored block at entry (p, c): row p of the rectified features against column c of the matrix, times entry p
    of the second column. The rectified features are region 2's stored block of the same operands. -/
theorem pay1_apply (x0 : Vec Ideal S5000x128 .f32) (x1 : Vec Ideal S5000x1 .f32) (x2 : Vec Ideal S1x128 .f32)
    (x3 : Vec Ideal S128x128 .f32) (x4 : Vec Ideal S5000x1 .f32) (p : Fin 5000) (c : Fin 128) :
    k1_pay1 (F := Ideal) x0 x1 x2 x3 x4 (ix2 p c) = scaleMat (act x0 x1 x2) x3 x4 (ix2 p c) := by
  unfold k1_pay1
  rw [scaleMat_apply, mulf_apply]
  refine congrArg₂ (· * ·) ?_ ?_
  · refine (blockDot_apply _ _ p c).trans ?_
    refine Finset.sum_congr rfl fun k _ => ?_
    exact congrArg (· * x3 (ix2 k c)) (pay2_apply x0 x1 x2 p k)
  · rw [shapeCast_self]
    exact Cert.LibColumns.broadcastTo_a1_ab_apply x4 _ p c

theorem pay1_eq (x0 : Vec Ideal S5000x128 .f32) (x1 : Vec Ideal S5000x1 .f32) (x2 : Vec Ideal S1x128 .f32)
    (x3 : Vec Ideal S128x128 .f32) (x4 : Vec Ideal S5000x1 .f32) :
    k1_pay1 (F := Ideal) x0 x1 x2 x3 x4 = scaleMat (act x0 x1 x2) x3 x4 := by
  funext i
  obtain ⟨p, c, rfl⟩ : ∃ (p : Fin 5000) (c : Fin 128), i = ix2 p c := ⟨i 0, i 1, eq_ix2 i⟩
  exact pay1_apply x0 x1 x2 x3 x4 p c

/-! ## From blocks to arrays -/

variable (V : (c : Dev nD) → (b : Ref sig .tc) → Buf (Elt Ideal) ((c : Thread nD τ).loc b))

/-- The bodies load and store their whole staging buffers: rectangles at offset zero on both axes. -/
theorem offs_zero : (![0, 0] : Fin 2 → Nat) = fun _ => 0 := funext fun a => by fin_cases a <;> rfl

/-! ### Region 0: the features times the matrix, rows scaled by the column -/

/-- The index maps over the grid: at point t the row-blocked windows (features, column, result) are at block (t, 0), the
    matrix at block (0, 0). -/
theorem blocks0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of point t's block of the features is row 5000·t + p of the array. -/
theorem rows0_0 (c : Dev nD) (t : Fin cfg0.N) (p : Fin 5000) (k : Fin 128) (r : Fin 100000) (hr : r.val = 5000 * t.val + p.val) :
    (iblk0 (F := Ideal) V c 0 t : Vec Ideal S5000x128 .f32) (ix2 p k)
      = (V c (Pipeline.arrRef spec0 0) : S100000x128.Idx → EReal) (ix2 r k) := by
  obtain ⟨e0, e1, -⟩ := blocks0 t
  unfold iblk0
  rw [View.read_apply]
  show (V c (Pipeline.arrRef spec0 0) : S100000x128.Idx → EReal) _ = _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Every point's block of the matrix is the matrix. -/
theorem rows0_1 (c : Dev nD) (t : Fin cfg0.N) (k : Fin 128) (q : Fin 128) :
    (iblk0 (F := Ideal) V c 1 t : Vec Ideal S128x128 .f32) (ix2 k q)
      = (V c (Pipeline.arrRef spec0 1) : S128x128.Idx → EReal) (ix2 k q) := by
  obtain ⟨-, -, e0, e1, -⟩ := blocks0 t
  unfold iblk0
  rw [View.read_apply]
  show (V c (Pipeline.arrRef spec0 1) : S128x128.Idx → EReal) _ = _
  refine congrArg _ (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- Entry p of point t's block of the column is entry 5000·t + p of the column. -/
theorem rows0_2 (c : Dev nD) (t : Fin cfg0.N) (p : Fin 5000) (r : Fin 100000) (hr : r.val = 5000 * t.val + p.val) :
    (iblk0 (F := Ideal) V c 2 t : Vec Ideal S5000x1 .f32) (ix2 p (0 : Fin 1))
      = (V c (Pipeline.arrRef spec0 2) : S100000x1.Idx → EReal) (ix2 r (0 : Fin 1)) := by
  obtain ⟨-, -, -, -, e0, e1, -⟩ := blocks0 t
  unfold iblk0
  rw [View.read_apply]
  show (V c (Pipeline.arrRef spec0 2) : S100000x1.Idx → EReal) _ = _
  refine congrArg _ (funext fun a => Fin.ext ?_)
  match a with
  | ⟨0, _⟩ => show win0_2.index t (0 : Fin 2) * 5000 + 1 * p.val = r.val; rw [e0, hr]; omega
  | ⟨1, _⟩ => show win0_2.index t (1 : Fin 2) * 1 + 1 * 0 = 0; rw [e1]

/-- Entry (p, q) of point t's block of the result sits at (5000·t + p, q) of the array. -/
theorem at0_3 (t : Fin cfg0.N) (p : Fin 5000) (q : Fin 128) (r : Fin 100000) (hr : r.val = 5000 * t.val + p.val) :
    ((cfg0.win 3).blk t).view.emb (ix2 p q) = (ix2 r q : S100000x128.Idx) := by
  obtain ⟨-, -, -, -, -, -, e0, e1⟩ := blocks0 t
  refine funext fun a => Fin.ext ?_
  match a with
  | ⟨0, _⟩ => show win0_3.index t (0 : Fin 2) * 5000 + 1 * p.val = r.val; rw [e0, hr]; omega
  | ⟨1, _⟩ => show win0_3.index t (1 : Fin 2) * 128 + 1 * q.val = q.val; rw [e1]; omega

/-- What point t writes back is its block of rows of the scaled product of the whole arrays. -/
theorem flushed0_eq (c : Dev nD) (t : Fin cfg0.N) :
    (dat0 (F := Ideal) V c).flushed 3 t
      = ((cfg0.win 3).blk t).view.read (Elt Ideal)
          (scaleMat (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero offs_zero]
  simp only [View.ld_unit_zero (S := S5000x128) offs_zero, View.ld_unit_zero (S := S128x128) offs_zero,
    View.ld_unit_zero (S := S5000x1) offs_zero]
  rw [pay0_eq]
  funext j
  obtain ⟨p, q, rfl⟩ : ∃ (p : Fin 5000) (q : Fin 128), j = ix2 p q := ⟨j 0, j 1, eq_ix2 j⟩
  have hN : cfg0.N = 20 := N_0
  have ht : t.val < 20 := hN ▸ t.isLt
  obtain ⟨r, hr⟩ : ∃ r : Fin 100000, r.val = 5000 * t.val + p.val := ⟨⟨5000 * t.val + p.val, by have := p.isLt; omega⟩, rfl⟩
  rw [View.read_apply, at0_3 t p q r hr]
  exact scaleMat_congr _ _ _ _ _ _ r p q (fun k => rows0_0 V c t p k r hr) (fun k => rows0_1 V c t k q) (rows0_2 V c t p r hr)

/-- Row r of the result is in the block of point r / 5000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e0, e1⟩ := blocks0 t
  refine ⟨t, flush0_3 t, ?_⟩
  show i ∈ ((View.whole main_v13).slice (win0_3.rect t)).set
  rw [View.set_slice_whole, Rect.mem_set_unit]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- REGION 0's result array: the features times the matrix, row r multiplied by entry r of the column. -/
theorem final0 (c : Dev nD) : (dat0 (F := Ideal) V c).arrAt 3 cfg0.N
      = scaleMat (V c (Pipeline.arrRef spec0 0)) (V c (Pipeline.arrRef spec0 1)) (V c (Pipeline.arrRef spec0 2)) :=
  (dat0 (F := Ideal) V c).arrAt_eq_of_cover 3 _ (fun t _ => flushed0_eq V c t) (fun i => cover0 i)

/-! ### Region 1: the rectified features times the matrix, rows scaled by the second column -/

/-- The index maps over the grid: at point t the row-blocked windows (features, the two columns, result) are at block
    (t, 0), the row and the matrix at block (0, 0). -/
theorem blocks1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row p of point t's block of the features is row 5000·t + p of the array. -/
theorem rows1_0 (c : Dev nD) (t : Fin cfg1.N) (p : Fin 5000) (k : Fin 128) (r : Fin 100000) (hr : r.val = 5000 * t.val + p.val)
    (e0 : win1_0.index t (0 : Fin 2) = t.val) (e1 : win1_0.index t (1 : Fin 2) = 0) :
    (iblk1 (F := Ideal) V c 0 t : Vec Ideal S5000x128 .f32) (ix2 p k)
      = (V c (Pipeline.arrRef spec1 0) : S100000x128.Idx → EReal) (ix2 r k) := by
  unfold iblk1
  rw [View.read_apply]
  show (V c (Pipeline.arrRef spec1 0) : S100000x128.Idx → EReal) _ = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Entry p of point t's block of the first column is entry 5000·t + p of that column. -/
theorem rows1_1 (c : Dev nD) (t : Fin cfg1.N) (p : Fin 5000) (r : Fin 100000) (hr : r.val = 5000 * t.val + p.val)
    (e0 : win1_1.index t (0 : Fin 2) = t.val) (e1 : win1_1.index t (1 : Fin 2) = 0) :
    (iblk1 (F := Ideal) V c 1 t : Vec Ideal S5000x1 .f32) (ix2 p (0 : Fin 1))
      = (V c (Pipeline.arrRef spec1 1) : S100000x1.Idx → EReal) (ix2 r (0 : Fin 1)) := by
  unfold iblk1
  rw [View.read_apply]
  show (V c (Pipeline.arrRef spec1 1) : S100000x1.Idx → EReal) _ = _
  refine congrArg _ (funext fun a => Fin.ext ?_)
  match a with
  | ⟨0, _⟩ => show win1_1.index t (0 : Fin 2) * 5000 + 1 * p.val = r.val; rw [e0, hr]; omega
  | ⟨1, _⟩ => show win1_1.index t (1 : Fin 2) * 1 + 1 * 0 = 0; rw [e1]

/-- Every point's block of the row is the row. -/
theorem rows1_2 (c : Dev nD) (t : Fin cfg1.N) (q : Fin 128)
    (e0 : win1_2.index t (0 : Fin 2) = 0) (e1 : win1_2.index t (1 : Fin 2) = 0) :
    (iblk1 (F := Ideal) V c 2 t : Vec Ideal S1x128 .f32) (ix2 (0 : Fin 1) q)
      = (V c (Pipeline.arrRef spec1 2) : S1x128.Idx → EReal) (ix2 (0 : Fin 1) q) := by
  unfold iblk1
  rw [View.read_apply]
  show (V c (Pipeline.arrRef spec1 2) : S1x128.Idx → EReal) _ = _
  refine congrArg _ (funext fun a => Fin.ext ?_)
  match a with
  | ⟨0, _⟩ => show win1_2.index t (0 : Fin 2) * 1 + 1 * 0 = 0; rw [e0]
  | ⟨1, _⟩ => show win1_2.index t (1 : Fin 2) * 128 + 1 * q.val = q.val; rw [e1]; omega

/-- Every point's block of the matrix is the matrix. -/
theorem rows1_3 (c : Dev nD) (t : Fin cfg1.N) (k : Fin 128) (q : Fin 128)
    (e0 : win1_3.index t (0 : Fin 2) = 0) (e1 : win1_3.index t (1 : Fin 2) = 0) :
    (iblk1 (F := Ideal) V c 3 t : Vec Ideal S128x128 .f32) (ix2 k q)
      = (V c (Pipeline.arrRef spec1 3) : S128x128.Idx → EReal) (ix2 k q) := by
  unfold iblk1
  rw [View.read_apply]
  show (V c (Pipeline.arrRef spec1 3) : S128x128.Idx → EReal) _ = _
  refine congrArg _ (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- Entry p of point t's block of the second column is entry 5000·t + p of that column. -/
theorem rows1_4 (c : Dev nD) (t : Fin cfg1.N) (p : Fin 5000) (r : Fin 100000) (hr : r.val = 5000 * t.val + p.val)
    (e0 : win1_4.index t (0 : Fin 2) = t.val) (e1 : win1_4.index t (1 : Fin 2) = 0) :
    (iblk1 (F := Ideal) V c 4 t : Vec Ideal S5000x1 .f32) (ix2 p (0 : Fin 1))
      = (V c (Pipeline.arrRef spec1 4) : S100000x1.Idx → EReal) (ix2 r (0 : Fin 1)) := by
  unfold iblk1
  rw [View.read_apply]
  show (V c (Pipeline.arrRef spec1 4) : S100000x1.Idx → EReal) _ = _
  refine congrArg _ (funext fun a => Fin.ext ?_)
  match a with
  | ⟨0, _⟩ => show win1_4.index t (0 : Fin 2) * 5000 + 1 * p.val = r.val; rw [e0, hr]; omega
  | ⟨1, _⟩ => show win1_4.index t (1 : Fin 2) * 1 + 1 * 0 = 0; rw [e1]

/-- Entry (p, q) of point t's block of the result sits at (5000·t + p, q) of the array. -/
theorem at1_5 (t : Fin cfg1.N) (p : Fin 5000) (q : Fin 128) (r : Fin 100000) (hr : r.val = 5000 * t.val + p.val)
    (e0 : win1_5.index t (0 : Fin 2) = t.val) (e1 : win1_5.index t (1 : Fin 2) = 0) :
    ((cfg1.win 5).blk t).view.emb (ix2 p q) = (ix2 r q : S100000x128.Idx) := by
  refine funext fun a => Fin.ext ?_
  match a with
  | ⟨0, _⟩ => show win1_5.index t (0 : Fin 2) * 5000 + 1 * p.val = r.val; rw [e0, hr]; omega
  | ⟨1, _⟩ => show win1_5.index t (1 : Fin 2) * 128 + 1 * q.val = q.val; rw [e1]; omega

/-- What point t writes back is its block of rows of the scaled product of the rectified whole arrays. -/
theorem flushed1_eq (c : Dev nD) (t : Fin cfg1.N) :
    (dat1 (F := Ideal) V c).flushed 5 t
      = ((cfg1.win 5).blk t).view.read (Elt Ideal)
          (scaleMat (act (V c (Pipeline.arrRef spec1 0)) (V c (Pipeline.arrRef spec1 1)) (V c (Pipeline.arrRef spec1 2)))
            (V c (Pipeline.arrRef spec1 3)) (V c (Pipeline.arrRef spec1 4))) := by
  show (cfg1.win 5).cut (grid1.coords t) ((dat1 V c).after 5 t) = _
  rw [after1_5]
  unfold out1_5
  rw [View.canon_unit_zero offs_zero]
  simp only [View.ld_unit_zero (S := S5000x128) offs_zero, View.ld_unit_zero (S := S5000x1) offs_zero,
    View.ld_unit_zero (S := S1x128) offs_zero, View.ld_unit_zero (S := S128x128) offs_zero]
  rw [pay1_eq]
  funext j
  obtain ⟨p, q, rfl⟩ : ∃ (p : Fin 5000) (q : Fin 128), j = ix2 p q := ⟨j 0, j 1, eq_ix2 j⟩
  have hN : cfg1.N = 20 := N_1
  have ht : t.val < 20 := hN ▸ t.isLt
  obtain ⟨r, hr⟩ : ∃ r : Fin 100000, r.val = 5000 * t.val + p.val := ⟨⟨5000 * t.val + p.val, by have := p.isLt; omega⟩, rfl⟩
  obtain ⟨a0, a1, b0, b1, d0, d1, m0, m1, s0, s1, o0, o1⟩ := blocks1 t
  rw [View.read_apply, at1_5 t p q r hr o0 o1]
  exact scaleMat_congr _ _ _ _ _ _ r p q
    (fun k => act_congr _ _ _ _ _ _ r p k (rows1_0 V c t p k r hr a0 a1) (rows1_1 V c t p r hr b0 b1) (rows1_2 V c t k d0 d1))
    (fun k => rows1_3 V c t k q m0 m1) (rows1_4 V c t p r hr s0 s1)

/-- Row r of the result is in the block of point r / 5000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := blocks1 t
  refine ⟨t, flush1_5 t, ?_⟩
  show i ∈ ((View.whole main_v27).slice (win1_5.rect t)).set
  rw [View.set_slice_whole, Rect.mem_set_unit]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 128 ≤ (i 1).val ∧ (i 1).val < win1_5.index t (1 : Fin 2) * 128 + 128
    rw [e1]; omega

/-- REGION 1's result array: the rectified features times the matrix, row r multiplied by entry r of the second column. -/
theorem final1 (c : Dev nD) : (dat1 (F := Ideal) V c).arrAt 5 cfg1.N
      = scaleMat (act (V c (Pipeline.arrRef spec1 0)) (V c (Pipeline.arrRef spec1 1)) (V c (Pipeline.arrRef spec1 2)))
          (V c (Pipeline.arrRef spec1 3)) (V c (Pipeline.arrRef spec1 4)) :=
  (dat1 (F := Ideal) V c).arrAt_eq_of_cover 5 _ (fun t _ => flushed1_eq V c t) (fun i => cover1 i)

/-! ### Region 2: the features scaled by the column, plus the row, rectified -/

/-- The index maps over the grid: at point t the row-blocked windows (features, column, result) are at block (t, 0), the
    row at block (0, 0). -/
theorem blocks2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of point t's block of the features is row 5000·t + p of the array. -/
theorem rows2_0 (c : Dev nD) (t : Fin cfg2.N) (p : Fin 5000) (k : Fin 128) (r : Fin 100000) (hr : r.val = 5000 * t.val + p.val)
    (e0 : win2_0.index t (0 : Fin 2) = t.val) (e1 : win2_0.index t (1 : Fin 2) = 0) :
    (iblk2 (F := Ideal) V c 0 t : Vec Ideal S5000x128 .f32) (ix2 p k)
      = (V c (Pipeline.arrRef spec2 0) : S100000x128.Idx → EReal) (ix2 r k) := by
  unfold iblk2
  rw [View.read_apply]
  show (V c (Pipeline.arrRef spec2 0) : S100000x128.Idx → EReal) _ = _
  refine congrArg _ (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- Entry p of point t's block of the column is entry 5000·t + p of the column. -/
theorem rows2_1 (c : Dev nD) (t : Fin cfg2.N) (p : Fin 5000) (r : Fin 100000) (hr : r.val = 5000 * t.val + p.val)
    (e0 : win2_1.index t (0 : Fin 2) = t.val) (e1 : win2_1.index t (1 : Fin 2) = 0) :
    (iblk2 (F := Ideal) V c 1 t : Vec Ideal S5000x1 .f32) (ix2 p (0 : Fin 1))
      = (V c (Pipeline.arrRef spec2 1) : S100000x1.Idx → EReal) (ix2 r (0 : Fin 1)) := by
  unfold iblk2
  rw [View.read_apply]
  show (V c (Pipeline.arrRef spec2 1) : S100000x1.Idx → EReal) _ = _
  refine congrArg _ (funext fun a => Fin.ext ?_)
  match a with
  | ⟨0, _⟩ => show win2_1.index t (0 : Fin 2) * 5000 + 1 * p.val = r.val; rw [e0, hr]; omega
  | ⟨1, _⟩ => show win2_1.index t (1 : Fin 2) * 1 + 1 * 0 = 0; rw [e1]

/-- Every point's block of the row is the row. -/
theorem rows2_2 (c : Dev nD) (t : Fin cfg2.N) (q : Fin 128)
    (e0 : win2_2.index t (0 : Fin 2) = 0) (e1 : win2_2.index t (1 : Fin 2) = 0) :
    (iblk2 (F := Ideal) V c 2 t : Vec Ideal S1x128 .f32) (ix2 (0 : Fin 1) q)
      = (V c (Pipeline.arrRef spec2 2) : S1x128.Idx → EReal) (ix2 (0 : Fin 1) q) := by
  unfold iblk2
  rw [View.read_apply]
  show (V c (Pipeline.arrRef spec2 2) : S1x128.Idx → EReal) _ = _
  refine congrArg _ (funext fun a => Fin.ext ?_)
  match a with
  | ⟨0, _⟩ => show win2_2.index t (0 : Fin 2) * 1 + 1 * 0 = 0; rw [e0]
  | ⟨1, _⟩ => show win2_2.index t (1 : Fin 2) * 128 + 1 * q.val = q.val; rw [e1]; omega

/-- Entry (p, q) of point t's block of the result sits at (5000·t + p, q) of the array. -/
theorem at2_3 (t : Fin cfg2.N) (p : Fin 5000) (q : Fin 128) (r : Fin 100000) (hr : r.val = 5000 * t.val + p.val)
    (e0 : win2_3.index t (0 : Fin 2) = t.val) (e1 : win2_3.index t (1 : Fin 2) = 0) :
    ((cfg2.win 3).blk t).view.emb (ix2 p q) = (ix2 r q : S100000x128.Idx) := by
  refine funext fun a => Fin.ext ?_
  match a with
  | ⟨0, _⟩ => show win2_3.index t (0 : Fin 2) * 5000 + 1 * p.val = r.val; rw [e0, hr]; omega
  | ⟨1, _⟩ => show win2_3.index t (1 : Fin 2) * 128 + 1 * q.val = q.val; rw [e1]; omega

/-- What point t writes back is its block of rows of the rectified function of the whole arrays. -/
theorem flushed2_eq (c : Dev nD) (t : Fin cfg2.N) :
    (dat2 (F := Ideal) V c).flushed 3 t
      = ((cfg2.win 3).blk t).view.read (Elt Ideal)
          (act (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero offs_zero]
  simp only [View.ld_unit_zero (S := S5000x128) offs_zero, View.ld_unit_zero (S := S5000x1) offs_zero,
    View.ld_unit_zero (S := S1x128) offs_zero]
  rw [pay2_eq]
  funext j
  obtain ⟨p, q, rfl⟩ : ∃ (p : Fin 5000) (q : Fin 128), j = ix2 p q := ⟨j 0, j 1, eq_ix2 j⟩
  have hN : cfg2.N = 20 := N_2
  have ht : t.val < 20 := hN ▸ t.isLt
  obtain ⟨r, hr⟩ : ∃ r : Fin 100000, r.val = 5000 * t.val + p.val := ⟨⟨5000 * t.val + p.val, by have := p.isLt; omega⟩, rfl⟩
  obtain ⟨a0, a1, b0, b1, d0, d1, o0, o1⟩ := blocks2 t
  rw [View.read_apply, at2_3 t p q r hr o0 o1]
  exact act_congr _ _ _ _ _ _ r p q (rows2_0 V c t p q r hr a0 a1) (rows2_1 V c t p r hr b0 b1) (rows2_2 V c t q d0 d1)

/-- Row r of the result is in the block of point r / 5000. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, e0, e1⟩ := blocks2 t
  refine ⟨t, flush2_3 t, ?_⟩
  show i ∈ ((View.whole main_v40).slice (win2_3.rect t)).set
  rw [View.set_slice_whole, Rect.mem_set_unit]
  intro a
  match a with
  | ⟨0, _⟩ =>
    show win2_3.index t (0 : Fin 2) * 5000 ≤ (i 0).val ∧ (i 0).val < win2_3.index t (0 : Fin 2) * 5000 + 5000
    rw [e0, ht]; omega
  | ⟨1, _⟩ =>
    show win2_3.index t (1 : Fin 2) * 128 ≤ (i 1).val ∧ (i 1).val < win2_3.index t (1 : Fin 2) * 128 + 128
    rw [e1]; omega

/-- REGION 2's result array: entry (r, q) of the features times entry r of the column, plus entry q of the row, rectified. -/
theorem final2 (c : Dev nD) : (dat2 (F := Ideal) V c).arrAt 3 cfg2.N
      = act (V c (Pipeline.arrRef spec2 0)) (V c (Pipeline.arrRef spec2 1)) (V c (Pipeline.arrRef spec2 2)) :=
  (dat2 (F := Ideal) V c).arrAt_eq_of_cover 3 _ (fun t _ => flushed2_eq V c t) (fun i => cover2 i)

end Cert.KernelIdeal.Regions

end
-- ==== Proof.LibDenseOps.lean ====
/-
  A dense layer as vector operations spell it, read as the layer of `LibDense` — general in the extents.

  Two spellings occur. A layer with many output columns is a matrix product into a zero accumulator, plus the bias row
  spread over the rows, and the rectifier is the entrywise maximum with a splat zero: over the extended reals this is
  `relu (lin h w b)`. A layer with ONE output column is often computed without a matrix product: every row of `h` is
  multiplied entrywise by the weights laid out as a row, the products are summed along the row, the sums are recast as
  a column and the one bias entry is added; when the row of weights is the transpose of the column `w` this is
  `lin h w b` with one output column.
-/
import proofs.«178891_j7834020348011_2_alg».proof.Proof.LibDense
import proofs.«178891_j7834020348011_2_alg».proof.Proof.LibPlainDot
import proofs.«178891_j7834020348011_2_alg».proof.Proof.LibColumns
import Idealize.ShloMosaic.Lib.ValueLayout

noncomputable section

open scoped BigOperators

namespace Cert.DenseOps

open Idealize.ShloMosaic Idealize.ShloMosaic.ValueIdx Cert.Dense

/-- A matrix product into the zero accumulator, plus a bias row spread over the rows, then the maximum with zero, is
    the rectified layer: entry (p, q) is `max (∑ k, h (p, k) · w (k, q) + b (0, q)) 0`. The four coordinate facts and the
    contraction's one axis are what a program's literal dimension numbers decide. -/
theorem matmul_bias_relu_eq {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (h : FVec Ideal (⟨2, ![n, K]⟩ : Shape) φ₁) (w : FVec Ideal (⟨2, ![K, M]⟩ : Shape) φ₂)
    (b : FVec Ideal (⟨2, ![1, M]⟩ : Shape) .f32) (hb : (⟨2, ![1, M]⟩ : Shape).Broadcasts ⟨2, ![n, M]⟩) :
    maximumf (addf (FloatOps.matmul D prec h w (constant (⟨2, ![n, M]⟩ : Shape) .f32 0x00000000#32))
        (broadcastTo (⟨2, ![n, M]⟩ : Shape) b hb))
      (broadcast (⟨2, ![n, M]⟩ : Shape) (Scalar.ofBits (F := Ideal) .f32 0x00000000#32))
      = relu (lin h w b) := by
  funext i
  obtain ⟨p, q, rfl⟩ : ∃ (p : Fin n) (q : Fin M), i = ix2 p q := ⟨i 0, i 1, eq_ix2 i⟩
  rw [relu_apply, lin_apply, maximumf_apply, addf_apply, broadcast_apply,
    PlainDot.matmul_zero_apply D hr hs l0 l1 r0 r1 prec h w p q, broadcastTo_1b_ab_apply b hb p q]
  show max _ (Ideal.ofBits .f32 0x00000000#32) = _
  rw [Ideal.ofBits_zero_f32]

/-- A layer with one output column computed on the vector unit: the rows of `h` times the weights laid out as a row
    `wrow`, summed along each row, recast as a column, plus the one bias entry. With `wrow (0, k) = w (k, 0)` it is
    `lin h w b`: entry (p, 0) is `∑ k, h (p, k) · w (k, 0) + b (0, 0)`. -/
theorem mulrow_sum_bias_eq {n K : Nat} (h : FVec Ideal (⟨2, ![n, K]⟩ : Shape) .f32)
    (wrow : FVec Ideal (⟨2, ![1, K]⟩ : Shape) .f32) (b : FVec Ideal (⟨2, ![1, 1]⟩ : Shape) .f32)
    (w : (⟨2, ![K, 1]⟩ : Shape).Idx → EReal)
    (hw : ∀ k : Fin K, wrow (ix2 (0 : Fin 1) k) = w (ix2 k (0 : Fin 1)))
    (hbk : (⟨2, ![1, K]⟩ : Shape).Broadcasts ⟨2, ![n, K]⟩) (acc : BitVec (FTy.f32).bits)
    (hred : (⟨2, ![n, K]⟩ : Shape).Reduces [1] ⟨1, ![n]⟩) (hφ : FKind.Formats .f32) (hacc : acc = FKind.add.neutral .f32 hφ)
    (hsc : (⟨1, ![n]⟩ : Shape).ShapeCasts ⟨2, ![n, 1]⟩) (hb : (⟨2, ![1, 1]⟩ : Shape).Broadcasts ⟨2, ![n, 1]⟩) :
    addf (shapeCast (⟨2, ![n, 1]⟩ : Shape)
          (multiReduction .add [1] (⟨1, ![n]⟩ : Shape) (mulf h (broadcastTo (⟨2, ![n, K]⟩ : Shape) wrow hbk)) acc hred hφ hacc) hsc)
        (broadcastTo (⟨2, ![n, 1]⟩ : Shape) b hb)
      = lin h w b := by
  funext i
  obtain ⟨p, z, rfl⟩ : ∃ (p : Fin n) (z : Fin 1), i = ix2 p z := ⟨i 0, i 1, eq_ix2 i⟩
  obtain rfl : z = 0 := Subsingleton.elim _ _
  rw [lin_apply, addf_apply, LibColumns.shapeCast_a_a1_apply _ hsc p 0,
    LibColumns.rowSum_apply _ acc hred hφ hacc p, broadcastTo_1b_ab_apply b hb p 0]
  refine congrArg (· + b (ix2 (0 : Fin 1) (0 : Fin 1))) (Finset.sum_congr rfl fun k _ => ?_)
  rw [mulf_apply, broadcastTo_1b_ab_apply wrow hbk p k, hw k]

end Cert.DenseOps

end
-- ==== Proof.HeadArray.lean ====
/-
  The last region of the kernel program read as one function of the arrays it finds.

  The region is a three-layer perceptron on a 512 × 128 matrix: a 128 → 256 layer and a 256 → 128 layer, each a matrix
  product into a zero accumulator plus a bias row spread over the rows and then the entrywise maximum with zero, and a
  128 → 2 layer without the maximum. Its grid has one point and every window is a whole array, so the one block of each
  window is the array itself and the one write-back fills the whole 512 × 2 result.

  On the extended reals a change of float format is the identity and a cast of a shape to itself is the identity, so
  what the body stores is `head` of the seven arrays it loads (`pay3_eq`); and since the one block covers the result
  array, the array ends holding `head` of the seven arrays as the region finds them (`final3`).
-/
import proofs.«178891_j7834020348011_2_alg».proof.Proof.Gen.KernelIdeal.Frame
import proofs.«178891_j7834020348011_2_alg».proof.Proof.GraphLayers
import proofs.«178891_j7834020348011_2_alg».proof.Proof.LibDenseOps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HeadRegion

open Cert.KernelIdeal Cert.KernelIdeal.Gen Cert.GraphLayers Idealize.ShloMosaic Idealize.ShloMosaic.ValueIdx
open Idealize.ShloMosaic.TcCoe

variable (V : (c : Dev nD) → (b : Ref sig .tc) → Buf (Elt Ideal) ((c : Thread nD τ).loc b))

/-! ## The three matrix products' coordinates

Each product contracts the columns of its first operand against the rows of its second: at output entry `i` and
contraction position `q` the first operand is read at (i 0, q) and the second at (q, i 1). -/

theorem up_lhs0 (i : S512x256.Idx) (q : dot_S512x128_S128x256_S512x256_1_0_0_1_n_n.contr.Idx) :
    (dot_S512x128_S128x256_S512x256_1_0_0_1_n_n.lhsIdx i q 0).val = (i 0).val := by
  unfold DotDims.lhsIdx
  rw [dif_neg (show ¬(0 : Fin S512x128.rank) ∈ dot_S512x128_S128x256_S512x256_1_0_0_1_n_n.lhsBatch by decide),
    dif_pos (show (0 : Fin S512x128.rank) ∈ dot_S512x128_S128x256_S512x256_1_0_0_1_n_n.lhsNonContracting by decide)]
  rfl
theorem up_lhs1 (i : S512x256.Idx) (q : dot_S512x128_S128x256_S512x256_1_0_0_1_n_n.contr.Idx) :
    (dot_S512x128_S128x256_S512x256_1_0_0_1_n_n.lhsIdx i q 1).val = (q ⟨0, by decide⟩).val :=
  dot_S512x128_S128x256_S512x256_1_0_0_1_n_n.lhsIdx_val_of_single rfl i q
theorem up_rhs0 (i : S512x256.Idx) (q : dot_S512x128_S128x256_S512x256_1_0_0_1_n_n.contr.Idx) :
    (dot_S512x128_S128x256_S512x256_1_0_0_1_n_n.rhsIdx i q 0).val = (q ⟨0, by decide⟩).val :=
  dot_S512x128_S128x256_S512x256_1_0_0_1_n_n.rhsIdx_val_of_single rfl i q
theorem up_rhs1 (i : S512x256.Idx) (q : dot_S512x128_S128x256_S512x256_1_0_0_1_n_n.contr.Idx) :
    (dot_S512x128_S128x256_S512x256_1_0_0_1_n_n.rhsIdx i q 1).val = (i 1).val := by
  unfold DotDims.rhsIdx
  rw [dif_neg (show ¬(1 : Fin S128x256.rank) ∈ dot_S512x128_S128x256_S512x256_1_0_0_1_n_n.rhsBatch by decide),
    dif_pos (show (1 : Fin S128x256.rank) ∈ dot_S512x128_S128x256_S512x256_1_0_0_1_n_n.rhsNonContracting by decide)]
  rfl

theorem mid_lhs0 (i : S512x128.Idx) (q : dot_S512x256_S256x128_S512x128_1_0_0_1_n_n.contr.Idx) :
    (dot_S512x256_S256x128_S512x128_1_0_0_1_n_n.lhsIdx i q 0).val = (i 0).val := by
  unfold DotDims.lhsIdx
  rw [dif_neg (show ¬(0 : Fin S512x256.rank) ∈ dot_S512x256_S256x128_S512x128_1_0_0_1_n_n.lhsBatch by decide),
    dif_pos (show (0 : Fin S512x256.rank) ∈ dot_S512x256_S256x128_S512x128_1_0_0_1_n_n.lhsNonContracting by decide)]
  rfl
theorem mid_lhs1 (i : S512x128.Idx) (q : dot_S512x256_S256x128_S512x128_1_0_0_1_n_n.contr.Idx) :
    (dot_S512x256_S256x128_S512x128_1_0_0_1_n_n.lhsIdx i q 1).val = (q ⟨0, by decide⟩).val :=
  dot_S512x256_S256x128_S512x128_1_0_0_1_n_n.lhsIdx_val_of_single rfl i q
theorem mid_rhs0 (i : S512x128.Idx) (q : dot_S512x256_S256x128_S512x128_1_0_0_1_n_n.contr.Idx) :
    (dot_S512x256_S256x128_S512x128_1_0_0_1_n_n.rhsIdx i q 0).val = (q ⟨0, by decide⟩).val :=
  dot_S512x256_S256x128_S512x128_1_0_0_1_n_n.rhsIdx_val_of_single rfl i q
theorem mid_rhs1 (i : S512x128.Idx) (q : dot_S512x256_S256x128_S512x128_1_0_0_1_n_n.contr.Idx) :
    (dot_S512x256_S256x128_S512x128_1_0_0_1_n_n.rhsIdx i q 1).val = (i 1).val := by
  unfold DotDims.rhsIdx
  rw [dif_neg (show ¬(1 : Fin S256x128.rank) ∈ dot_S512x256_S256x128_S512x128_1_0_0_1_n_n.rhsBatch by decide),
    dif_pos (show (1 : Fin S256x128.rank) ∈ dot_S512x256_S256x128_S512x128_1_0_0_1_n_n.rhsNonContracting by decide)]
  rfl

theorem low_lhs0 (i : S512x2.Idx) (q : dot_S512x128_S128x2_S512x2_1_0_0_1_n_n.contr.Idx) :
    (dot_S512x128_S128x2_S512x2_1_0_0_1_n_n.lhsIdx i q 0).val = (i 0).val := by
  unfold DotDims.lhsIdx
  rw [dif_neg (show ¬(0 : Fin S512x128.rank) ∈ dot_S512x128_S128x2_S512x2_1_0_0_1_n_n.lhsBatch by decide),
    dif_pos (show (0 : Fin S512x128.rank) ∈ dot_S512x128_S128x2_S512x2_1_0_0_1_n_n.lhsNonContracting by decide)]
  rfl
theorem low_lhs1 (i : S512x2.Idx) (q : dot_S512x128_S128x2_S512x2_1_0_0_1_n_n.contr.Idx) :
    (dot_S512x128_S128x2_S512x2_1_0_0_1_n_n.lhsIdx i q 1).val = (q ⟨0, by decide⟩).val :=
  dot_S512x128_S128x2_S512x2_1_0_0_1_n_n.lhsIdx_val_of_single rfl i q
theorem low_rhs0 (i : S512x2.Idx) (q : dot_S512x128_S128x2_S512x2_1_0_0_1_n_n.contr.Idx) :
    (dot_S512x128_S128x2_S512x2_1_0_0_1_n_n.rhsIdx i q 0).val = (q ⟨0, by decide⟩).val :=
  dot_S512x128_S128x2_S512x2_1_0_0_1_n_n.rhsIdx_val_of_single rfl i q
theorem low_rhs1 (i : S512x2.Idx) (q : dot_S512x128_S128x2_S512x2_1_0_0_1_n_n.contr.Idx) :
    (dot_S512x128_S128x2_S512x2_1_0_0_1_n_n.rhsIdx i q 1).val = (i 1).val := by
  unfold DotDims.rhsIdx
  rw [dif_neg (show ¬(1 : Fin S128x2.rank) ∈ dot_S512x128_S128x2_S512x2_1_0_0_1_n_n.rhsBatch by decide),
    dif_pos (show (1 : Fin S128x2.rank) ∈ dot_S512x128_S128x2_S512x2_1_0_0_1_n_n.rhsNonContracting by decide)]
  rfl

/-! ## One layer as the body spells it -/

/-- On the extended reals a change of float format leaves every entry as it is. -/
theorem truncf_id {S : Shape} {φ ψ : FTy} (v : FVec Ideal S φ) (h : ψ.bits < φ.bits) :
    (truncf ψ v h : S.Idx → EReal) = v := rfl

/-- A matrix product into the zero accumulator plus a bias row spread over the rows is the layer: entry (p, q) is
    `∑ k, h (p, k) · w (k, q) + b (0, q)`. -/
theorem matmul_bias_eq {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (h : FVec Ideal (⟨2, ![n, K]⟩ : Shape) φ₁) (w : FVec Ideal (⟨2, ![K, M]⟩ : Shape) φ₂)
    (b : FVec Ideal (⟨2, ![1, M]⟩ : Shape) .f32) (hb : (⟨2, ![1, M]⟩ : Shape).Broadcasts ⟨2, ![n, M]⟩) :
    addf (FloatOps.matmul D prec h w (constant (⟨2, ![n, M]⟩ : Shape) .f32 0x00000000#32))
        (broadcastTo (⟨2, ![n, M]⟩ : Shape) b hb)
      = Dense.lin h w b := by
  funext i
  obtain ⟨p, q, rfl⟩ : ∃ (p : Fin n) (q : Fin M), i = ix2 p q := ⟨i 0, i 1, eq_ix2 i⟩
  rw [Dense.lin_apply, addf_apply,
    PlainDot.matmul_zero_apply D hr hs l0 l1 r0 r1 prec h w p q, broadcastTo_1b_ab_apply b hb p q]

/-! ## What the body stores -/

/-- The body's one stored value is the three layers of the arrays it loads. -/
theorem pay3_eq (x0 : Vec Ideal S512x128 .f32) (x1 : Vec Ideal S128x256 .f32) (x2 : Vec Ideal S1x256 .f32)
    (x3 : Vec Ideal S256x128 .f32) (x4 : Vec Ideal S1x128 .f32) (x5 : Vec Ideal S128x2 .f32) (x6 : Vec Ideal S1x2 .f32) :
    k3_pay1 (F := Ideal) x0 x1 x2 x3 x4 x5 x6 = head x0 x1 x2 x3 x4 x5 x6 := by
  unfold k3_pay1 head
  dsimp only
  rw [shapeCast_self x0, shapeCast_self x2, shapeCast_self x4, shapeCast_self x6]
  rw [DenseOps.matmul_bias_relu_eq (n := 512) (K := 128) (M := 256) dot_S512x128_S128x256_S512x256_1_0_0_1_n_n rfl rfl
      up_lhs0 up_lhs1 up_rhs0 up_rhs1 none _ _ x2 broadcasts_S1x256_S512x256]
  rw [DenseOps.matmul_bias_relu_eq (n := 512) (K := 256) (M := 128) dot_S512x256_S256x128_S512x128_1_0_0_1_n_n rfl rfl
      mid_lhs0 mid_lhs1 mid_rhs0 mid_rhs1 none _ _ x4 broadcasts_S1x128_S512x128]
  rw [matmul_bias_eq (n := 512) (K := 128) (M := 2) dot_S512x128_S128x2_S512x2_1_0_0_1_n_n rfl rfl
      low_lhs0 low_lhs1 low_rhs0 low_rhs1 none _ _ x6 broadcasts_S1x2_S512x2]
  simp only [truncf_id]

/-! ## The one block of every window is its whole array

The grid has one point, and every window's index map sends it to block (0, 0) of a block as large as the array: each
block is its array read through the rectangle of the array's own sizes at zero offsets, which reads the array. -/

theorem hz : (![0, 0] : Fin 2 → Nat) = fun _ => 0 := funext fun a => by fin_cases a <;> rfl

/-- Window 0's block at the one grid point is the whole 512 × 128 array. -/
theorem iblk3_0 (c : Dev nD) (t : Fin cfg3.N) : iblk3 V c 0 t = V c (Pipeline.arrRef spec3 0) := by
  obtain rfl := fin_N3 t
  unfold iblk3
  have hz' : (fun a => win3_0.index t3_0 a * main_v43.ty.shape.size a) = fun _ => 0 :=
    funext fun a => by fin_cases a <;> decide
  exact Memref.read_access_unit_zero (Elt Ideal) main_v43 hz' (fun a => by rw [congrFun hz' a]; simp) _

/-- Window 1's block at the one grid point is the whole 128 × 256 array. -/
theorem iblk3_1 (c : Dev nD) (t : Fin cfg3.N) : iblk3 V c 1 t = V c (Pipeline.arrRef spec3 1) := by
  obtain rfl := fin_N3 t
  unfold iblk3
  have hz' : (fun a => win3_1.index t3_0 a * main_arg8.ty.shape.size a) = fun _ => 0 :=
    funext fun a => by fin_cases a <;> decide
  exact Memref.read_access_unit_zero (Elt Ideal) main_arg8 hz' (fun a => by rw [congrFun hz' a]; simp) _

/-- Window 2's block at the one grid point is the whole 1 × 256 array. -/
theorem iblk3_2 (c : Dev nD) (t : Fin cfg3.N) : iblk3 V c 2 t = V c (Pipeline.arrRef spec3 2) := by
  obtain rfl := fin_N3 t
  unfold iblk3
  have hz' : (fun a => win3_2.index t3_0 a * main_v44.ty.shape.size a) = fun _ => 0 :=
    funext fun a => by fin_cases a <;> decide
  exact Memref.read_access_unit_zero (Elt Ideal) main_v44 hz' (fun a => by rw [congrFun hz' a]; simp) _

/-- Window 3's block at the one grid point is the whole 256 × 128 array. -/
theorem iblk3_3 (c : Dev nD) (t : Fin cfg3.N) : iblk3 V c 3 t = V c (Pipeline.arrRef spec3 3) := by
  obtain rfl := fin_N3 t
  unfold iblk3
  have hz' : (fun a => win3_3.index t3_0 a * main_arg10.ty.shape.size a) = fun _ => 0 :=
    funext fun a => by fin_cases a <;> decide
  exact Memref.read_access_unit_zero (Elt Ideal) main_arg10 hz' (fun a => by rw [congrFun hz' a]; simp) _

/-- Window 4's block at the one grid point is the whole 1 × 128 array. -/
theorem iblk3_4 (c : Dev nD) (t : Fin cfg3.N) : iblk3 V c 4 t = V c (Pipeline.arrRef spec3 4) := by
  obtain rfl := fin_N3 t
  unfold iblk3
  have hz' : (fun a => win3_4.index t3_0 a * main_v45.ty.shape.size a) = fun _ => 0 :=
    funext fun a => by fin_cases a <;> decide
  exact Memref.read_access_unit_zero (Elt Ideal) main_v45 hz' (fun a => by rw [congrFun hz' a]; simp) _

/-- Window 5's block at the one grid point is the whole 128 × 2 array. -/
theorem iblk3_5 (c : Dev nD) (t : Fin cfg3.N) : iblk3 V c 5 t = V c (Pipeline.arrRef spec3 5) := by
  obtain rfl := fin_N3 t
  unfold iblk3
  have hz' : (fun a => win3_5.index t3_0 a * main_arg12.ty.shape.size a) = fun _ => 0 :=
    funext fun a => by fin_cases a <;> decide
  exact Memref.read_access_unit_zero (Elt Ideal) main_arg12 hz' (fun a => by rw [congrFun hz' a]; simp) _

/-- Window 6's block at the one grid point is the whole 1 × 2 array. -/
theorem iblk3_6 (c : Dev nD) (t : Fin cfg3.N) : iblk3 V c 6 t = V c (Pipeline.arrRef spec3 6) := by
  obtain rfl := fin_N3 t
  unfold iblk3
  have hz' : (fun a => win3_6.index t3_0 a * main_v46.ty.shape.size a) = fun _ => 0 :=
    funext fun a => by fin_cases a <;> decide
  exact Memref.read_access_unit_zero (Elt Ideal) main_v46 hz' (fun a => by rw [congrFun hz' a]; simp) _

/-! ## The write-back and the result array -/

/-- What the one grid point writes back is the three layers of the seven arrays as the region finds them, read
    through the result window's block — which is the whole 512 × 2 array. -/
theorem flushed3_eq (c : Dev nD) (t : Fin cfg3.N) :
    (dat3 (F := Ideal) V c).flushed 7 t = ((cfg3.win 7).blk t).view.read (Elt Ideal)
      (head (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6))) := by
  show (cfg3.win 7).cut (grid3.coords t) ((dat3 V c).after 7 t) = _
  rw [after3_7]
  unfold out3_7
  rw [View.canon_unit_zero hz]
  simp only [View.ld_unit_zero (S := S512x128) hz, View.ld_unit_zero (S := S128x256) hz, View.ld_unit_zero (S := S1x256) hz,
    View.ld_unit_zero (S := S256x128) hz, View.ld_unit_zero (S := S1x128) hz, View.ld_unit_zero (S := S128x2) hz,
    View.ld_unit_zero (S := S1x2) hz]
  rw [pay3_eq]
  simp only [iblk3_0 V c t, iblk3_1 V c t, iblk3_2 V c t, iblk3_3 V c t, iblk3_4 V c t, iblk3_5 V c t, iblk3_6 V c t]
  obtain rfl := fin_N3 t
  have hz' : (fun a => win3_7.index t3_0 a * main_v47.ty.shape.size a) = fun _ => 0 :=
    funext fun a => by fin_cases a <;> decide
  exact (Memref.read_access_unit_zero (Elt Ideal) main_v47 hz' (fun a => by rw [congrFun hz' a]; simp) _).symm

/-- The result array after the region: the one block covers it, so it ends holding the three layers of the seven arrays
    as the region finds them. -/
theorem final3 (c : Dev nD) : (dat3 (F := Ideal) V c).arrAt 7 cfg3.N
      = head (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) :=
  (dat3 V c).arrAt_eq_of_cover 7 (head (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)))
    (fun t _ => flushed3_eq V c t) fun i =>
    ⟨t3_0, flush3_7 t3_0, by
      show i ∈ ((View.whole main_v47).slice (win3_7.rect t3_0)).set
      rw [View.set_slice_whole, Rect.mem_set_unit]
      intro a
      have h0 : (i 0 : Nat) < 512 := (i 0).isLt
      have h1 : (i 1 : Nat) < 2 := (i 1).isLt
      match a with
      | ⟨0, _⟩ =>
        show win3_7.index t3_0 0 * win3_7.size 0 ≤ (i 0 : Nat)
          ∧ (i 0 : Nat) < win3_7.index t3_0 0 * win3_7.size 0 + win3_7.xsize (grid3.coords t3_0) 0
        rw [show win3_7.index t3_0 0 * win3_7.size 0 = 0 from by decide +kernel,
          show win3_7.xsize (grid3.coords t3_0) 0 = 512 from by decide +kernel]
        omega
      | ⟨1, _⟩ =>
        show win3_7.index t3_0 1 * win3_7.size 1 ≤ (i 1 : Nat)
          ∧ (i 1 : Nat) < win3_7.index t3_0 1 * win3_7.size 1 + win3_7.xsize (grid3.coords t3_0) 1
        rw [show win3_7.index t3_0 1 * win3_7.size 1 = 0 from by decide +kernel,
          show win3_7.xsize (grid3.coords t3_0) 1 = 2 from by decide +kernel]
        omega⟩

end Cert.KernelIdeal.HeadRegion

end
-- ==== Proof.KernelStages.lean ====
/-
  What the kernel program's buffers hold at each boundary between its stretches of host operations and its four
  pallas_calls, at the ideal instance, down to its result.

  The first stretch builds the edge lists with one self-loop per node, counts the out- and in-degrees and takes their
  reciprocal square roots. Region 0 projects the node features and scales row j by the factor of j's out-degree. The
  next stretch carries the rows along the edges (a gather at the wrapped source words, an accumulating scatter at the
  destination words). Region 1 scales the sums by the in-degree factors, adds the bias, rectifies, projects again and
  scales for the second hop; the carry repeats; region 2 finishes the second layer. A last scatter sums the node rows per
  graph, and region 3 is the three-layer head. Read through the folds, the result buffer holds `GraphLayers.netK` of the
  argument arrays: each boundary lemma below reads one buffer, either as the stretch's own operations of what the
  previous boundary held, or — for a buffer nothing in between writes — as what an earlier boundary held.
-/
import proofs.«178891_j7834020348011_2_alg».proof.Proof.KernelRun
import proofs.«178891_j7834020348011_2_alg».proof.Proof.EdgeOps
import proofs.«178891_j7834020348011_2_alg».proof.Proof.LibHostDense
import proofs.«178891_j7834020348011_2_alg».proof.Proof.RegionArrays
import proofs.«178891_j7834020348011_2_alg».proof.Proof.HeadArray
import Idealize.ShloMosaic.Lib.StableHlo.Run
import Idealize.ShloMosaic.Lib.ValueLayout

set_option maxRecDepth 16384

noncomputable section

namespace Cert.KernelIdeal.Stages

open Cert.KernelIdeal Cert.KernelIdeal.Gen Cert.GraphLayers Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-! ## Constants -/

/-- The scalar zero spread over any shape reads 0 everywhere. -/
theorem spread_zero_apply {S : Shape} (h : (⟨0, ![]⟩ : Shape).BroadcastsInDim S ![]) (i : S.Idx) :
    broadcastInDim S ![] h (constant (F := Ideal) ⟨0, ![]⟩ .f32 0x00000000#32) i = (0 : EReal) := by
  refine (broadcastInDim_apply (s := (⟨0, ![]⟩ : Shape)) (t := S) (![] : Fin 0 → Fin S.rank) h _ i ix0 (fun a => Fin.elim0 a)).trans ?_
  show Ideal.ofBits .f32 0x00000000#32 = 0
  exact Ideal.ofBits_zero_f32

/-- The scalar one spread over any shape reads 1 everywhere. -/
theorem spread_one_apply {S : Shape} (h : (⟨0, ![]⟩ : Shape).BroadcastsInDim S ![]) (i : S.Idx) :
    broadcastInDim S ![] h (constant (F := Ideal) ⟨0, ![]⟩ .f32 0x3F800000#32) i = (1 : EReal) := by
  refine (broadcastInDim_apply (s := (⟨0, ![]⟩ : Shape)) (t := S) (![] : Fin 0 → Fin S.rank) h _ i ix0 (fun a => Fin.elim0 a)).trans ?_
  show Ideal.ofBits .f32 0x3F800000#32 = 1
  exact EdgeOps.ofBits_one

/-! ## The index words and the degrees -/

/-- The source words: the edge list's sources followed by the node numbers (one self-loop per node). -/
def Sw (c : Dev nD) : Fin 1700000 → BitVec 32 :=
  EdgeOps.joinedWords (m ((c : Thread nD τ).loc main_arg1)) Gen.concatenates_S1600000_S100000_S1700000_d0

/-- The destination words, likewise. -/
def Dw (c : Dev nD) : Fin 1700000 → BitVec 32 :=
  EdgeOps.joinedWords (m ((c : Thread nD τ).loc main_arg2)) Gen.concatenates_S1600000_S100000_S1700000_d0

/-- The graph word of each node. -/
def Gw (c : Dev nD) : Fin 100000 → BitVec 32 := fun n => m ((c : Thread nD τ).loc main_arg3) (ix1 n)

/-- The out-degree vector as the program computes it: ones added into zeros at the source words. -/
def odeg (c : Dev nD) : FVec Ideal S100000 .f32 :=
  Host.scatterAdd scatter_S100000_S1700000x1_S1700000_n_0_0_1
    (broadcastInDim S100000 ![] Gen.bcast_S_S100000 (constant S_ .f32 0x00000000#32))
    (broadcastInDim S1700000x1 ![0] Gen.bcast_S1700000_S1700000x1_0
      (concatenate S1700000 0 [⟨S1600000, m ((c : Thread nD τ).loc main_arg1)⟩, ⟨S100000, iotaInDim S100000 32 0⟩]
        Gen.concatenates_S1600000_S100000_S1700000_d0))
    (broadcastInDim S1700000 ![] Gen.bcast_S_S1700000 (constant S_ .f32 0x3F800000#32))

/-- The in-degree vector, likewise at the destination words. -/
def ideg (c : Dev nD) : FVec Ideal S100000 .f32 :=
  Host.scatterAdd scatter_S100000_S1700000x1_S1700000_n_0_0_1
    (broadcastInDim S100000 ![] Gen.bcast_S_S100000 (constant S_ .f32 0x00000000#32))
    (broadcastInDim S1700000x1 ![0] Gen.bcast_S1700000_S1700000x1_0
      (concatenate S1700000 0 [⟨S1600000, m ((c : Thread nD τ).loc main_arg2)⟩, ⟨S100000, iotaInDim S100000 32 0⟩]
        Gen.concatenates_S1600000_S100000_S1700000_d0))
    (broadcastInDim S1700000 ![] Gen.bcast_S_S1700000 (constant S_ .f32 0x3F800000#32))

theorem odeg_apply (c : Dev nD) (n : Fin 100000) : odeg m c (ix1 n) = deg (Sw m c) n :=
  EdgeOps.scatter_ones_eq_deg scatter_S100000_S1700000x1_S1700000_n_0_0_1.wf _ rfl _ (spread_zero_apply _) _ (spread_one_apply _) _ _
    (fun e => JoinIota.broadcast_vec_column_apply Gen.bcast_S1700000_S1700000x1_0 _ e) n

theorem ideg_apply (c : Dev nD) (n : Fin 100000) : ideg m c (ix1 n) = deg (Dw m c) n :=
  EdgeOps.scatter_ones_eq_deg scatter_S100000_S1700000x1_S1700000_n_0_0_1.wf _ rfl _ (spread_zero_apply _) _ (spread_one_apply _) _ _
    (fun e => JoinIota.broadcast_vec_column_apply Gen.bcast_S1700000_S1700000x1_0 _ e) n

/-! ## Boundary 1: after the first stretch of host operations -/

theorem at1_v1 (c : Dev nD) : (W1 m ρ c (Proc.devRef .tc main_v1) : S1700000.Idx → BitVec 32)
    = concatenate S1700000 0 [⟨S1600000, m ((c : Thread nD τ).loc main_arg1)⟩, ⟨S100000, iotaInDim S100000 32 0⟩] Gen.concatenates_S1600000_S100000_S1700000_d0 := by
  show StableHlo.after hostOps0 (W0 m ρ c) (Proc.devRef .tc main_v1) = _
  after_results

theorem at1_v2 (c : Dev nD) : (W1 m ρ c (Proc.devRef .tc main_v2) : S1700000.Idx → BitVec 32)
    = concatenate S1700000 0 [⟨S1600000, m ((c : Thread nD τ).loc main_arg2)⟩, ⟨S100000, iotaInDim S100000 32 0⟩] Gen.concatenates_S1600000_S100000_S1700000_d0 := by
  show StableHlo.after hostOps0 (W0 m ρ c) (Proc.devRef .tc main_v2) = _
  after_results

theorem at1_v10 (c : Dev nD) : (W1 m ρ c (Proc.devRef .tc main_v10) : S100000.Idx → EReal) = Host.rsqrt (odeg m c) := by
  show StableHlo.after hostOps0 (W0 m ρ c) (Proc.devRef .tc main_v10) = _
  after_results
  rfl

theorem at1_v11 (c : Dev nD) : (W1 m ρ c (Proc.devRef .tc main_v11) : S100000.Idx → EReal) = Host.rsqrt (ideg m c) := by
  show StableHlo.after hostOps0 (W0 m ρ c) (Proc.devRef .tc main_v11) = _
  after_results
  rfl

theorem at1_v12 (c : Dev nD) : (W1 m ρ c (Proc.devRef .tc main_v12) : S100000x1.Idx → EReal) = rsqrtDeg (Sw m c) := by
  have h : (W1 m ρ c (Proc.devRef .tc main_v12) : S100000x1.Idx → EReal)
      = shapeCast S100000x1 (Host.rsqrt (odeg m c)) Gen.shapeCasts_S100000_S100000x1 := by
    show StableHlo.after hostOps0 (W0 m ρ c) (Proc.devRef .tc main_v12) = _
    after_results
    rfl
  rw [h]
  exact EdgeOps.rsqrt_column_eq _ _ (odeg_apply m c) _

/-! ## Buffers that nothing later writes keep their contents across boundaries -/

theorem keep1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := (StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = m ((c : Thread nD τ).loc main_arg0) := rfl

theorem keep1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := (StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = m ((c : Thread nD τ).loc main_arg4) := rfl

theorem keep2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := (W2_of_ne m ρ c main_arg5 (by decide))
    _ = W0 m ρ c (Proc.devRef .tc main_arg5) := (StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = m ((c : Thread nD τ).loc main_arg5) := rfl

theorem keep3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := (StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 m ρ c (Proc.devRef .tc main_arg6) := (W2_of_ne m ρ c main_arg6 (by decide))
    _ = W0 m ρ c (Proc.devRef .tc main_arg6) := (StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = m ((c : Thread nD τ).loc main_arg6) := rfl

theorem keep4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_of_ne m ρ c main_arg7 (by decide))
    _ = W2 m ρ c (Proc.devRef .tc main_arg7) := (StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 m ρ c (Proc.devRef .tc main_arg7) := (W2_of_ne m ρ c main_arg7 (by decide))
    _ = W0 m ρ c (Proc.devRef .tc main_arg7) := (StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = m ((c : Thread nD τ).loc main_arg7) := rfl

theorem keep2_main_v1 (c : Dev nD) : W2 m ρ c (Proc.devRef .tc main_v1) = W1 m ρ c (Proc.devRef .tc main_v1) :=
  calc W2 m ρ c (Proc.devRef .tc main_v1)
    _ = W1 m ρ c (Proc.devRef .tc main_v1) := (W2_of_ne m ρ c main_v1 (by decide))

theorem keep2_main_v2 (c : Dev nD) : W2 m ρ c (Proc.devRef .tc main_v2) = W1 m ρ c (Proc.devRef .tc main_v2) :=
  calc W2 m ρ c (Proc.devRef .tc main_v2)
    _ = W1 m ρ c (Proc.devRef .tc main_v2) := (W2_of_ne m ρ c main_v2 (by decide))

theorem keep2_main_v10 (c : Dev nD) : W2 m ρ c (Proc.devRef .tc main_v10) = W1 m ρ c (Proc.devRef .tc main_v10) :=
  calc W2 m ρ c (Proc.devRef .tc main_v10)
    _ = W1 m ρ c (Proc.devRef .tc main_v10) := (W2_of_ne m ρ c main_v10 (by decide))

theorem keep2_main_v11 (c : Dev nD) : W2 m ρ c (Proc.devRef .tc main_v11) = W1 m ρ c (Proc.devRef .tc main_v11) :=
  calc W2 m ρ c (Proc.devRef .tc main_v11)
    _ = W1 m ρ c (Proc.devRef .tc main_v11) := (W2_of_ne m ρ c main_v11 (by decide))

theorem keep4_main_v1 (c : Dev nD) : W4 m ρ c (Proc.devRef .tc main_v1) = W1 m ρ c (Proc.devRef .tc main_v1) :=
  calc W4 m ρ c (Proc.devRef .tc main_v1)
    _ = W3 m ρ c (Proc.devRef .tc main_v1) := (W4_of_ne m ρ c main_v1 (by decide))
    _ = W2 m ρ c (Proc.devRef .tc main_v1) := (StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 m ρ c (Proc.devRef .tc main_v1) := (W2_of_ne m ρ c main_v1 (by decide))

theorem keep4_main_v2 (c : Dev nD) : W4 m ρ c (Proc.devRef .tc main_v2) = W1 m ρ c (Proc.devRef .tc main_v2) :=
  calc W4 m ρ c (Proc.devRef .tc main_v2)
    _ = W3 m ρ c (Proc.devRef .tc main_v2) := (W4_of_ne m ρ c main_v2 (by decide))
    _ = W2 m ρ c (Proc.devRef .tc main_v2) := (StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 m ρ c (Proc.devRef .tc main_v2) := (W2_of_ne m ρ c main_v2 (by decide))

theorem keep4_main_v11 (c : Dev nD) : W4 m ρ c (Proc.devRef .tc main_v11) = W1 m ρ c (Proc.devRef .tc main_v11) :=
  calc W4 m ρ c (Proc.devRef .tc main_v11)
    _ = W3 m ρ c (Proc.devRef .tc main_v11) := (W4_of_ne m ρ c main_v11 (by decide))
    _ = W2 m ρ c (Proc.devRef .tc main_v11) := (StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 m ρ c (Proc.devRef .tc main_v11) := (W2_of_ne m ρ c main_v11 (by decide))

/-! ## Region 0 leaves the projected features scaled by the source factors -/

theorem at2_v13 (c : Dev nD) : (W2 m ρ c (Proc.devRef .tc main_v13) : S100000x128.Idx → EReal)
    = scaleMat (m ((c : Thread nD τ).loc main_arg0)) (m ((c : Thread nD τ).loc main_arg4)) (rsqrtDeg (Sw m c)) := by
  refine ((W2_arr m ρ c 3).trans (Regions.final0 (V1 m ρ) c)).trans ?_
  show scaleMat (W1 m ρ c (Proc.devRef .tc main_arg0)) (W1 m ρ c (Proc.devRef .tc main_arg4)) (W1 m ρ c (Proc.devRef .tc main_v12)) = _
  rw [keep1_main_arg0 m ρ c, keep1_main_arg4 m ρ c, at1_v12 m ρ c]

/-! ## Boundary 3: the first edge hop, and region 1's other operands -/

theorem at3_v23 (c : Dev nD) : (W3 m ρ c (Proc.devRef .tc main_v23) : S100000x128.Idx → EReal)
    = hop (N := 100000) (E := 1700000) (by decide) 100000#32 (Sw m c) (Dw m c) (W2 m ρ c (Proc.devRef .tc main_v13)) := by
  show StableHlo.after hostOps1 (W2 m ρ c) (Proc.devRef .tc main_v23) = _
  after_results
  rw [keep2_main_v1 m ρ c, at1_v1 m ρ c, keep2_main_v2 m ρ c, at1_v2 m ρ c]
  exact EdgeOps.scatter_gather_eq_hop (N := 100000) (E := 1700000) (C := 128) (by decide) 100000#32
    scatter_S100000x128_S1700000x1_S1700000x128_1_0_0_1.wf gather_S100000x128_S1700000x1_S1700000x128_1_0_n_n_0_1_1128.wf
    _ rfl _ rfl _ (spread_zero_apply _) _ _ (Sw m c) (Dw m c)
    (fun e => EdgeOps.wrap_column_apply 100000#32 Gen.bcast_S_S1700000 Gen.bcast_S1700000_S1700000x1_0 _ e)
    (fun e => JoinIota.broadcast_vec_column_apply Gen.bcast_S1700000_S1700000x1_0 _ e) _

theorem at3_v24 (c : Dev nD) : (W3 m ρ c (Proc.devRef .tc main_v24) : S100000x1.Idx → EReal) = rsqrtDeg (Dw m c) := by
  have h : (W3 m ρ c (Proc.devRef .tc main_v24) : S100000x1.Idx → EReal)
      = shapeCast S100000x1 (W2 m ρ c (Proc.devRef .tc main_v11) : S100000.Idx → EReal) Gen.shapeCasts_S100000_S100000x1 := by
    show StableHlo.after hostOps1 (W2 m ρ c) (Proc.devRef .tc main_v24) = _
    after_results
    rfl
  rw [h, keep2_main_v11 m ρ c, at1_v11 m ρ c]
  exact EdgeOps.rsqrt_column_eq _ _ (ideg_apply m c) _

theorem at3_v25 (c : Dev nD) : (W3 m ρ c (Proc.devRef .tc main_v25) : S100000x1.Idx → EReal) = rsqrtDeg (Sw m c) := by
  have h : (W3 m ρ c (Proc.devRef .tc main_v25) : S100000x1.Idx → EReal)
      = shapeCast S100000x1 (W2 m ρ c (Proc.devRef .tc main_v10) : S100000.Idx → EReal) Gen.shapeCasts_S100000_S100000x1 := by
    show StableHlo.after hostOps1 (W2 m ρ c) (Proc.devRef .tc main_v25) = _
    after_results
    rfl
  rw [h, keep2_main_v10 m ρ c, at1_v10 m ρ c]
  exact EdgeOps.rsqrt_column_eq _ _ (odeg_apply m c) _

/-- A vector of M entries recast as a 1 × M row is the row of the vector. -/
theorem recast_row_eq {M : ℕ} (b : FVec Ideal ⟨1, ![M]⟩ .f32) (h : (⟨1, ![M]⟩ : Shape).ShapeCasts ⟨2, ![1, M]⟩) :
    shapeCast ⟨2, ![1, M]⟩ b h = HostDense.row b := by
  funext j
  obtain ⟨z, q, rfl⟩ : ∃ (z : Fin 1) (q : Fin M), j = ix2 z q := ⟨j 0, j 1, eq_ix2 j⟩
  rw [shapeCast_a_1a_apply b h z q]
  rfl

theorem at3_v26 (c : Dev nD) : (W3 m ρ c (Proc.devRef .tc main_v26) : S1x128.Idx → EReal) = HostDense.row (m ((c : Thread nD τ).loc main_arg5)) := by
  have h : (W3 m ρ c (Proc.devRef .tc main_v26) : S1x128.Idx → EReal)
      = shapeCast S1x128 (W2 m ρ c (Proc.devRef .tc main_arg5) : S128.Idx → EReal) Gen.shapeCasts_S128_S1x128 := by
    show StableHlo.after hostOps1 (W2 m ρ c) (Proc.devRef .tc main_v26) = _
    after_results
    rfl
  rw [h, keep2_main_arg5 m ρ c]
  exact recast_row_eq _ _

theorem keep6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := (W6_of_ne m ρ c main_arg3 (by decide))
    _ = W4 m ρ c (Proc.devRef .tc main_arg3) := (StableHlo.after_of_forall_not_mem _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 m ρ c (Proc.devRef .tc main_arg3) := (W4_of_ne m ρ c main_arg3 (by decide))
    _ = W2 m ρ c (Proc.devRef .tc main_arg3) := (StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 m ρ c (Proc.devRef .tc main_arg3) := (W2_of_ne m ρ c main_arg3 (by decide))
    _ = W0 m ρ c (Proc.devRef .tc main_arg3) := (StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = m ((c : Thread nD τ).loc main_arg3) := rfl

theorem keep6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := (W6_of_ne m ρ c main_arg9 (by decide))
    _ = W4 m ρ c (Proc.devRef .tc main_arg9) := (StableHlo.after_of_forall_not_mem _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 m ρ c (Proc.devRef .tc main_arg9) := (W4_of_ne m ρ c main_arg9 (by decide))
    _ = W2 m ρ c (Proc.devRef .tc main_arg9) := (StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 m ρ c (Proc.devRef .tc main_arg9) := (W2_of_ne m ρ c main_arg9 (by decide))
    _ = W0 m ρ c (Proc.devRef .tc main_arg9) := (StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = m ((c : Thread nD τ).loc main_arg9) := rfl

theorem keep6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := (W6_of_ne m ρ c main_arg11 (by decide))
    _ = W4 m ρ c (Proc.devRef .tc main_arg11) := (StableHlo.after_of_forall_not_mem _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 m ρ c (Proc.devRef .tc main_arg11) := (W4_of_ne m ρ c main_arg11 (by decide))
    _ = W2 m ρ c (Proc.devRef .tc main_arg11) := (StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 m ρ c (Proc.devRef .tc main_arg11) := (W2_of_ne m ρ c main_arg11 (by decide))
    _ = W0 m ρ c (Proc.devRef .tc main_arg11) := (StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = m ((c : Thread nD τ).loc main_arg11) := rfl

theorem keep6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := (W6_of_ne m ρ c main_arg13 (by decide))
    _ = W4 m ρ c (Proc.devRef .tc main_arg13) := (StableHlo.after_of_forall_not_mem _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 m ρ c (Proc.devRef .tc main_arg13) := (W4_of_ne m ρ c main_arg13 (by decide))
    _ = W2 m ρ c (Proc.devRef .tc main_arg13) := (StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 m ρ c (Proc.devRef .tc main_arg13) := (W2_of_ne m ρ c main_arg13 (by decide))
    _ = W0 m ρ c (Proc.devRef .tc main_arg13) := (StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = m ((c : Thread nD τ).loc main_arg13) := rfl

theorem keep7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := (StableHlo.after_of_forall_not_mem _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W5 m ρ c (Proc.devRef .tc main_arg8) := (W6_of_ne m ρ c main_arg8 (by decide))
    _ = W4 m ρ c (Proc.devRef .tc main_arg8) := (StableHlo.after_of_forall_not_mem _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 m ρ c (Proc.devRef .tc main_arg8) := (W4_of_ne m ρ c main_arg8 (by decide))
    _ = W2 m ρ c (Proc.devRef .tc main_arg8) := (StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 m ρ c (Proc.devRef .tc main_arg8) := (W2_of_ne m ρ c main_arg8 (by decide))
    _ = W0 m ρ c (Proc.devRef .tc main_arg8) := (StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = m ((c : Thread nD τ).loc main_arg8) := rfl

theorem keep7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := (StableHlo.after_of_forall_not_mem _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W5 m ρ c (Proc.devRef .tc main_arg10) := (W6_of_ne m ρ c main_arg10 (by decide))
    _ = W4 m ρ c (Proc.devRef .tc main_arg10) := (StableHlo.after_of_forall_not_mem _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 m ρ c (Proc.devRef .tc main_arg10) := (W4_of_ne m ρ c main_arg10 (by decide))
    _ = W2 m ρ c (Proc.devRef .tc main_arg10) := (StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 m ρ c (Proc.devRef .tc main_arg10) := (W2_of_ne m ρ c main_arg10 (by decide))
    _ = W0 m ρ c (Proc.devRef .tc main_arg10) := (StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = m ((c : Thread nD τ).loc main_arg10) := rfl

theorem keep7_main_arg12 (c : Dev nD) : W7 m ρ c (Proc.devRef .tc main_arg12) = m ((c : Thread nD τ).loc main_arg12) :=
  calc W7 m ρ c (Proc.devRef .tc main_arg12)
    _ = W6 m ρ c (Proc.devRef .tc main_arg12) := (StableHlo.after_of_forall_not_mem _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W5 m ρ c (Proc.devRef .tc main_arg12) := (W6_of_ne m ρ c main_arg12 (by decide))
    _ = W4 m ρ c (Proc.devRef .tc main_arg12) := (StableHlo.after_of_forall_not_mem _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W3 m ρ c (Proc.devRef .tc main_arg12) := (W4_of_ne m ρ c main_arg12 (by decide))
    _ = W2 m ρ c (Proc.devRef .tc main_arg12) := (StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = W1 m ρ c (Proc.devRef .tc main_arg12) := (W2_of_ne m ρ c main_arg12 (by decide))
    _ = W0 m ρ c (Proc.devRef .tc main_arg12) := (StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide))))
    _ = m ((c : Thread nD τ).loc main_arg12) := rfl

/-! ## Region 1 leaves the first layer's output, projected and scaled for the second hop -/

theorem at4_v27 (c : Dev nD) : (W4 m ρ c (Proc.devRef .tc main_v27) : S100000x128.Idx → EReal)
    = scaleMat (layerK (N := 100000) (E := 1700000) (by decide) 100000#32 (Sw m c) (Dw m c)
          (m ((c : Thread nD τ).loc main_arg0)) (m ((c : Thread nD τ).loc main_arg4)) (rsqrtDeg (Sw m c)) (rsqrtDeg (Dw m c))
          (HostDense.row (m ((c : Thread nD τ).loc main_arg5))))
        (m ((c : Thread nD τ).loc main_arg6)) (rsqrtDeg (Sw m c)) := by
  refine ((W4_arr m ρ c 5).trans (Regions.final1 (V3 m ρ) c)).trans ?_
  show scaleMat (act (W3 m ρ c (Proc.devRef .tc main_v23)) (W3 m ρ c (Proc.devRef .tc main_v24)) (W3 m ρ c (Proc.devRef .tc main_v26)))
      (W3 m ρ c (Proc.devRef .tc main_arg6)) (W3 m ρ c (Proc.devRef .tc main_v25)) = _
  rw [at3_v23 m ρ c, at3_v24 m ρ c, at3_v26 m ρ c, keep3_main_arg6 m ρ c, at3_v25 m ρ c, at2_v13 m ρ c]
  rfl

/-! ## Boundary 5: the second edge hop, and region 2's other operands -/

theorem at5_v37 (c : Dev nD) : (W5 m ρ c (Proc.devRef .tc main_v37) : S100000x128.Idx → EReal)
    = hop (N := 100000) (E := 1700000) (by decide) 100000#32 (Sw m c) (Dw m c) (W4 m ρ c (Proc.devRef .tc main_v27)) := by
  show StableHlo.after hostOps2 (W4 m ρ c) (Proc.devRef .tc main_v37) = _
  after_results
  rw [keep4_main_v1 m ρ c, at1_v1 m ρ c, keep4_main_v2 m ρ c, at1_v2 m ρ c]
  exact EdgeOps.scatter_gather_eq_hop (N := 100000) (E := 1700000) (C := 128) (by decide) 100000#32
    scatter_S100000x128_S1700000x1_S1700000x128_1_0_0_1.wf gather_S100000x128_S1700000x1_S1700000x128_1_0_n_n_0_1_1128.wf
    _ rfl _ rfl _ (spread_zero_apply _) _ _ (Sw m c) (Dw m c)
    (fun e => EdgeOps.wrap_column_apply 100000#32 Gen.bcast_S_S1700000 Gen.bcast_S1700000_S1700000x1_0 _ e)
    (fun e => JoinIota.broadcast_vec_column_apply Gen.bcast_S1700000_S1700000x1_0 _ e) _

theorem at5_v38 (c : Dev nD) : (W5 m ρ c (Proc.devRef .tc main_v38) : S100000x1.Idx → EReal) = rsqrtDeg (Dw m c) := by
  have h : (W5 m ρ c (Proc.devRef .tc main_v38) : S100000x1.Idx → EReal)
      = shapeCast S100000x1 (W4 m ρ c (Proc.devRef .tc main_v11) : S100000.Idx → EReal) Gen.shapeCasts_S100000_S100000x1 := by
    show StableHlo.after hostOps2 (W4 m ρ c) (Proc.devRef .tc main_v38) = _
    after_results
    rfl
  rw [h, keep4_main_v11 m ρ c, at1_v11 m ρ c]
  exact EdgeOps.rsqrt_column_eq _ _ (ideg_apply m c) _

theorem at5_v39 (c : Dev nD) : (W5 m ρ c (Proc.devRef .tc main_v39) : S1x128.Idx → EReal) = HostDense.row (m ((c : Thread nD τ).loc main_arg7)) := by
  have h : (W5 m ρ c (Proc.devRef .tc main_v39) : S1x128.Idx → EReal)
      = shapeCast S1x128 (W4 m ρ c (Proc.devRef .tc main_arg7) : S128.Idx → EReal) Gen.shapeCasts_S128_S1x128 := by
    show StableHlo.after hostOps2 (W4 m ρ c) (Proc.devRef .tc main_v39) = _
    after_results
    rfl
  rw [h, keep4_main_arg7 m ρ c]
  exact recast_row_eq _ _

/-! ## Region 2 leaves the second layer's output -/

theorem at6_v40 (c : Dev nD) : (W6 m ρ c (Proc.devRef .tc main_v40) : S100000x128.Idx → EReal)
    = layerK (N := 100000) (E := 1700000) (by decide) 100000#32 (Sw m c) (Dw m c)
        (layerK (N := 100000) (E := 1700000) (by decide) 100000#32 (Sw m c) (Dw m c)
          (m ((c : Thread nD τ).loc main_arg0)) (m ((c : Thread nD τ).loc main_arg4)) (rsqrtDeg (Sw m c)) (rsqrtDeg (Dw m c))
          (HostDense.row (m ((c : Thread nD τ).loc main_arg5))))
        (m ((c : Thread nD τ).loc main_arg6)) (rsqrtDeg (Sw m c)) (rsqrtDeg (Dw m c))
        (HostDense.row (m ((c : Thread nD τ).loc main_arg7))) := by
  refine ((W6_arr m ρ c 3).trans (Regions.final2 (V5 m ρ) c)).trans ?_
  show act (W5 m ρ c (Proc.devRef .tc main_v37)) (W5 m ρ c (Proc.devRef .tc main_v38)) (W5 m ρ c (Proc.devRef .tc main_v39)) = _
  rw [at5_v37 m ρ c, at5_v38 m ρ c, at5_v39 m ρ c, at4_v27 m ρ c]
  rfl

/-! ## Boundary 7: the per-graph readout, and the head's other operands -/

theorem at7_v43 (c : Dev nD) : (W7 m ρ c (Proc.devRef .tc main_v43) : S512x128.Idx → EReal)
    = readout (N := 100000) (P := 512) (Gw m c) (W6 m ρ c (Proc.devRef .tc main_v40)) := by
  show StableHlo.after hostOps3 (W6 m ρ c) (Proc.devRef .tc main_v43) = _
  after_results
  rw [keep6_main_arg3 m ρ c]
  exact EdgeOps.scatter_eq_readout (N := 100000) (C := 128) (P := 512) scatter_S512x128_S100000x1_S100000x128_1_0_0_1.wf
    _ rfl _ (spread_zero_apply _) _ (Gw m c) (fun n => JoinIota.broadcast_vec_column_apply Gen.bcast_S100000_S100000x1_0 _ n) _

theorem at7_v44 (c : Dev nD) : (W7 m ρ c (Proc.devRef .tc main_v44) : S1x256.Idx → EReal) = HostDense.row (m ((c : Thread nD τ).loc main_arg9)) := by
  have h : (W7 m ρ c (Proc.devRef .tc main_v44) : S1x256.Idx → EReal)
      = shapeCast S1x256 (W6 m ρ c (Proc.devRef .tc main_arg9) : S256.Idx → EReal) Gen.shapeCasts_S256_S1x256 := by
    show StableHlo.after hostOps3 (W6 m ρ c) (Proc.devRef .tc main_v44) = _
    after_results
    rfl
  rw [h, keep6_main_arg9 m ρ c]
  exact recast_row_eq _ _

theorem at7_v45 (c : Dev nD) : (W7 m ρ c (Proc.devRef .tc main_v45) : S1x128.Idx → EReal) = HostDense.row (m ((c : Thread nD τ).loc main_arg11)) := by
  have h : (W7 m ρ c (Proc.devRef .tc main_v45) : S1x128.Idx → EReal)
      = shapeCast S1x128 (W6 m ρ c (Proc.devRef .tc main_arg11) : S128.Idx → EReal) Gen.shapeCasts_S128_S1x128 := by
    show StableHlo.after hostOps3 (W6 m ρ c) (Proc.devRef .tc main_v45) = _
    after_results
    rfl
  rw [h, keep6_main_arg11 m ρ c]
  exact recast_row_eq _ _

theorem at7_v46 (c : Dev nD) : (W7 m ρ c (Proc.devRef .tc main_v46) : S1x2.Idx → EReal) = HostDense.row (m ((c : Thread nD τ).loc main_arg13)) := by
  have h : (W7 m ρ c (Proc.devRef .tc main_v46) : S1x2.Idx → EReal)
      = shapeCast S1x2 (W6 m ρ c (Proc.devRef .tc main_arg13) : S2.Idx → EReal) Gen.shapeCasts_S2_S1x2 := by
    show StableHlo.after hostOps3 (W6 m ρ c) (Proc.devRef .tc main_v46) = _
    after_results
    rfl
  rw [h, keep6_main_arg13 m ρ c]
  exact recast_row_eq _ _

/-! ## The result -/

/-- The kernel program's result buffer at the last boundary is the network with node-wise factors, of the arguments. -/
theorem result_eq (c : Dev nD) : (W8 m ρ c (Proc.devRef .tc main_v47) : S512x2.Idx → EReal)
    = netK (N := 100000) (E := 1700000) (P := 512) (by decide) 100000#32 (Sw m c) (Dw m c) (Gw m c)
        (m ((c : Thread nD τ).loc main_arg0)) (m ((c : Thread nD τ).loc main_arg4)) (HostDense.row (m ((c : Thread nD τ).loc main_arg5)))
        (m ((c : Thread nD τ).loc main_arg6)) (HostDense.row (m ((c : Thread nD τ).loc main_arg7)))
        (m ((c : Thread nD τ).loc main_arg8)) (HostDense.row (m ((c : Thread nD τ).loc main_arg9)))
        (m ((c : Thread nD τ).loc main_arg10)) (HostDense.row (m ((c : Thread nD τ).loc main_arg11)))
        (m ((c : Thread nD τ).loc main_arg12)) (HostDense.row (m ((c : Thread nD τ).loc main_arg13))) := by
  refine ((W8_arr m ρ c 7).trans (HeadRegion.final3 (V7 m ρ) c)).trans ?_
  show head (W7 m ρ c (Proc.devRef .tc main_v43)) (W7 m ρ c (Proc.devRef .tc main_arg8)) (W7 m ρ c (Proc.devRef .tc main_v44)) (W7 m ρ c (Proc.devRef .tc main_arg10))
      (W7 m ρ c (Proc.devRef .tc main_v45)) (W7 m ρ c (Proc.devRef .tc main_arg12)) (W7 m ρ c (Proc.devRef .tc main_v46)) = _
  rw [at7_v43 m ρ c, keep7_main_arg8 m ρ c, at7_v44 m ρ c, keep7_main_arg10 m ρ c, at7_v45 m ρ c, keep7_main_arg12 m ρ c,
    at7_v46 m ρ c, at6_v40 m ρ c]
  rfl

end Cert.KernelIdeal.Stages

end
-- ==== Proof.RefValue.lean ====
/-
  The reference's result, read on the extended reals, is the graph network of its arguments in the arrangement
  that weights every carried row by its edge's whole normaliser.

  The program joins the source words and the destination words each with the positions 0, 1, …, N − 1 (one
  self-loop per node); counts, by adding ones into zeros, how often each node is named as a source and as a
  destination; takes the reciprocal square roots of the two counts at each edge's wrapped source and destination
  and multiplies them (the edge's weight); twice projects the node rows, gathers them at the wrapped sources,
  weights them, adds them into zeros at the destinations, adds a bias row and rectifies; adds the node rows into
  zeros at the graph words; and applies three dense layers, the first two rectified.
-/
import proofs.«178891_j7834020348011_2_alg».proof.Proof.Gen.ReferenceIdeal.Read
import proofs.«178891_j7834020348011_2_alg».proof.Proof.GraphLayers
import proofs.«178891_j7834020348011_2_alg».proof.Proof.EdgeOps
import proofs.«178891_j7834020348011_2_alg».proof.Proof.LibHostDense

noncomputable section

open scoped BigOperators

namespace Cert.ReferenceIdeal.RefValue

open Cert.ReferenceIdeal Cert.ReferenceIdeal.Gen Cert.ReferenceIdeal.Read Cert.GraphLayers Idealize.ShloMosaic Idealize.ShloMosaic.ValueIdx

/-! ## Constants -/

/-- The word of 1.0 denotes the real number 1. -/
theorem ofBits_one : Ideal.ofBits .f32 0x3F800000#32 = 1 := EdgeOps.ofBits_one

/-! ## The joined index words, as columns -/

/-- The joined source words spread as a column, read at (e, 0). -/
theorem src_column (x1 : (⟨S1600000, .i32⟩ : BufTy).Contents (Elt Ideal)) (e : Fin 1700000) :
    val_main_v5 (F := Ideal) x1 (ix2 e (0 : Fin 1))
      = EdgeOps.joinedWords x1 concatenates_S1600000_S100000_S1700000_d0 e := by
  unfold val_main_v5
  rw [JoinIota.broadcast_vec_column_apply bcast_S1700000_S1700000x1_0 _ e]
  rfl

/-! ## The two degree vectors -/

/-- Ones added into zeros at the joined source words: the out-degrees. -/
theorem out_degree (x1 : (⟨S1600000, .i32⟩ : BufTy).Contents (Elt Ideal)) (n : Fin 100000) :
    val_main_v6 (F := Ideal) x1 (ix1 n)
      = deg (EdgeOps.joinedWords x1 concatenates_S1600000_S100000_S1700000_d0) n := by
  unfold val_main_v6
  refine EdgeOps.scatter_ones_eq_deg (N := 100000) (E := 1700000)
    scatter_S100000_S1700000x1_S1700000_n_0_0_1.wf _ rfl _ (fun i => ?_) _ (fun i => ?_) _ _ (src_column x1) n
  · rw [val_main_v4_apply, val_main_cst_0_apply]
    exact Ideal.ofBits_zero_f32
  · rw [val_main_v3_apply, val_main_cst_apply]
    exact ofBits_one

/-- The joined destination words spread as a column, read at (e, 0). -/
theorem dst_column (x2 : (⟨S1600000, .i32⟩ : BufTy).Contents (Elt Ideal)) (e : Fin 1700000) :
    val_main_v8 (F := Ideal) x2 (ix2 e (0 : Fin 1))
      = EdgeOps.joinedWords x2 concatenates_S1600000_S100000_S1700000_d0 e := by
  unfold val_main_v8
  rw [JoinIota.broadcast_vec_column_apply bcast_S1700000_S1700000x1_0 _ e]
  rfl

/-- Ones added into zeros at the joined destination words: the in-degrees. -/
theorem in_degree (x2 : (⟨S1600000, .i32⟩ : BufTy).Contents (Elt Ideal)) (n : Fin 100000) :
    val_main_v9 (F := Ideal) x2 (ix1 n)
      = deg (EdgeOps.joinedWords x2 concatenates_S1600000_S100000_S1700000_d0) n := by
  unfold val_main_v9
  refine EdgeOps.scatter_ones_eq_deg (N := 100000) (E := 1700000)
    scatter_S100000_S1700000x1_S1700000_n_0_0_1.wf _ rfl _ (fun i => ?_) _ (fun i => ?_) _ _ (dst_column x2) n
  · rw [val_main_v7_apply, val_main_cst_1_apply]
    exact Ideal.ofBits_zero_f32
  · rw [val_main_v3_apply, val_main_cst_apply]
    exact ofBits_one

/-! ## The wrapped columns and the edge weights -/

/-- The wrapped joined source words as a column, read at (e, 0): word e, plus the word of N when negative. -/
theorem src_wrapped_column (x1 : (⟨S1600000, .i32⟩ : BufTy).Contents (Elt Ideal)) (e : Fin 1700000) :
    val_main_v15 (F := Ideal) x1 (ix2 e (0 : Fin 1))
      = if (EdgeOps.joinedWords x1 concatenates_S1600000_S100000_S1700000_d0 e).slt 0#32
        then EdgeOps.joinedWords x1 concatenates_S1600000_S100000_S1700000_d0 e + 100000#32
        else EdgeOps.joinedWords x1 concatenates_S1600000_S100000_S1700000_d0 e :=
  EdgeOps.wrap_column_apply (E := 1700000) 100000#32 bcast_S_S1700000 bcast_S1700000_S1700000x1_0
    (val_main_v1 (F := Ideal) x1) e

/-- The wrapped joined destination words as a column, read at (e, 0). -/
theorem dst_wrapped_column (x2 : (⟨S1600000, .i32⟩ : BufTy).Contents (Elt Ideal)) (e : Fin 1700000) :
    val_main_v23 (F := Ideal) x2 (ix2 e (0 : Fin 1))
      = if (EdgeOps.joinedWords x2 concatenates_S1600000_S100000_S1700000_d0 e).slt 0#32
        then EdgeOps.joinedWords x2 concatenates_S1600000_S100000_S1700000_d0 e + 100000#32
        else EdgeOps.joinedWords x2 concatenates_S1600000_S100000_S1700000_d0 e :=
  EdgeOps.wrap_column_apply (E := 1700000) 100000#32 bcast_S_S1700000 bcast_S1700000_S1700000x1_0
    (val_main_v2 (F := Ideal) x2) e

/-- The product of the two reciprocal square roots gathered per edge: the edge's weight. -/
theorem edge_weight (x1 x2 : (⟨S1600000, .i32⟩ : BufTy).Contents (Elt Ideal)) (e : Fin 1700000) :
    val_main_v26 (F := Ideal) x1 x2 (ix1 e)
      = edgeNorm (N := 100000) (E := 1700000) (by decide) 100000#32
          (EdgeOps.joinedWords x1 concatenates_S1600000_S100000_S1700000_d0)
          (EdgeOps.joinedWords x2 concatenates_S1600000_S100000_S1700000_d0) e := by
  unfold val_main_v26 val_main_v17 val_main_v25 val_main_v16 val_main_v24
  exact EdgeOps.edge_weights_eq (N := 100000) (E := 1700000) (by decide) 100000#32
    gather_S100000_S1700000x1_S1700000_n_0_n_n_0_1_1.wf _ rfl _ _ _ _ _ _
    (out_degree x1) (in_degree x2) (src_wrapped_column x1) (dst_wrapped_column x2) e

/-! ## One layer, for any input matrix -/

/-- The host's product of an N × 128 matrix with a 128 × 128 matrix is the matrix product. -/
theorem dot_eq (h : FVec Ideal S100000x128 .f32) (w : FVec Ideal S128x128 .f32) :
    Host.dotGeneral (F := Ideal) dot_S100000x128_S128x128_S100000x128_1_0_0_1_n_n none h w = dot h w := by
  funext i
  obtain ⟨p, q, rfl⟩ : ∃ (p : Fin 100000) (q : Fin 128), i = ix2 p q := ⟨i 0, i 1, eq_ix2 i⟩
  rw [dot_apply]
  simp only [Host.dotGeneral]
  exact PlainDot.dotGeneral_apply dot_S100000x128_S128x128_S100000x128_1_0_0_1_n_n rfl rfl
    lhs_main_v27_0 lhs_main_v27_1 rhs_main_v27_0 rhs_main_v27_1 none _ h w p q

/-- The rows of y gathered at the wrapped source words, each multiplied by its edge's weight, added into zeros at the
    destination words: the weighted rows carried along the edges and summed at their destinations. -/
theorem carried_eq (x1 x2 : (⟨S1600000, .i32⟩ : BufTy).Contents (Elt Ideal))
    (y : FVec Ideal S100000x128 .f32) :
    Host.scatterAdd (F := Ideal) scatter_S100000x128_S1700000x1_S1700000x128_1_0_0_1 (val_main_v38 (F := Ideal))
        (val_main_v8 (F := Ideal) x2)
        (mulf (Host.gather gather_S100000x128_S1700000x1_S1700000x128_1_0_n_n_0_1_1128 y (val_main_v15 (F := Ideal) x1))
          (val_main_v36 (F := Ideal) x1 x2))
      = hopW (N := 100000) (E := 1700000) (by decide) 100000#32 (EdgeOps.joinedWords x1 concatenates_S1600000_S100000_S1700000_d0) (EdgeOps.joinedWords x2 concatenates_S1600000_S100000_S1700000_d0) y
          (edgeNorm (N := 100000) (E := 1700000) (by decide) 100000#32 (EdgeOps.joinedWords x1 concatenates_S1600000_S100000_S1700000_d0) (EdgeOps.joinedWords x2 concatenates_S1600000_S100000_S1700000_d0)) := by
  have hw : (fun e : Fin 1700000 => val_main_v26 (F := Ideal) x1 x2 (ix1 e))
      = edgeNorm (N := 100000) (E := 1700000) (by decide) 100000#32 (EdgeOps.joinedWords x1 concatenates_S1600000_S100000_S1700000_d0) (EdgeOps.joinedWords x2 concatenates_S1600000_S100000_S1700000_d0) := funext (edge_weight x1 x2)
  rw [← hw]
  unfold val_main_v36 val_main_v35
  refine EdgeOps.scatter_gather_mul_eq_hopW (N := 100000) (E := 1700000) (C := 128) (by decide) 100000#32
    scatter_S100000x128_S1700000x1_S1700000x128_1_0_0_1.wf gather_S100000x128_S1700000x1_S1700000x128_1_0_n_n_0_1_1128.wf
    _ rfl _ rfl _ (fun i => ?_) _ _ _ _ (src_wrapped_column x1) (dst_column x2)
    bcast_S1700000_S1700000x1_0 bcast_S1700000x1_S1700000x128_0_1 y (val_main_v26 (F := Ideal) x1 x2)
  rw [val_main_v38_apply, val_main_cst_7_apply]
  exact Ideal.ofBits_zero_f32

/-- The bias vector spread over the rows, read at (p, q): its entry q. -/
theorem bias_apply (b : FVec Ideal S128 .f32) (p : Fin 100000) (q : Fin 128) :
    val_main_v42 (F := Ideal) b (ix2 p q) = b (ix1 q) := by
  rw [val_main_v42_apply, val_main_v41_apply]
  refine congrArg b (funext fun a => Fin.ext ?_)
  match a with
  | ⟨0, _⟩ => rfl

/-- Project, gather at the wrapped sources, weight, add at the destinations, add the bias row, rectify: one layer. -/
theorem layer_eq (x1 x2 : (⟨S1600000, .i32⟩ : BufTy).Contents (Elt Ideal))
    (h : FVec Ideal S100000x128 .f32) (w : FVec Ideal S128x128 .f32)
    (b : FVec Ideal S128 .f32) :
    maximumf (F := Ideal)
        (addf
          (Host.scatterAdd scatter_S100000x128_S1700000x1_S1700000x128_1_0_0_1 (val_main_v38 (F := Ideal))
            (val_main_v8 (F := Ideal) x2)
            (mulf (Host.gather gather_S100000x128_S1700000x1_S1700000x128_1_0_n_n_0_1_1128
                (Host.dotGeneral dot_S100000x128_S128x128_S100000x128_1_0_0_1_n_n none h w) (val_main_v15 (F := Ideal) x1))
              (val_main_v36 (F := Ideal) x1 x2)))
          (val_main_v42 (F := Ideal) b))
        (val_main_call0_v0 (F := Ideal))
      = layerR (N := 100000) (E := 1700000) (by decide) 100000#32 (EdgeOps.joinedWords x1 concatenates_S1600000_S100000_S1700000_d0) (EdgeOps.joinedWords x2 concatenates_S1600000_S100000_S1700000_d0) h w
          (edgeNorm (N := 100000) (E := 1700000) (by decide) 100000#32 (EdgeOps.joinedWords x1 concatenates_S1600000_S100000_S1700000_d0) (EdgeOps.joinedWords x2 concatenates_S1600000_S100000_S1700000_d0)) (HostDense.row b) := by
  rw [carried_eq x1 x2, dot_eq h w]
  unfold val_main_call0_v0 val_main_call0_cst
  refine (HostDense.max_zero_eq _ bcast_S_S100000x128).trans ?_
  funext i
  obtain ⟨p, q, rfl⟩ : ∃ (p : Fin 100000) (q : Fin 128), i = ix2 p q := ⟨i 0, i 1, eq_ix2 i⟩
  rw [Dense.relu_apply, addf_apply, bias_apply]
  rfl

/-! ## The two layers -/

/-- The first layer. -/
theorem layer1_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x4 : (⟨S128x128, .f32⟩ : BufTy).Contents (Elt Ideal)) (x5 : (⟨S128, .f32⟩ : BufTy).Contents (Elt Ideal)) :
    val_main_v44 (F := Ideal) x0 x1 x2 x4 x5
      = (layerR (N := 100000) (E := 1700000) (by decide) 100000#32 (EdgeOps.joinedWords x1 concatenates_S1600000_S100000_S1700000_d0) (EdgeOps.joinedWords x2 concatenates_S1600000_S100000_S1700000_d0) x0 x4
          (edgeNorm (N := 100000) (E := 1700000) (by decide) 100000#32 (EdgeOps.joinedWords x1 concatenates_S1600000_S100000_S1700000_d0) (EdgeOps.joinedWords x2 concatenates_S1600000_S100000_S1700000_d0)) (HostDense.row x5)) :=
  layer_eq x1 x2 x0 x4 x5

/-- The second layer: the same layer at the first layer's result. -/
theorem layer2_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v62 (F := Ideal) x0 x1 x2 x4 x5 x6 x7
      = (layerR (N := 100000) (E := 1700000) (by decide) 100000#32 (EdgeOps.joinedWords x1 concatenates_S1600000_S100000_S1700000_d0) (EdgeOps.joinedWords x2 concatenates_S1600000_S100000_S1700000_d0) (layerR (N := 100000) (E := 1700000) (by decide) 100000#32 (EdgeOps.joinedWords x1 concatenates_S1600000_S100000_S1700000_d0) (EdgeOps.joinedWords x2 concatenates_S1600000_S100000_S1700000_d0) x0 x4
          (edgeNorm (N := 100000) (E := 1700000) (by decide) 100000#32 (EdgeOps.joinedWords x1 concatenates_S1600000_S100000_S1700000_d0) (EdgeOps.joinedWords x2 concatenates_S1600000_S100000_S1700000_d0)) (HostDense.row x5)) x6
          (edgeNorm (N := 100000) (E := 1700000) (by decide) 100000#32 (EdgeOps.joinedWords x1 concatenates_S1600000_S100000_S1700000_d0) (EdgeOps.joinedWords x2 concatenates_S1600000_S100000_S1700000_d0)) (HostDense.row x7)) := by
  rw [← layer1_eq x0 x1 x2 x4 x5]
  exact layer_eq x1 x2 (val_main_v44 (F := Ideal) x0 x1 x2 x4 x5) x6 x7

/-! ## The readout -/

/-- The node rows added into zeros at the graph words: the per-graph sums. -/
theorem readout_eq (x3 : (⟨S100000, .i32⟩ : BufTy).Contents (Elt Ideal)) (h : FVec Ideal S100000x128 .f32) :
    Host.scatterAdd (F := Ideal) scatter_S512x128_S100000x1_S100000x128_1_0_0_1 (val_main_v63 (F := Ideal))
        (val_main_v64 (F := Ideal) x3) h
      = readout (P := 512) (fun n : Fin 100000 => x3 (ix1 n)) h := by
  refine EdgeOps.scatter_eq_readout (N := 100000) (C := 128) (P := 512)
    scatter_S512x128_S100000x1_S100000x128_1_0_0_1.wf _ rfl _ (fun i => ?_) _ _ (fun n => ?_) h
  · rw [val_main_v63_apply, val_main_cst_11_apply]
    exact Ideal.ofBits_zero_f32
  · unfold val_main_v64
    exact JoinIota.broadcast_vec_column_apply bcast_S100000_S100000x1_0 x3 n

/-- The per-graph sums of the second layer's rows. -/
theorem pooled_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S100000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v65 (F := Ideal) x0 x1 x2 x3 x4 x5 x6 x7
      = (readout (P := 512) (fun n : Fin 100000 => x3 (ix1 n)) (layerR (N := 100000) (E := 1700000) (by decide) 100000#32 (EdgeOps.joinedWords x1 concatenates_S1600000_S100000_S1700000_d0) (EdgeOps.joinedWords x2 concatenates_S1600000_S100000_S1700000_d0) (layerR (N := 100000) (E := 1700000) (by decide) 100000#32 (EdgeOps.joinedWords x1 concatenates_S1600000_S100000_S1700000_d0) (EdgeOps.joinedWords x2 concatenates_S1600000_S100000_S1700000_d0) x0 x4
          (edgeNorm (N := 100000) (E := 1700000) (by decide) 100000#32 (EdgeOps.joinedWords x1 concatenates_S1600000_S100000_S1700000_d0) (EdgeOps.joinedWords x2 concatenates_S1600000_S100000_S1700000_d0)) (HostDense.row x5)) x6
          (edgeNorm (N := 100000) (E := 1700000) (by decide) 100000#32 (EdgeOps.joinedWords x1 concatenates_S1600000_S100000_S1700000_d0) (EdgeOps.joinedWords x2 concatenates_S1600000_S100000_S1700000_d0)) (HostDense.row x7))) := by
  unfold val_main_v65
  rw [layer2_eq]
  exact readout_eq x3 _

/-! ## The head -/

/-- The first dense layer of the head, rectified. -/
theorem dense1_eq (hg : FVec Ideal S512x128 .f32) (w : FVec Ideal S128x256 .f32) (b : FVec Ideal S256 .f32) :
    maximumf (F := Ideal)
        (addf (Host.dotGeneral dot_S512x128_S128x256_S512x256_1_0_0_1_n_n none hg w) (val_main_v68 (F := Ideal) b))
        (val_main_call2_v0 (F := Ideal))
      = Dense.relu (Dense.lin hg w (HostDense.row b)) := by
  unfold val_main_v68 val_main_v67 val_main_call2_v0 val_main_call2_cst
  rw [HostDense.dot_bias_eq dot_S512x128_S128x256_S512x256_1_0_0_1_n_n rfl rfl
    lhs_main_v66_0 lhs_main_v66_1 rhs_main_v66_0 rhs_main_v66_1 none hg w b bcast_S256_S1x256_1 bcast_S1x256_S512x256_0_1]
  exact HostDense.max_zero_eq _ bcast_S_S512x256

/-- The second dense layer of the head, rectified. -/
theorem dense2_eq (hg : FVec Ideal S512x256 .f32) (w : FVec Ideal S256x128 .f32) (b : FVec Ideal S128 .f32) :
    maximumf (F := Ideal)
        (addf (Host.dotGeneral dot_S512x256_S256x128_S512x128_1_0_0_1_n_n none hg w) (val_main_v73 (F := Ideal) b))
        (val_main_call3_v0 (F := Ideal))
      = Dense.relu (Dense.lin hg w (HostDense.row b)) := by
  unfold val_main_v73 val_main_v72 val_main_call3_v0 val_main_call3_cst
  rw [HostDense.dot_bias_eq dot_S512x256_S256x128_S512x128_1_0_0_1_n_n rfl rfl
    lhs_main_v71_0 lhs_main_v71_1 rhs_main_v71_0 rhs_main_v71_1 none hg w b bcast_S128_S1x128_1 bcast_S1x128_S512x128_0_1]
  exact HostDense.max_zero_eq _ bcast_S_S512x128

/-- The last dense layer of the head. -/
theorem dense3_eq (hg : FVec Ideal S512x128 .f32) (w : FVec Ideal S128x2 .f32) (b : FVec Ideal S2 .f32) :
    addf (F := Ideal) (Host.dotGeneral dot_S512x128_S128x2_S512x2_1_0_0_1_n_n none hg w) (val_main_v78 (F := Ideal) b)
      = Dense.lin hg w (HostDense.row b) := by
  unfold val_main_v78 val_main_v77
  exact HostDense.dot_bias_eq dot_S512x128_S128x2_S512x2_1_0_0_1_n_n rfl rfl
    lhs_main_v76_0 lhs_main_v76_1 rhs_main_v76_0 rhs_main_v76_1 none hg w b bcast_S2_S1x2_1 bcast_S1x2_S512x2_0_1

/-- The head's first layer at the per-graph sums. -/
theorem head1_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S100000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x256, .f32⟩ : BufTy).Contents (Elt Ideal)) (x9 : (⟨S256, .f32⟩ : BufTy).Contents (Elt Ideal)) :
    val_main_v70 (F := Ideal) x0 x1 x2 x3 x4 x5 x6 x7 x8 x9
      = (Dense.relu (Dense.lin (readout (P := 512) (fun n : Fin 100000 => x3 (ix1 n)) (layerR (N := 100000) (E := 1700000) (by decide) 100000#32 (EdgeOps.joinedWords x1 concatenates_S1600000_S100000_S1700000_d0) (EdgeOps.joinedWords x2 concatenates_S1600000_S100000_S1700000_d0) (layerR (N := 100000) (E := 1700000) (by decide) 100000#32 (EdgeOps.joinedWords x1 concatenates_S1600000_S100000_S1700000_d0) (EdgeOps.joinedWords x2 concatenates_S1600000_S100000_S1700000_d0) x0 x4
          (edgeNorm (N := 100000) (E := 1700000) (by decide) 100000#32 (EdgeOps.joinedWords x1 concatenates_S1600000_S100000_S1700000_d0) (EdgeOps.joinedWords x2 concatenates_S1600000_S100000_S1700000_d0)) (HostDense.row x5)) x6
          (edgeNorm (N := 100000) (E := 1700000) (by decide) 100000#32 (EdgeOps.joinedWords x1 concatenates_S1600000_S100000_S1700000_d0) (EdgeOps.joinedWords x2 concatenates_S1600000_S100000_S1700000_d0)) (HostDense.row x7))) x8 (HostDense.row x9))) := by
  unfold val_main_v70 val_main_v69 val_main_v66
  rw [pooled_eq]
  exact dense1_eq _ x8 x9

/-- The head's second layer at the first's result. -/
theorem head2_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S100000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal)) :
    val_main_v75 (F := Ideal) x0 x1 x2 x3 x4 x5 x6 x7 x8 x9 x10 x11
      = (Dense.relu (Dense.lin (Dense.relu (Dense.lin (readout (P := 512) (fun n : Fin 100000 => x3 (ix1 n)) (layerR (N := 100000) (E := 1700000) (by decide) 100000#32 (EdgeOps.joinedWords x1 concatenates_S1600000_S100000_S1700000_d0) (EdgeOps.joinedWords x2 concatenates_S1600000_S100000_S1700000_d0) (layerR (N := 100000) (E := 1700000) (by decide) 100000#32 (EdgeOps.joinedWords x1 concatenates_S1600000_S100000_S1700000_d0) (EdgeOps.joinedWords x2 concatenates_S1600000_S100000_S1700000_d0) x0 x4
          (edgeNorm (N := 100000) (E := 1700000) (by decide) 100000#32 (EdgeOps.joinedWords x1 concatenates_S1600000_S100000_S1700000_d0) (EdgeOps.joinedWords x2 concatenates_S1600000_S100000_S1700000_d0)) (HostDense.row x5)) x6
          (edgeNorm (N := 100000) (E := 1700000) (by decide) 100000#32 (EdgeOps.joinedWords x1 concatenates_S1600000_S100000_S1700000_d0) (EdgeOps.joinedWords x2 concatenates_S1600000_S100000_S1700000_d0)) (HostDense.row x7))) x8 (HostDense.row x9))) x10 (HostDense.row x11))) := by
  unfold val_main_v75 val_main_v74 val_main_v71
  rw [head1_eq]
  exact dense2_eq _ x10 x11

/-! ## The whole network -/

/-- The reference's last stage, as a function of the arguments, is the network. -/
theorem net_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S100000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal)) (x12 : (⟨S128x2, .f32⟩ : BufTy).Contents (Elt Ideal)) (x13 : (⟨S2, .f32⟩ : BufTy).Contents (Elt Ideal)) :
    val_main_v79 (F := Ideal) x0 x1 x2 x3 x4 x5 x6 x7 x8 x9 x10 x11 x12 x13
      = netR (N := 100000) (E := 1700000) (P := 512) (by decide) 100000#32 (EdgeOps.joinedWords x1 concatenates_S1600000_S100000_S1700000_d0) (EdgeOps.joinedWords x2 concatenates_S1600000_S100000_S1700000_d0)
          (fun n : Fin 100000 => x3 (ix1 n)) x0 x4 (HostDense.row x5) x6 (HostDense.row x7)
          x8 (HostDense.row x9) x10 (HostDense.row x11) x12 (HostDense.row x13) := by
  unfold val_main_v79 val_main_v76
  rw [head2_eq]
  exact dense3_eq _ x12 x13

/-! ## The run's result -/

/-- Every execution's result is the network of the arguments it was started with. -/
theorem result_eq (m : (ℓ : Loc nD τ sig) → Buf (Elt Ideal) ℓ) (c : Dev nD) :
    Cert.ReferenceIdeal.Value.res_main_v79 (F := Ideal) m c
      = netR (N := 100000) (E := 1700000) (P := 512) (by decide) 100000#32
          (EdgeOps.joinedWords (m ((c.tc : Thread nD τ).loc main_arg1)) concatenates_S1600000_S100000_S1700000_d0)
          (EdgeOps.joinedWords (m ((c.tc : Thread nD τ).loc main_arg2)) concatenates_S1600000_S100000_S1700000_d0)
          (fun n => m ((c.tc : Thread nD τ).loc main_arg3) (ix1 n))
          (m ((c.tc : Thread nD τ).loc main_arg0)) (m ((c.tc : Thread nD τ).loc main_arg4)) (HostDense.row (m ((c.tc : Thread nD τ).loc main_arg5)))
          (m ((c.tc : Thread nD τ).loc main_arg6)) (HostDense.row (m ((c.tc : Thread nD τ).loc main_arg7)))
          (m ((c.tc : Thread nD τ).loc main_arg8)) (HostDense.row (m ((c.tc : Thread nD τ).loc main_arg9)))
          (m ((c.tc : Thread nD τ).loc main_arg10)) (HostDense.row (m ((c.tc : Thread nD τ).loc main_arg11)))
          (m ((c.tc : Thread nD τ).loc main_arg12)) (HostDense.row (m ((c.tc : Thread nD τ).loc main_arg13))) := by
  rw [Read.val_main_v79_eq]
  exact net_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

end Cert.ReferenceIdeal.RefValue

end
-- ==== Proof.lean ====
/-
  The certificate of a two-layer degree-normalised graph convolution with a per-graph sum readout and a three-layer head:
  the kernel program against its jnp reference, on the extended reals.

  Both programs add one self-loop per node, count out- and in-degrees, and weight the contribution of an edge from j to
  i by rsqrt(out-degree j) · rsqrt(in-degree i). The reference multiplies every carried row by that product. The kernel
  program splits it: row j of the projected features is multiplied by rsqrt(out-degree j) before the edges carry it, and
  the finished sum at node i is multiplied by rsqrt(in-degree i). The first factor only regroups a product. The second
  moves across a finite sum of extended reals because it is a nonnegative real number — node i is the destination of
  its own self-loop, so its in-degree is a real ≥ 1 (`GraphLayers.netK_eq_netR`, from `hop_scale`). No finiteness of
  the inputs is used: the law holds at infinite entries too.

  The kernel program's run and what its result buffer holds are read through its four regions and the host operations
  between them (KernelRun, RegionArrays, HeadArray, KernelStages); the reference's result is read off its generated run
  (RefValue). The ideal pass rewrote nothing, so `preserves` is `True`. The three frames are the generated ones.
-/
import proofs.«178891_j7834020348011_2_alg».proof.Defs
import proofs.«178891_j7834020348011_2_alg».proof.Proof.Gen.Kernel
import proofs.«178891_j7834020348011_2_alg».proof.Proof.Gen.Kernel.Skeleton
import proofs.«178891_j7834020348011_2_alg».proof.Proof.Gen.Kernel.Launch
import proofs.«178891_j7834020348011_2_alg».proof.Proof.Gen.Kernel.Points
import proofs.«178891_j7834020348011_2_alg».proof.Proof.Gen.Kernel.Frame
import proofs.«178891_j7834020348011_2_alg».proof.Proof.Gen.KernelIdeal
import proofs.«178891_j7834020348011_2_alg».proof.Proof.Gen.KernelIdeal.Skeleton
import proofs.«178891_j7834020348011_2_alg».proof.Proof.Gen.KernelIdeal.Launch
import proofs.«178891_j7834020348011_2_alg».proof.Proof.Gen.KernelIdeal.Points
import proofs.«178891_j7834020348011_2_alg».proof.Proof.Gen.KernelIdeal.Frame
import proofs.«178891_j7834020348011_2_alg».proof.Proof.Gen.ReferenceIdeal
import proofs.«178891_j7834020348011_2_alg».proof.Proof.Gen.ReferenceIdeal.Run
import proofs.«178891_j7834020348011_2_alg».proof.Proof.Gen.ReferenceIdeal.Read
import proofs.«178891_j7834020348011_2_alg».proof.Proof.Gen.Pre_finite_inputs
import proofs.«178891_j7834020348011_2_alg».proof.Proof.GraphLayers
import proofs.«178891_j7834020348011_2_alg».proof.Proof.EdgeOps
import proofs.«178891_j7834020348011_2_alg».proof.Proof.KernelRun
import proofs.«178891_j7834020348011_2_alg».proof.Proof.KernelStages
import proofs.«178891_j7834020348011_2_alg».proof.Proof.RefValue
import Idealize.ShloMosaic.Adequacy
import Idealize.ShloMosaic.Init

noncomputable section

/-! ## The claims -/

namespace Cert.Proof

open Idealize.ShloMosaic Idealize.ShloMosaic.TcCoe Idealize.SL.Sem Cert.GraphLayers

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Every node is the destination of its own self-loop: the destination words end with the node numbers. -/
theorem every_node_named (m : (ℓ : Loc Cert.KernelIdeal.nD Cert.KernelIdeal.τ Cert.KernelIdeal.sig) → Buf (Elt Ideal) ℓ)
    (c : Dev Cert.KernelIdeal.nD) (n : Fin 100000) :
    ∃ e : Fin 1700000, (Cert.KernelIdeal.Stages.Dw m c e).toInt = (n.val : Int) :=
  Cert.EdgeOps.joined_names_all _ _ (by norm_num) n

/-- Both programs end holding the same network of their (agreeing) arguments: the kernel's with node-wise factors, the
    reference's with edge weights, one function because every node has a self-loop. -/
theorem algebraic : Cert.algebraic_KernelIdeal_ReferenceIdeal := by
  intro m ρ m' ρ' _ hagree
  refine ⟨fun c => netK (N := 100000) (E := 1700000) (P := 512) (by decide) 100000#32
      (Cert.KernelIdeal.Stages.Sw m c) (Cert.KernelIdeal.Stages.Dw m c) (Cert.KernelIdeal.Stages.Gw m c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg4))
      (Cert.HostDense.row (m ((c.tc : Thread Cert.KernelIdeal.nD Cert.KernelIdeal.τ).loc Cert.KernelIdeal.main_arg5)))
      (m ((c.tc : Thread Cert.KernelIdeal.nD Cert.KernelIdeal.τ).loc Cert.KernelIdeal.main_arg6))
      (Cert.HostDense.row (m ((c.tc : Thread Cert.KernelIdeal.nD Cert.KernelIdeal.τ).loc Cert.KernelIdeal.main_arg7)))
      (m ((c.tc : Thread Cert.KernelIdeal.nD Cert.KernelIdeal.τ).loc Cert.KernelIdeal.main_arg8))
      (Cert.HostDense.row (m ((c.tc : Thread Cert.KernelIdeal.nD Cert.KernelIdeal.τ).loc Cert.KernelIdeal.main_arg9)))
      (m ((c.tc : Thread Cert.KernelIdeal.nD Cert.KernelIdeal.τ).loc Cert.KernelIdeal.main_arg10))
      (Cert.HostDense.row (m ((c.tc : Thread Cert.KernelIdeal.nD Cert.KernelIdeal.τ).loc Cert.KernelIdeal.main_arg11)))
      (m ((c.tc : Thread Cert.KernelIdeal.nD Cert.KernelIdeal.τ).loc Cert.KernelIdeal.main_arg12))
      (Cert.HostDense.row (m ((c.tc : Thread Cert.KernelIdeal.nD Cert.KernelIdeal.τ).loc Cert.KernelIdeal.main_arg13))),
    ?_, ?_⟩
  · exact (θ_run Cert.KernelIdeal.defs _ _).mono
      (fun r h c => ⟨(h c).1.trans (Cert.KernelIdeal.Stages.result_eq m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.RefValue.result_eq m' c, e0, e1, e2, e3, e4, e5, e6, e7, e8, e9, e10, e11, e12, e13]
    exact (netK_eq_netR (N := 100000) (E := 1700000) (P := 512) (by decide) 100000#32
      (Cert.KernelIdeal.Stages.Sw m c) (Cert.KernelIdeal.Stages.Dw m c) (Cert.KernelIdeal.Stages.Gw m c) _ _ _ _ _ _ _ _ _ _ _
      (every_node_named m c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
